-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v94)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v164) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S256x256 : Shape := ⟨2, ![256, 256]⟩
abbrev S3x128x128 : Shape := ⟨3, ![3, 128, 128]⟩
abbrev S3x128 : Shape := ⟨2, ![3, 128]⟩
abbrev S128x128 : Shape := ⟨2, ![128, 128]⟩
abbrev S128 : Shape := ⟨1, ![128]⟩
abbrev S2x256x256 : Shape := ⟨3, ![2, 256, 256]⟩
abbrev S2x256 : Shape := ⟨2, ![2, 256]⟩
abbrev S64x256 : Shape := ⟨2, ![64, 256]⟩
abbrev S64 : Shape := ⟨1, ![64]⟩
abbrev S256x192 : Shape := ⟨2, ![256, 192]⟩
abbrev S256 : Shape := ⟨1, ![256]⟩
abbrev S1x256 : Shape := ⟨2, ![1, 256]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2x256x256 : S_.BroadcastsInDim S2x256x256 (![] : Fin 0 → Fin S2x256x256.rank)
  reducesTo_S2x256x256_S_d0_1_2 : S2x256x256.ReducesTo [0, 1, 2] S_
  bcast_S_S2x256 : S_.BroadcastsInDim S2x256 (![] : Fin 0 → Fin S2x256.rank)
  reducesTo_S2x256_S_d0_1 : S2x256.ReducesTo [0, 1] S_
  bcast_S_S64x256 : S_.BroadcastsInDim S64x256 (![] : Fin 0 → Fin S64x256.rank)
  reducesTo_S64x256_S_d0_1 : S64x256.ReducesTo [0, 1] S_
  bcast_S_S64 : S_.BroadcastsInDim S64 (![] : Fin 0 → Fin S64.rank)
  reducesTo_S64_S_d0 : S64.ReducesTo [0] S_
  bcast_S_S256x192 : S_.BroadcastsInDim S256x192 (![] : Fin 0 → Fin S256x192.rank)
  reducesTo_S256x192_S_d0_1 : S256x192.ReducesTo [0, 1] S_
  bcast_S_S256 : S_.BroadcastsInDim S256 (![] : Fin 0 → Fin S256.rank)
  reducesTo_S256_S_d0 : S256.ReducesTo [0] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg16 : FVec F S1x256 .f32) (main_arg17 : FVec F S1 .f32) (main_v63 : IVec S_ 1) (main_v67 : IVec S_ 1) : IVec S_ 1 :=
  let main_v68 : IVec S_ 1 := andi main_v63 main_v67
  let main_v69 : FVec F S1x256 .f32 := Host.absf main_arg16
  let main_cst_26 : FVec F S_ .f32 := constant S_ .f32 0x7F800000#32
  let main_v70 : FVec F S1x256 .f32 := broadcastInDim S1x256 ![] bcast_S_S1x256 main_cst_26
  let main_v71 : IVec S1x256 1 := cmpf .olt main_v69 main_v70
  let main_c_27 : IVec S_ 1 := constantI S_ 1 1#1
  let main_v72 : IVec S_ 1 := (fun x v => Host.reduce IntOp.andi x v reducesTo_S1x256_S_d0_1 h_S_) main_v71 main_c_27
  let main_v73 : IVec S_ 1 := andi main_v68 main_v72
  let main_v74 : FVec F S1 .f32 := Host.absf main_arg17
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  main_v78

def fn_part3 {F : FTy → Type} [FloatOps F] (main_arg13 : FVec F S256 .f32) (main_arg14 : FVec F S256x256 .f32) (main_arg15 : FVec F S256 .f32) (main_arg16 : FVec F S1x256 .f32) (main_arg17 : FVec F S1 .f32) (main_v48 : IVec S_ 1) (main_v49 : FVec F S256x192 .f32) (main_v50 : FVec F S256x192 .f32) : IVec S_ 1 :=
  let main_v51 : IVec S256x192 1 := cmpf .olt main_v49 main_v50
  let main_c_19 : IVec S_ 1 := constantI S_ 1 1#1
  let main_v52 : IVec S_ 1 := (fun x v => Host.reduce IntOp.andi x v reducesTo_S256x192_S_d0_1 h_S_) main_v51 main_c_19
  let main_v53 : IVec S_ 1 := andi main_v48 main_v52
  let main_v54 : FVec F S256 .f32 := Host.absf main_arg13
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x256 .f32 := Host.absf main_arg14
  let main_cst_22 : FVec F S_ .f32 := constant S_ .f32 0x7F800000#32
  let main_v60 : FVec F S256x256 .f32 := broadcastInDim S256x256 ![] bcast_S_S256x256 main_cst_22
  let main_v61 : IVec S256x256 1 := cmpf .olt main_v59 main_v60
  let main_c_23 : IVec S_ 1 := constantI S_ 1 1#1
  let main_v62 : IVec S_ 1 := (fun x v => Host.reduce IntOp.andi x v reducesTo_S256x256_S_d0_1 h_S_) main_v61 main_c_23
  let main_v63 : IVec S_ 1 := andi main_v58 main_v62
  let main_v64 : FVec F S256 .f32 := Host.absf main_arg15
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg16 main_arg17 main_v63 main_v67

def fn_part2 {F : FTy → Type} [FloatOps F] (main_arg9 : FVec F S2x256 .f32) (main_arg10 : FVec F S64x256 .f32) (main_arg11 : FVec F S64 .f32) (main_arg12 : FVec F S256x192 .f32) (main_arg13 : FVec F S256 .f32) (main_arg14 : FVec F S256x256 .f32) (main_arg15 : FVec F S256 .f32) (main_arg16 : FVec F S1x256 .f32) (main_arg17 : FVec F S1 .f32) (main_v33 : IVec S_ 1) : IVec S_ 1 :=
  let main_v34 : FVec F S2x256 .f32 := Host.absf main_arg9
  let main_cst_12 : FVec F S_ .f32 := constant S_ .f32 0x7F800000#32
  let main_v35 : FVec F S2x256 .f32 := broadcastInDim S2x256 ![] bcast_S_S2x256 main_cst_12
  let main_v36 : IVec S2x256 1 := cmpf .olt main_v34 main_v35
  let main_c_13 : IVec S_ 1 := constantI S_ 1 1#1
  let main_v37 : IVec S_ 1 := (fun x v => Host.reduce IntOp.andi x v reducesTo_S2x256_S_d0_1 h_S_) main_v36 main_c_13
  let main_v38 : IVec S_ 1 := andi main_v33 main_v37
  let main_v39 : FVec F S64x256 .f32 := Host.absf main_arg10
  let main_cst_14 : FVec F S_ .f32 := constant S_ .f32 0x7F800000#32
  let main_v40 : FVec F S64x256 .f32 := broadcastInDim S64x256 ![] bcast_S_S64x256 main_cst_14
  let main_v41 : IVec S64x256 1 := cmpf .olt main_v39 main_v40
  let main_c_15 : IVec S_ 1 := constantI S_ 1 1#1
  let main_v42 : IVec S_ 1 := (fun x v => Host.reduce IntOp.andi x v reducesTo_S64x256_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S256x192 .f32 := Host.absf main_arg12
  let main_cst_18 : FVec F S_ .f32 := constant S_ .f32 0x7F800000#32
  let main_v50 : FVec F S256x192 .f32 := broadcastInDim S256x192 ![] bcast_S_S256x192 main_cst_18
  fn_part3 (F := F) main_arg13 main_arg14 main_arg15 main_arg16 main_arg17 main_v48 main_v49 main_v50

def fn_part1 {F : FTy → Type} [FloatOps F] (main_arg6 : FVec F S128x128 .f32) (main_arg7 : FVec F S128 .f32) (main_arg8 : FVec F S2x256x256 .f32) (main_arg9 : FVec F S2x256 .f32) (main_arg10 : FVec F S64x256 .f32) (main_arg11 : FVec F S64 .f32) (main_arg12 : FVec F S256x192 .f32) (main_arg13 : FVec F S256 .f32) (main_arg14 : FVec F S256x256 .f32) (main_arg15 : FVec F S256 .f32) (main_arg16 : FVec F S1x256 .f32) (main_arg17 : FVec F S1 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S2x256x256 .f32 := Host.absf main_arg8
  let main_cst_10 : FVec F S_ .f32 := constant S_ .f32 0x7F800000#32
  let main_v30 : FVec F S2x256x256 .f32 := broadcastInDim S2x256x256 ![] bcast_S_S2x256x256 main_cst_10
  let main_v31 : IVec S2x256x256 1 := cmpf .olt main_v29 main_v30
  let main_c_11 : IVec S_ 1 := constantI S_ 1 1#1
  let main_v32 : IVec S_ 1 := (fun x v => Host.reduce IntOp.andi x v reducesTo_S2x256x256_S_d0_1_2 h_S_) main_v31 main_c_11
  let main_v33 : IVec S_ 1 := andi main_v28 main_v32
  fn_part2 (F := F) main_arg9 main_arg10 main_arg11 main_arg12 main_arg13 main_arg14 main_arg15 main_arg16 main_arg17 main_v33

def fn {F : FTy → Type} [FloatOps F] (main_arg0 : FVec F S50000x128 .f32) (main_arg1 : IVec S2x800000 32) (main_arg2 : IVec S50000 32) (main_arg3 : FVec F S256x256 .f32) (main_arg4 : FVec F S3x128x128 .f32) (main_arg5 : FVec F S3x128 .f32) (main_arg6 : FVec F S128x128 .f32) (main_arg7 : FVec F S128 .f32) (main_arg8 : FVec F S2x256x256 .f32) (main_arg9 : FVec F S2x256 .f32) (main_arg10 : FVec F S64x256 .f32) (main_arg11 : FVec F S64 .f32) (main_arg12 : FVec F S256x192 .f32) (main_arg13 : FVec F S256 .f32) (main_arg14 : FVec F S256x256 .f32) (main_arg15 : FVec F S256 .f32) (main_arg16 : FVec F S1x256 .f32) (main_arg17 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x256 .f32 := Host.absf main_arg3
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S3x128x128 .f32 := Host.absf main_arg4
  let main_cst_2 : FVec F S_ .f32 := constant S_ .f32 0x7F800000#32
  let main_v10 : FVec F S3x128x128 .f32 := broadcastInDim S3x128x128 ![] bcast_S_S3x128x128 main_cst_2
  let main_v11 : IVec S3x128x128 1 := cmpf .olt main_v9 main_v10
  let main_c_3 : IVec S_ 1 := constantI S_ 1 1#1
  let main_v12 : IVec S_ 1 := (fun x v => Host.reduce IntOp.andi x v reducesTo_S3x128x128_S_d0_1_2 h_S_) main_v11 main_c_3
  let main_v13 : IVec S_ 1 := andi main_v8 main_v12
  let main_v14 : FVec F S3x128 .f32 := Host.absf main_arg5
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg6 main_arg7 main_arg8 main_arg9 main_arg10 main_arg11 main_arg12 main_arg13 main_arg14 main_arg15 main_arg16 main_arg17 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S256x256 : Shape := ⟨2, ![256, 256]⟩
abbrev S3x128x128 : Shape := ⟨3, ![3, 128, 128]⟩
abbrev S3x128 : Shape := ⟨2, ![3, 128]⟩
abbrev S128x128 : Shape := ⟨2, ![128, 128]⟩
abbrev S128 : Shape := ⟨1, ![128]⟩
abbrev S2x256x256 : Shape := ⟨3, ![2, 256, 256]⟩
abbrev S2x256 : Shape := ⟨2, ![2, 256]⟩
abbrev S64x256 : Shape := ⟨2, ![64, 256]⟩
abbrev S64 : Shape := ⟨1, ![64]⟩
abbrev S256x192 : Shape := ⟨2, ![256, 192]⟩
abbrev S256 : Shape := ⟨1, ![256]⟩
abbrev S1x256 : Shape := ⟨2, ![1, 256]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S1x128x128 : Shape := ⟨3, ![1, 128, 128]⟩
abbrev S5000x128 : Shape := ⟨2, ![5000, 128]⟩
abbrev S5000x1 : Shape := ⟨2, ![5000, 1]⟩
abbrev S800000x128 : Shape := ⟨2, ![800000, 128]⟩
abbrev S1x128 : Shape := ⟨2, ![1, 128]⟩
abbrev S256x128 : Shape := ⟨2, ![256, 128]⟩
abbrev S256x1 : Shape := ⟨2, ![256, 1]⟩
abbrev S1x256x256 : Shape := ⟨3, ![1, 256, 256]⟩
abbrev S256x64 : Shape := ⟨2, ![256, 64]⟩
abbrev S192x256 : Shape := ⟨2, ![192, 256]⟩
abbrev S1x64 : Shape := ⟨2, ![1, 64]⟩
abbrev S1x1 : Shape := ⟨2, ![1, 1]⟩

abbrev nBuf : Space → Nat
  | .hbm => 128
  | .vmem => 54
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S256x256, .f32⟩
  | .hbm, ⟨4, _⟩ => ⟨S3x128x128, .f32⟩
  | .hbm, ⟨5, _⟩ => ⟨S3x128, .f32⟩
  | .hbm, ⟨6, _⟩ => ⟨S128x128, .f32⟩
  | .hbm, ⟨7, _⟩ => ⟨S128, .f32⟩
  | .hbm, ⟨8, _⟩ => ⟨S2x256x256, .f32⟩
  | .hbm, ⟨9, _⟩ => ⟨S2x256, .f32⟩
  | .hbm, ⟨10, _⟩ => ⟨S64x256, .f32⟩
  | .hbm, ⟨11, _⟩ => ⟨S64, .f32⟩
  | .hbm, ⟨12, _⟩ => ⟨S256x192, .f32⟩
  | .hbm, ⟨13, _⟩ => ⟨S256, .f32⟩
  | .hbm, ⟨14, _⟩ => ⟨S256x256, .f32⟩
  | .hbm, ⟨15, _⟩ => ⟨S256, .f32⟩
  | .hbm, ⟨16, _⟩ => ⟨S1x256, .f32⟩
  | .hbm, ⟨17, _⟩ => ⟨S1, .f32⟩
  | .hbm, ⟨18, _⟩ => ⟨S1x800000, .i32⟩
  | .hbm, ⟨19, _⟩ => ⟨S800000, .i32⟩
  | .hbm, ⟨20, _⟩ => ⟨S1x800000, .i32⟩
  | .hbm, ⟨21, _⟩ => ⟨S800000, .i32⟩
  | .hbm, ⟨22, _⟩ => ⟨S_, .f32⟩
  | .hbm, ⟨23, _⟩ => ⟨S800000, .f32⟩
  | .hbm, ⟨24, _⟩ => ⟨S_, .f32⟩
  | .hbm, ⟨25, _⟩ => ⟨S50000, .f32⟩
  | .hbm, ⟨26, _⟩ => ⟨S800000x1, .i32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000, .f32⟩
  | .hbm, ⟨32, _⟩ => ⟨S50000x1, .f32⟩
  | .hbm, ⟨33, _⟩ => ⟨S1x128x128, .f32⟩
  | .hbm, ⟨34, _⟩ => ⟨S128x128, .f32⟩
  | .hbm, ⟨35, _⟩ => ⟨S128x128, .f32⟩
  | .hbm, ⟨36, _⟩ => ⟨S50000x128, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x128, .f32⟩
  | .hbm, ⟨46, _⟩ => ⟨S_, .f32⟩
  | .hbm, ⟨47, _⟩ => ⟨S50000x128, .f32⟩
  | .hbm, ⟨48, _⟩ => ⟨S800000x1, .i32⟩
  | .hbm, ⟨49, _⟩ => ⟨S50000x128, .f32⟩
  | .hbm, ⟨50, _⟩ => ⟨S1x128, .f32⟩
  | .hbm, ⟨51, _⟩ => ⟨S128, .f32⟩
  | .hbm, ⟨52, _⟩ => ⟨S1x128, .f32⟩
  | .hbm, ⟨53, _⟩ => ⟨S1x128x128, .f32⟩
  | .hbm, ⟨54, _⟩ => ⟨S128x128, .f32⟩
  | .hbm, ⟨55, _⟩ => ⟨S128x128, .f32⟩
  | .hbm, ⟨56, _⟩ => ⟨S50000x128, .f32⟩
  | .hbm, ⟨57, _⟩ => ⟨S_, .i32⟩
  | .hbm, ⟨58, _⟩ => ⟨S800000, .i32⟩
  | .hbm, ⟨59, _⟩ => ⟨S800000, .i1⟩
  | .hbm, ⟨60, _⟩ => ⟨S_, .i32⟩
  | .hbm, ⟨61, _⟩ => ⟨S800000, .i32⟩
  | .hbm, ⟨62, _⟩ => ⟨S800000, .i32⟩
  | .hbm, ⟨63, _⟩ => ⟨S800000, .i32⟩
  | .hbm, ⟨64, _⟩ => ⟨S800000x1, .i32⟩
  | .hbm, ⟨65, _⟩ => ⟨S800000x128, .f32⟩
  | .hbm, ⟨66, _⟩ => ⟨S_, .f32⟩
  | .hbm, ⟨67, _⟩ => ⟨S50000x128, .f32⟩
  | .hbm, ⟨68, _⟩ => ⟨S800000x1, .i32⟩
  | .hbm, ⟨69, _⟩ => ⟨S50000x128, .f32⟩
  | .hbm, ⟨70, _⟩ => ⟨S1x128, .f32⟩
  | .hbm, ⟨71, _⟩ => ⟨S128, .f32⟩
  | .hbm, ⟨72, _⟩ => ⟨S1x128, .f32⟩
  | .hbm, ⟨73, _⟩ => ⟨S1x128x128, .f32⟩
  | .hbm, ⟨74, _⟩ => ⟨S128x128, .f32⟩
  | .hbm, ⟨75, _⟩ => ⟨S128x128, .f32⟩
  | .hbm, ⟨76, _⟩ => ⟨S50000x128, .f32⟩
  | .hbm, ⟨77, _⟩ => ⟨S_, .i32⟩
  | .hbm, ⟨78, _⟩ => ⟨S800000, .i32⟩
  | .hbm, ⟨79, _⟩ => ⟨S800000, .i1⟩
  | .hbm, ⟨80, _⟩ => ⟨S_, .i32⟩
  | .hbm, ⟨81, _⟩ => ⟨S800000, .i32⟩
  | .hbm, ⟨82, _⟩ => ⟨S800000, .i32⟩
  | .hbm, ⟨83, _⟩ => ⟨S800000, .i32⟩
  | .hbm, ⟨84, _⟩ => ⟨S800000x1, .i32⟩
  | .hbm, ⟨85, _⟩ => ⟨S800000x128, .f32⟩
  | .hbm, ⟨86, _⟩ => ⟨S_, .f32⟩
  | .hbm, ⟨87, _⟩ => ⟨S50000x128, .f32⟩
  | .hbm, ⟨88, _⟩ => ⟨S800000x1, .i32⟩
  | .hbm, ⟨89, _⟩ => ⟨S50000x128, .f32⟩
  | .hbm, ⟨90, _⟩ => ⟨S1x128, .f32⟩
  | .hbm, ⟨91, _⟩ => ⟨S128, .f32⟩
  | .hbm, ⟨92, _⟩ => ⟨S1x128, .f32⟩
  | .hbm, ⟨93, _⟩ => ⟨S128x128, .f32⟩
  | .hbm, ⟨94, _⟩ => ⟨S1x128, .f32⟩
  | .hbm, ⟨95, _⟩ => ⟨S50000x128, .f32⟩
  | .hbm, ⟨96, _⟩ => ⟨S_, .f32⟩
  | .hbm, ⟨97, _⟩ => ⟨S256x128, .f32⟩
  | .hbm, ⟨98, _⟩ => ⟨S50000x1, .i32⟩
  | .hbm, ⟨99, _⟩ => ⟨S256x128, .f32⟩
  | .hbm, ⟨100, _⟩ => ⟨S_, .f32⟩
  | .hbm, ⟨101, _⟩ => ⟨S50000, .f32⟩
  | .hbm, ⟨102, _⟩ => ⟨S_, .f32⟩
  | .hbm, ⟨103, _⟩ => ⟨S256, .f32⟩
  | .hbm, ⟨104, _⟩ => ⟨S50000x1, .i32⟩
  | .hbm, ⟨105, _⟩ => ⟨S256, .f32⟩
  | .hbm, ⟨106, _⟩ => ⟨S256x1, .f32⟩
  | .hbm, ⟨107, _⟩ => ⟨S1x256x256, .f32⟩
  | .hbm, ⟨108, _⟩ => ⟨S256x256, .f32⟩
  | .hbm, ⟨109, _⟩ => ⟨S256x256, .f32⟩
  | .hbm, ⟨110, _⟩ => ⟨S1x256x256, .f32⟩
  | .hbm, ⟨111, _⟩ => ⟨S256x256, .f32⟩
  | .hbm, ⟨112, _⟩ => ⟨S256x256, .f32⟩
  | .hbm, ⟨113, _⟩ => ⟨S256x64, .f32⟩
  | .hbm, ⟨114, _⟩ => ⟨S192x256, .f32⟩
  | .hbm, ⟨115, _⟩ => ⟨S256x256, .f32⟩
  | .hbm, ⟨116, _⟩ => ⟨S256x1, .f32⟩
  | .hbm, ⟨117, _⟩ => ⟨S1x256, .f32⟩
  | .hbm, ⟨118, _⟩ => ⟨S256, .f32⟩
  | .hbm, ⟨119, _⟩ => ⟨S1x256, .f32⟩
  | .hbm, ⟨120, _⟩ => ⟨S1x256, .f32⟩
  | .hbm, ⟨121, _⟩ => ⟨S256, .f32⟩
  | .hbm, ⟨122, _⟩ => ⟨S1x256, .f32⟩
  | .hbm, ⟨123, _⟩ => ⟨S1x64, .f32⟩
  | .hbm, ⟨124, _⟩ => ⟨S1x256, .f32⟩
  | .hbm, ⟨125, _⟩ => ⟨S1x256, .f32⟩
  | .hbm, ⟨126, _⟩ => ⟨S1x1, .f32⟩
  | .hbm, ⟨127, _⟩ => ⟨S256x1, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x1, .f32⟩
  | .local _ .vmem, ⟨12, _⟩ => ⟨S5000x1, .f32⟩
  | .local _ .vmem, ⟨13, _⟩ => ⟨S1x128, .f32⟩
  | .local _ .vmem, ⟨14, _⟩ => ⟨S128x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x1, .f32⟩
  | .local _ .vmem, ⟨22, _⟩ => ⟨S5000x1, .f32⟩
  | .local _ .vmem, ⟨23, _⟩ => ⟨S1x128, .f32⟩
  | .local _ .vmem, ⟨24, _⟩ => ⟨S128x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x1, .f32⟩
  | .local _ .vmem, ⟨32, _⟩ => ⟨S5000x1, .f32⟩
  | .local _ .vmem, ⟨33, _⟩ => ⟨S1x128, .f32⟩
  | .local _ .vmem, ⟨34, _⟩ => ⟨S128x128, .f32⟩
  | .local _ .vmem, ⟨35, _⟩ => ⟨S1x128, .f32⟩
  | .local _ .vmem, ⟨36, _⟩ => ⟨S5000x128, .f32⟩
  | .local _ .vmem, ⟨37, _⟩ => ⟨S5000x128, .f32⟩
  | .local _ .vmem, ⟨38, _⟩ => ⟨S256x128, .f32⟩
  | .local _ .vmem, ⟨39, _⟩ => ⟨S256x1, .f32⟩
  | .local _ .vmem, ⟨40, _⟩ => ⟨S256x256, .f32⟩
  | .local _ .vmem, ⟨41, _⟩ => ⟨S256x256, .f32⟩
  | .local _ .vmem, ⟨42, _⟩ => ⟨S256x256, .f32⟩
  | .local _ .vmem, ⟨43, _⟩ => ⟨S1x256, .f32⟩
  | .local _ .vmem, ⟨44, _⟩ => ⟨S1x256, .f32⟩
  | .local _ .vmem, ⟨45, _⟩ => ⟨S256x64, .f32⟩
  | .local _ .vmem, ⟨46, _⟩ => ⟨S1x64, .f32⟩
  | .local _ .vmem, ⟨47, _⟩ => ⟨S192x256, .f32⟩
  | .local _ .vmem, ⟨48, _⟩ => ⟨S1x256, .f32⟩
  | .local _ .vmem, ⟨49, _⟩ => ⟨S256x256, .f32⟩
  | .local _ .vmem, ⟨50, _⟩ => ⟨S1x256, .f32⟩
  | .local _ .vmem, ⟨51, _⟩ => ⟨S256x1, .f32⟩
  | .local _ .vmem, ⟨52, _⟩ => ⟨S1x1, .f32⟩
  | .local _ .vmem, ⟨53, _⟩ => ⟨S256x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_cst_0 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_1 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_c : Ref sig .tc := ⟨.hbm, 37, rfl⟩
abbrev main_v16 : Ref sig .tc := ⟨.hbm, 38, rfl⟩
abbrev main_v17 : Ref sig .tc := ⟨.hbm, 39, rfl⟩
abbrev main_c_2 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_3 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_c_4 : Ref sig .tc := ⟨.hbm, 57, rfl⟩
abbrev main_v33 : Ref sig .tc := ⟨.hbm, 58, rfl⟩
abbrev main_v34 : Ref sig .tc := ⟨.hbm, 59, rfl⟩
abbrev main_c_5 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_6 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_c_7 : Ref sig .tc := ⟨.hbm, 77, rfl⟩
abbrev main_v50 : Ref sig .tc := ⟨.hbm, 78, rfl⟩
abbrev main_v51 : Ref sig .tc := ⟨.hbm, 79, rfl⟩
abbrev main_c_8 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_9 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_10 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_cst_11 : Ref sig .tc := ⟨.hbm, 100, rfl⟩
abbrev main_v69 : Ref sig .tc := ⟨.hbm, 101, rfl⟩
abbrev main_cst_12 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg5_0 : Ref sig .tc := ⟨.vmem, 35, rfl⟩
abbrev cc3_stg6_0 : Ref sig .tc := ⟨.vmem, 36, rfl⟩
abbrev cc3_stg6_1 : Ref sig .tc := ⟨.vmem, 37, rfl⟩
abbrev cc4_stg0_0 : Ref sig .tc := ⟨.vmem, 38, rfl⟩
abbrev cc4_stg1_0 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg5_0 : Ref sig .tc := ⟨.vmem, 43, rfl⟩
abbrev cc4_stg6_0 : Ref sig .tc := ⟨.vmem, 44, rfl⟩
abbrev cc4_stg7_0 : Ref sig .tc := ⟨.vmem, 45, rfl⟩
abbrev cc4_stg8_0 : Ref sig .tc := ⟨.vmem, 46, rfl⟩
abbrev cc4_stg9_0 : Ref sig .tc := ⟨.vmem, 47, rfl⟩
abbrev cc4_stg10_0 : Ref sig .tc := ⟨.vmem, 48, rfl⟩
abbrev cc4_stg11_0 : Ref sig .tc := ⟨.vmem, 49, rfl⟩
abbrev cc4_stg12_0 : Ref sig .tc := ⟨.vmem, 50, rfl⟩
abbrev cc4_stg13_0 : Ref sig .tc := ⟨.vmem, 51, rfl⟩
abbrev cc4_stg14_0 : Ref sig .tc := ⟨.vmem, 52, rfl⟩
abbrev cc4_stg15_0 : Ref sig .tc := ⟨.vmem, 53, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem2_1 : DmaSem sig := 32
abbrev cc3_sem3_0 : DmaSem sig := 33
abbrev cc3_sem4_0 : DmaSem sig := 34
abbrev cc3_sem5_0 : DmaSem sig := 35
abbrev cc3_sem6_0 : DmaSem sig := 36
abbrev cc3_sem6_1 : DmaSem sig := 37
abbrev cc4_sem0_0 : DmaSem sig := 38
abbrev cc4_sem1_0 : DmaSem sig := 39
abbrev cc4_sem2_0 : DmaSem sig := 40
abbrev cc4_sem3_0 : DmaSem sig := 41
abbrev cc4_sem4_0 : DmaSem sig := 42
abbrev cc4_sem5_0 : DmaSem sig := 43
abbrev cc4_sem6_0 : DmaSem sig := 44
abbrev cc4_sem7_0 : DmaSem sig := 45
abbrev cc4_sem8_0 : DmaSem sig := 46
abbrev cc4_sem9_0 : DmaSem sig := 47
abbrev cc4_sem10_0 : DmaSem sig := 48
abbrev cc4_sem11_0 : DmaSem sig := 49
abbrev cc4_sem12_0 : DmaSem sig := 50
abbrev cc4_sem13_0 : DmaSem sig := 51
abbrev cc4_sem14_0 : DmaSem sig := 52
abbrev cc4_sem15_0 : DmaSem sig := 53

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_11 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_12 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_13 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_14 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_15 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S256x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S256x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S256x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S256x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S256x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x256 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x256 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S256x64 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x64 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S192x256 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 1 → Memref sig .tc .vmem S1x256 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false]

abbrev stage4_11 : Fin 1 → Memref sig .tc .vmem S256x256 .f32 := fun | 0 => Memref.whole cc4_stg11_0 | ⟨_ + 1, h⟩ => absurd h (Nat.not_lt.2 (Nat.le_add_left _ _))
abbrev sem4_11 : Fin 1 → DmaSem sig := fun | 0 => cc4_sem11_0 | ⟨_ + 1, h⟩ => absurd h (Nat.not_lt.2 (Nat.le_add_left _ _))
abbrev reads4_11 : Fin grid4.rank → Bool := ![false]

abbrev stage4_12 : Fin 1 → Memref sig .tc .vmem S1x256 .f32 := fun | 0 => Memref.whole cc4_stg12_0 | ⟨_ + 1, h⟩ => absurd h (Nat.not_lt.2 (Nat.le_add_left _ _))
abbrev sem4_12 : Fin 1 → DmaSem sig := fun | 0 => cc4_sem12_0 | ⟨_ + 1, h⟩ => absurd h (Nat.not_lt.2 (Nat.le_add_left _ _))
abbrev reads4_12 : Fin grid4.rank → Bool := ![false]

abbrev stage4_13 : Fin 1 → Memref sig .tc .vmem S256x1 .f32 := fun | 0 => Memref.whole cc4_stg13_0 | ⟨_ + 1, h⟩ => absurd h (Nat.not_lt.2 (Nat.le_add_left _ _))
abbrev sem4_13 : Fin 1 → DmaSem sig := fun | 0 => cc4_sem13_0 | ⟨_ + 1, h⟩ => absurd h (Nat.not_lt.2 (Nat.le_add_left _ _))
abbrev reads4_13 : Fin grid4.rank → Bool := ![false]

abbrev stage4_14 : Fin 1 → Memref sig .tc .vmem S1x1 .f32 := fun | 0 => Memref.whole cc4_stg14_0 | ⟨_ + 1, h⟩ => absurd h (Nat.not_lt.2 (Nat.le_add_left _ _))
abbrev sem4_14 : Fin 1 → DmaSem sig := fun | 0 => cc4_sem14_0 | ⟨_ + 1, h⟩ => absurd h (Nat.not_lt.2 (Nat.le_add_left _ _))
abbrev reads4_14 : Fin grid4.rank → Bool := ![false]

abbrev stage4_15 : Fin 1 → Memref sig .tc .vmem S256x1 .f32 := fun | 0 => Memref.whole cc4_stg15_0 | ⟨_ + 1, h⟩ => absurd h (Nat.not_lt.2 (Nat.le_add_left _ _))
abbrev sem4_15 : Fin 1 → DmaSem sig := fun | 0 => cc4_sem15_0 | ⟨_ + 1, h⟩ => absurd h (Nat.not_lt.2 (Nat.le_add_left _ _))
abbrev reads4_15 : Fin grid4.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  slices_S3x128x128_S1x128x128_0_0_0 : S3x128x128.Slices ![0, 0, 0] S1x128x128
  shapeCasts_S1x128x128_S128x128 : S1x128x128.ShapeCasts S128x128
  transposes_S128x128_S128x128_1_0 : S128x128.Transposes [1, 0] S128x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S50000x128 : S_.BroadcastsInDim S50000x128 (![] : Fin 0 → Fin S50000x128.rank)
  slices_S3x128_S1x128_0_0 : S3x128.Slices ![0, 0] S1x128
  shapeCasts_S1x128_S128 : S1x128.ShapeCasts S128
  shapeCasts_S128_S1x128 : S128.ShapeCasts S1x128
  slices_S3x128x128_S1x128x128_1_0_0 : S3x128x128.Slices ![1, 0, 0] S1x128x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S256x128 : S_.BroadcastsInDim S256x128 (![] : Fin 0 → Fin S256x128.rank)
  bcast_S_S256 : S_.BroadcastsInDim S256 (![] : Fin 0 → Fin S256.rank)
  bcast_S256_S256x1_0 : S256.BroadcastsInDim S256x1 (![0] : Fin 1 → Fin S256x1.rank)
  slices_S2x256x256_S1x256x256_0_0_0 : S2x256x256.Slices ![0, 0, 0] S1x256x256
  shapeCasts_S1x256x256_S256x256 : S1x256x256.ShapeCasts S256x256
  transposes_S256x256_S256x256_1_0 : S256x256.Transposes [1, 0] S256x256
  slices_S2x256x256_S1x256x256_1_0_0 : S2x256x256.Slices ![1, 0, 0] S1x256x256
  transposes_S64x256_S256x64_1_0 : S64x256.Transposes [1, 0] S256x64
  transposes_S256x192_S192x256_1_0 : S256x192.Transposes [1, 0] S192x256
  transposes_S1x256_S256x1_1_0 : S1x256.Transposes [1, 0] S256x1
  slices_S2x256_S1x256_0_0 : S2x256.Slices ![0, 0] S1x256
  shapeCasts_S1x256_S256 : S1x256.ShapeCasts S256
  shapeCasts_S256_S1x256 : S256.ShapeCasts S1x256
  slices_S2x256_S1x256_1_0 : S2x256.Slices ![1, 0] S1x256
  shapeCasts_S64_S1x64 : S64.ShapeCasts S1x64
  shapeCasts_S1_S1x1 : S1.ShapeCasts S1x1
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S256x64 : S1x64.Broadcasts S256x64
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  broadcasts_S256x1_S256x128 : S256x1.Broadcasts S256x128
  concatenates_S256x128_S256x64_S256x192_d1 : Shape.Concatenates [S256x128, S256x64] S256x192 1
  inb_S192x256_S192x256_0_0 : ∀ a, (![0, 0] : Fin 2 → Nat) a + S192x256.size a ≤ S192x256.size a
  h_S192x256 : 0 < S192x256.numel
  shapeCasts_S192x256_S192x256 : S192x256.ShapeCasts S192x256
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S256x1 : S1x1.Broadcasts S256x1
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S256x128_S50000x1_S50000x128_1_0_0_1_wf : ScatterDims.WF S256x128 S50000x1 S50000x128 [1] [0] [0] 1
  scatter_S256_S50000x1_S50000_n_0_0_1_wf : ScatterDims.WF S256 S50000x1 S50000 [] [0] [0] 1
  dot_S256x256_S256x256_S256x256_1_0_0_1_n_n_wf : DotDims.WF S256x256 S256x256 S256x256 [1] [0] [0] [1] [] []
  dot_S256x256_S256x64_S256x64_1_0_0_1_n_n_wf : DotDims.WF S256x256 S256x64 S256x64 [1] [0] [0] [1] [] []
  dot_S256x192_S192x256_S256x256_1_0_0_1_n_n_wf : DotDims.WF S256x192 S192x256 S256x256 [1] [0] [0] [1] [] []
  dot_S256x256_S256x1_S256x1_1_0_0_1_n_n_wf : DotDims.WF S256x256 S256x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S50000x128.size a
  hwx3_6 : ∀ i : grid3.Coords, EltTy.bits .f32 = 32 ∨ (Rect.block (s := S50000x128) S5000x128.size (cc3_transform_6 i) (hinb3_6 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S256x128.size a ≤ S256x128.size a
  hwx4_0 : ∀ i : grid4.Coords, EltTy.bits .f32 = 32 ∨ (Rect.block (s := S256x128) S256x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x1.size a ≤ S256x1.size a
  hwx4_1 : ∀ i : grid4.Coords, EltTy.bits .f32 = 32 ∨ (Rect.block (s := S256x1) S256x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S256x256.size a ≤ S256x256.size a
  hwx4_2 : ∀ i : grid4.Coords, EltTy.bits .f32 = 32 ∨ (Rect.block (s := S256x256) S256x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256x256.size a ≤ S256x256.size a
  hwx4_3 : ∀ i : grid4.Coords, EltTy.bits .f32 = 32 ∨ (Rect.block (s := S256x256) S256x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S256x256.size a ≤ S256x256.size a
  hwx4_4 : ∀ i : grid4.Coords, EltTy.bits .f32 = 32 ∨ (Rect.block (s := S256x256) S256x256.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x256.size a ≤ S1x256.size a
  hwx4_5 : ∀ i : grid4.Coords, EltTy.bits .f32 = 32 ∨ (Rect.block (s := S1x256) S1x256.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x256.size a ≤ S1x256.size a
  hwx4_6 : ∀ i : grid4.Coords, EltTy.bits .f32 = 32 ∨ (Rect.block (s := S1x256) S1x256.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S256x64.size a ≤ S256x64.size a
  hwx4_7 : ∀ i : grid4.Coords, EltTy.bits .f32 = 32 ∨ (Rect.block (s := S256x64) S256x64.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x64.size a ≤ S1x64.size a
  hwx4_8 : ∀ i : grid4.Coords, EltTy.bits .f32 = 32 ∨ (Rect.block (s := S1x64) S1x64.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S192x256.size a ≤ S192x256.size a
  hwx4_9 : ∀ i : grid4.Coords, EltTy.bits .f32 = 32 ∨ (Rect.block (s := S192x256) S192x256.size (cc4_transform_9 i) (hinb4_9 i)).WholeWords (EltTy.packing .f32)
  hstage4_10 : ∀ j, (stage4_10 j).IsWhole
  nbuf4_10 : grid4.bufCount reads4_10 true = 1
  hreads4_10 : ∀ i i' : grid4.Coords, (∀ a, reads4_10 a = true → i a = i' a) → cc4_transform_10 i = cc4_transform_10 i'
  hinb4_10 : ∀ (i : grid4.Coords) a, (cc4_transform_10 i a + 1) * S1x256.size a ≤ S1x256.size a
  hwx4_10 : ∀ i : grid4.Coords, EltTy.bits .f32 = 32 ∨ (Rect.block (s := S1x256) S1x256.size (cc4_transform_10 i) (hinb4_10 i)).WholeWords (EltTy.packing .f32)
  hstage4_11 : ∀ j, (stage4_11 j).IsWhole
  nbuf4_11 : grid4.bufCount reads4_11 true = 1
  hreads4_11 : ∀ i i' : grid4.Coords, (∀ a, reads4_11 a = true → i a = i' a) → cc4_transform_11 i = cc4_transform_11 i'
  hinb4_11 : ∀ (i : grid4.Coords) a, (cc4_transform_11 i a + 1) * S256x256.size a ≤ S256x256.size a
  hwx4_11 : ∀ i : grid4.Coords, EltTy.bits .f32 = 32 ∨ (Rect.block (s := S256x256) S256x256.size (cc4_transform_11 i) (hinb4_11 i)).WholeWords (EltTy.packing .f32)
  hstage4_12 : ∀ j, (stage4_12 j).IsWhole
  nbuf4_12 : grid4.bufCount reads4_12 true = 1
  hreads4_12 : ∀ i i' : grid4.Coords, (∀ a, reads4_12 a = true → i a = i' a) → cc4_transform_12 i = cc4_transform_12 i'
  hinb4_12 : ∀ (i : grid4.Coords) a, (cc4_transform_12 i a + 1) * S1x256.size a ≤ S1x256.size a
  hwx4_12 : ∀ i : grid4.Coords, EltTy.bits .f32 = 32 ∨ (Rect.block (s := S1x256) S1x256.size (cc4_transform_12 i) (hinb4_12 i)).WholeWords (EltTy.packing .f32)
  hstage4_13 : ∀ j, (stage4_13 j).IsWhole
  nbuf4_13 : grid4.bufCount reads4_13 true = 1
  hreads4_13 : ∀ i i' : grid4.Coords, (∀ a, reads4_13 a = true → i a = i' a) → cc4_transform_13 i = cc4_transform_13 i'
  hinb4_13 : ∀ (i : grid4.Coords) a, (cc4_transform_13 i a + 1) * S256x1.size a ≤ S256x1.size a
  hwx4_13 : ∀ i : grid4.Coords, EltTy.bits .f32 = 32 ∨ (Rect.block (s := S256x1) S256x1.size (cc4_transform_13 i) (hinb4_13 i)).WholeWords (EltTy.packing .f32)
  hstage4_14 : ∀ j, (stage4_14 j).IsWhole
  nbuf4_14 : grid4.bufCount reads4_14 true = 1
  hreads4_14 : ∀ i i' : grid4.Coords, (∀ a, reads4_14 a = true → i a = i' a) → cc4_transform_14 i = cc4_transform_14 i'
  hinb4_14 : ∀ (i : grid4.Coords) a, (cc4_transform_14 i a + 1) * S1x1.size a ≤ S1x1.size a
  hwx4_14 : ∀ i : grid4.Coords, EltTy.bits .f32 = 32 ∨ (Rect.block (s := S1x1) S1x1.size (cc4_transform_14 i) (hinb4_14 i)).WholeWords (EltTy.packing .f32)
  hstage4_15 : ∀ j, (stage4_15 j).IsWhole
  nbuf4_15 : grid4.bufCount reads4_15 true = 1
  hreads4_15 : ∀ i i' : grid4.Coords, (∀ a, reads4_15 a = true → i a = i' a) → cc4_transform_15 i = cc4_transform_15 i'
  hinb4_15 : ∀ (i : grid4.Coords) a, (cc4_transform_15 i a + 1) * S256x1.size a ≤ S256x1.size a
  hwx4_15 : ∀ i : grid4.Coords, EltTy.bits .f32 = 32 ∨ (Rect.block (s := S256x1) S256x1.size (cc4_transform_15 i) (hinb4_15 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S256x128_S50000x1_S50000x128_1_0_0_1 : ScatterDims S256x128 S50000x1 S50000x128 where
  updateWindowDims := [1]
  insertedWindowDims := [0]
  scatterDimsToOperandDims := [0]
  indexVectorDim := 1
  wf := scatter_S256x128_S50000x1_S50000x128_1_0_0_1_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def dot_S256x256_S256x64_S256x64_1_0_0_1_n_n : DotDims S256x256 S256x64 S256x64 where
  lhsContracting := [1]
  rhsContracting := [0]
  lhsNonContracting := [0]
  rhsNonContracting := [1]
  lhsBatch := []
  rhsBatch := []
  wf := dot_S256x256_S256x64_S256x64_1_0_0_1_n_n_wf
def dot_S256x192_S192x256_S256x256_1_0_0_1_n_n : DotDims S256x192 S192x256 S256x256 where
  lhsContracting := [1]
  rhsContracting := [0]
  lhsNonContracting := [0]
  rhsNonContracting := [1]
  lhsBatch := []
  rhsBatch := []
  wf := dot_S256x192_S192x256_S256x256_1_0_0_1_n_n_wf
def dot_S256x256_S256x1_S256x1_1_0_0_1_n_n : DotDims S256x256 S256x1 S256x1 where
  lhsContracting := [1]
  rhsContracting := [0]
  lhsNonContracting := [0]
  rhsNonContracting := [1]
  lhsBatch := []
  rhsBatch := []
  wf := dot_S256x256_S256x1_S256x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v25) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v28) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v42) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v32) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v45) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v48) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v49) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v59) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v49) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v11) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v62) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v63) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v64) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v65) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v68) S256x128.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_v73) S256x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg3) S256x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v76) S256x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v79) S256x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v86) S1x256.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v89) S1x256.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v80) S256x64.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v90) S1x64.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v81) S192x256.size cc4_transform_9 reads4_9 false true 1 stage4_9 sem4_9
    hrank4 hreads4_9 hinb4_9 nbuf4_9 (Memref.isWhole_whole _) hwx4_9 hstage4_9

abbrev win4_10 : Pipeline.Window sig grid4 :=
  Pipeline.Window.ofSpec (Memref.whole main_v91) S1x256.size cc4_transform_10 reads4_10 false true 1 stage4_10 sem4_10
    hrank4 hreads4_10 hinb4_10 nbuf4_10 (Memref.isWhole_whole _) hwx4_10 hstage4_10

abbrev win4_11 : Pipeline.Window sig grid4 :=
  Pipeline.Window.ofSpec (Memref.whole main_v82) S256x256.size cc4_transform_11 reads4_11 false true 1 stage4_11 sem4_11
    hrank4 hreads4_11 hinb4_11 nbuf4_11 (Memref.isWhole_whole _) hwx4_11 hstage4_11

abbrev win4_12 : Pipeline.Window sig grid4 :=
  Pipeline.Window.ofSpec (Memref.whole main_v92) S1x256.size cc4_transform_12 reads4_12 false true 1 stage4_12 sem4_12
    hrank4 hreads4_12 hinb4_12 nbuf4_12 (Memref.isWhole_whole _) hwx4_12 hstage4_12

abbrev win4_13 : Pipeline.Window sig grid4 :=
  Pipeline.Window.ofSpec (Memref.whole main_v83) S256x1.size cc4_transform_13 reads4_13 false true 1 stage4_13 sem4_13
    hrank4 hreads4_13 hinb4_13 nbuf4_13 (Memref.isWhole_whole _) hwx4_13 hstage4_13

abbrev win4_14 : Pipeline.Window sig grid4 :=
  Pipeline.Window.ofSpec (Memref.whole main_v93) S1x1.size cc4_transform_14 reads4_14 false true 1 stage4_14 sem4_14
    hrank4 hreads4_14 hinb4_14 nbuf4_14 (Memref.isWhole_whole _) hwx4_14 hstage4_14

abbrev win4_15 : Pipeline.Window sig grid4 :=
  Pipeline.Window.ofSpec (Memref.whole main_v94) S256x1.size cc4_transform_15 reads4_15 true true 1 stage4_15 sem4_15
    hrank4 hreads4_15 hinb4_15 nbuf4_15 (Memref.isWhole_whole _) hwx4_15 hstage4_15

abbrev win4 : Fin 16 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | 11 => win4_11 | 12 => win4_12 | 13 => win4_13 | 14 => win4_14 | 15 => win4_15 | ⟨_ + 16, h⟩ => absurd h (Nat.not_lt.2 (Nat.le_add_left _ _))
abbrev spec4 : Fin 16 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S256x256 : Shape := ⟨2, ![256, 256]⟩
abbrev S3x128x128 : Shape := ⟨3, ![3, 128, 128]⟩
abbrev S3x128 : Shape := ⟨2, ![3, 128]⟩
abbrev S128x128 : Shape := ⟨2, ![128, 128]⟩
abbrev S128 : Shape := ⟨1, ![128]⟩
abbrev S2x256x256 : Shape := ⟨3, ![2, 256, 256]⟩
abbrev S2x256 : Shape := ⟨2, ![2, 256]⟩
abbrev S64x256 : Shape := ⟨2, ![64, 256]⟩
abbrev S64 : Shape := ⟨1, ![64]⟩
abbrev S256x192 : Shape := ⟨2, ![256, 192]⟩
abbrev S256 : Shape := ⟨1, ![256]⟩
abbrev S1x256 : Shape := ⟨2, ![1, 256]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S1x128x128 : Shape := ⟨3, ![1, 128, 128]⟩
abbrev S800000x128 : Shape := ⟨2, ![800000, 128]⟩
abbrev S1x128 : Shape := ⟨2, ![1, 128]⟩
abbrev S256x128 : Shape := ⟨2, ![256, 128]⟩
abbrev S256x1 : Shape := ⟨2, ![256, 1]⟩
abbrev S1x256x256 : Shape := ⟨3, ![1, 256, 256]⟩
abbrev S256x64 : Shape := ⟨2, ![256, 64]⟩
abbrev S1x64 : Shape := ⟨2, ![1, 64]⟩
abbrev S192x256 : Shape := ⟨2, ![192, 256]⟩
abbrev S1x1 : Shape := ⟨2, ![1, 1]⟩

abbrev nBuf : Space → Nat
  | .hbm => 219
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S256x256, .f32⟩
  | 4 => ⟨S3x128x128, .f32⟩
  | 5 => ⟨S3x128, .f32⟩
  | 6 => ⟨S128x128, .f32⟩
  | 7 => ⟨S128, .f32⟩
  | 8 => ⟨S2x256x256, .f32⟩
  | 9 => ⟨S2x256, .f32⟩
  | 10 => ⟨S64x256, .f32⟩
  | 11 => ⟨S64, .f32⟩
  | 12 => ⟨S256x192, .f32⟩
  | 13 => ⟨S256, .f32⟩
  | 14 => ⟨S256x256, .f32⟩
  | 15 => ⟨S256, .f32⟩
  | 16 => ⟨S1x256, .f32⟩
  | 17 => ⟨S1, .f32⟩
  | 18 => ⟨S1x800000, .i32⟩
  | 19 => ⟨S800000, .i32⟩
  | 20 => ⟨S1x800000, .i32⟩
  | 21 => ⟨S800000, .i32⟩
  | 22 => ⟨S_, .f32⟩
  | 23 => ⟨S800000, .f32⟩
  | 24 => ⟨S_, .f32⟩
  | 25 => ⟨S50000, .f32⟩
  | 26 => ⟨S800000x1, .i32⟩
  | 27 => ⟨S50000, .f32⟩
  | 28 => ⟨S_, .f32⟩
  | 29 => ⟨S50000, .f32⟩
  | 30 => ⟨S50000, .f32⟩
  | 31 => ⟨S50000, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000, .f32⟩
  | 41 => ⟨S_, .i32⟩
  | 42 => ⟨S800000, .i32⟩
  | 43 => ⟨S800000, .i1⟩
  | 44 => ⟨S_, .i32⟩
  | 45 => ⟨S800000, .i32⟩
  | 46 => ⟨S800000, .i32⟩
  | 47 => ⟨S800000, .i32⟩
  | 48 => ⟨S800000x1, .i32⟩
  | 49 => ⟨S800000, .f32⟩
  | 50 => ⟨S800000, .f32⟩
  | 51 => ⟨S800000x1, .f32⟩
  | 52 => ⟨S50000, .f32⟩
  | 53 => ⟨S50000x1, .f32⟩
  | 54 => ⟨S1x128x128, .f32⟩
  | 55 => ⟨S128x128, .f32⟩
  | 56 => ⟨S128x128, .f32⟩
  | 57 => ⟨S50000x128, .f32⟩
  | 58 => ⟨S_, .i32⟩
  | 59 => ⟨S800000, .i32⟩
  | 60 => ⟨S800000, .i1⟩
  | 61 => ⟨S_, .i32⟩
  | 62 => ⟨S800000, .i32⟩
  | 63 => ⟨S800000, .i32⟩
  | 64 => ⟨S800000, .i32⟩
  | 65 => ⟨S800000x1, .i32⟩
  | 66 => ⟨S800000x128, .f32⟩
  | 67 => ⟨S800000x128, .f32⟩
  | 68 => ⟨S800000x128, .f32⟩
  | 69 => ⟨S_, .f32⟩
  | 70 => ⟨S50000x128, .f32⟩
  | 71 => ⟨S800000x1, .i32⟩
  | 72 => ⟨S50000x128, .f32⟩
  | 73 => ⟨S50000x128, .f32⟩
  | 74 => ⟨S50000x128, .f32⟩
  | 75 => ⟨S50000x128, .f32⟩
  | 76 => ⟨S1x128, .f32⟩
  | 77 => ⟨S128, .f32⟩
  | 78 => ⟨S1x128, .f32⟩
  | 79 => ⟨S50000x128, .f32⟩
  | 80 => ⟨S50000x128, .f32⟩
  | 81 => ⟨S_, .f32⟩
  | 82 => ⟨S50000x128, .f32⟩
  | 83 => ⟨S50000x128, .f32⟩
  | 84 => ⟨S1x128x128, .f32⟩
  | 85 => ⟨S128x128, .f32⟩
  | 86 => ⟨S128x128, .f32⟩
  | 87 => ⟨S50000x128, .f32⟩
  | 88 => ⟨S_, .i32⟩
  | 89 => ⟨S800000, .i32⟩
  | 90 => ⟨S800000, .i1⟩
  | 91 => ⟨S_, .i32⟩
  | 92 => ⟨S800000, .i32⟩
  | 93 => ⟨S800000, .i32⟩
  | 94 => ⟨S800000, .i32⟩
  | 95 => ⟨S800000x1, .i32⟩
  | 96 => ⟨S800000x128, .f32⟩
  | 97 => ⟨S800000x128, .f32⟩
  | 98 => ⟨S800000x128, .f32⟩
  | 99 => ⟨S_, .f32⟩
  | 100 => ⟨S50000x128, .f32⟩
  | 101 => ⟨S800000x1, .i32⟩
  | 102 => ⟨S50000x128, .f32⟩
  | 103 => ⟨S50000x128, .f32⟩
  | 104 => ⟨S50000x128, .f32⟩
  | 105 => ⟨S50000x128, .f32⟩
  | 106 => ⟨S1x128, .f32⟩
  | 107 => ⟨S128, .f32⟩
  | 108 => ⟨S1x128, .f32⟩
  | 109 => ⟨S50000x128, .f32⟩
  | 110 => ⟨S50000x128, .f32⟩
  | 111 => ⟨S_, .f32⟩
  | 112 => ⟨S50000x128, .f32⟩
  | 113 => ⟨S50000x128, .f32⟩
  | 114 => ⟨S1x128x128, .f32⟩
  | 115 => ⟨S128x128, .f32⟩
  | 116 => ⟨S128x128, .f32⟩
  | 117 => ⟨S50000x128, .f32⟩
  | 118 => ⟨S_, .i32⟩
  | 119 => ⟨S800000, .i32⟩
  | 120 => ⟨S800000, .i1⟩
  | 121 => ⟨S_, .i32⟩
  | 122 => ⟨S800000, .i32⟩
  | 123 => ⟨S800000, .i32⟩
  | 124 => ⟨S800000, .i32⟩
  | 125 => ⟨S800000x1, .i32⟩
  | 126 => ⟨S800000x128, .f32⟩
  | 127 => ⟨S800000x128, .f32⟩
  | _ => ⟨S50000x128, .f32⟩

abbrev hbmTy0_1 (i : Nat) : BufTy := match i % 128 with
  | 0 => ⟨S800000x128, .f32⟩
  | 1 => ⟨S_, .f32⟩
  | 2 => ⟨S50000x128, .f32⟩
  | 3 => ⟨S800000x1, .i32⟩
  | 4 => ⟨S50000x128, .f32⟩
  | 5 => ⟨S50000x128, .f32⟩
  | 6 => ⟨S50000x128, .f32⟩
  | 7 => ⟨S50000x128, .f32⟩
  | 8 => ⟨S1x128, .f32⟩
  | 9 => ⟨S128, .f32⟩
  | 10 => ⟨S1x128, .f32⟩
  | 11 => ⟨S50000x128, .f32⟩
  | 12 => ⟨S50000x128, .f32⟩
  | 13 => ⟨S_, .f32⟩
  | 14 => ⟨S50000x128, .f32⟩
  | 15 => ⟨S50000x128, .f32⟩
  | 16 => ⟨S128x128, .f32⟩
  | 17 => ⟨S50000x128, .f32⟩
  | 18 => ⟨S1x128, .f32⟩
  | 19 => ⟨S50000x128, .f32⟩
  | 20 => ⟨S50000x128, .f32⟩
  | 21 => ⟨S_, .f32⟩
  | 22 => ⟨S256x128, .f32⟩
  | 23 => ⟨S50000x1, .i32⟩
  | 24 => ⟨S256x128, .f32⟩
  | 25 => ⟨S_, .f32⟩
  | 26 => ⟨S50000, .f32⟩
  | 27 => ⟨S_, .f32⟩
  | 28 => ⟨S256, .f32⟩
  | 29 => ⟨S50000x1, .i32⟩
  | 30 => ⟨S256, .f32⟩
  | 31 => ⟨S_, .f32⟩
  | 32 => ⟨S256, .f32⟩
  | 33 => ⟨S256, .f32⟩
  | 34 => ⟨S256x1, .f32⟩
  | 35 => ⟨S256x128, .f32⟩
  | 36 => ⟨S256x128, .f32⟩
  | 37 => ⟨S1x256x256, .f32⟩
  | 38 => ⟨S256x256, .f32⟩
  | 39 => ⟨S256x256, .f32⟩
  | 40 => ⟨S256x256, .f32⟩
  | 41 => ⟨S1x256, .f32⟩
  | 42 => ⟨S256, .f32⟩
  | 43 => ⟨S1x256, .f32⟩
  | 44 => ⟨S256x256, .f32⟩
  | 45 => ⟨S256x256, .f32⟩
  | 46 => ⟨S_, .f32⟩
  | 47 => ⟨S256x256, .f32⟩
  | 48 => ⟨S256x256, .f32⟩
  | 49 => ⟨S1x256x256, .f32⟩
  | 50 => ⟨S256x256, .f32⟩
  | 51 => ⟨S256x256, .f32⟩
  | 52 => ⟨S256x256, .f32⟩
  | 53 => ⟨S1x256, .f32⟩
  | 54 => ⟨S256, .f32⟩
  | 55 => ⟨S1x256, .f32⟩
  | 56 => ⟨S256x256, .f32⟩
  | 57 => ⟨S256x256, .f32⟩
  | 58 => ⟨S_, .f32⟩
  | 59 => ⟨S256x256, .f32⟩
  | 60 => ⟨S256x256, .f32⟩
  | 61 => ⟨S256x64, .f32⟩
  | 62 => ⟨S256x64, .f32⟩
  | 63 => ⟨S1x64, .f32⟩
  | 64 => ⟨S256x64, .f32⟩
  | 65 => ⟨S256x64, .f32⟩
  | 66 => ⟨S_, .f32⟩
  | 67 => ⟨S256x64, .f32⟩
  | 68 => ⟨S256x64, .f32⟩
  | 69 => ⟨S256x192, .f32⟩
  | 70 => ⟨S192x256, .f32⟩
  | 71 => ⟨S256x256, .f32⟩
  | 72 => ⟨S1x256, .f32⟩
  | 73 => ⟨S256x256, .f32⟩
  | 74 => ⟨S256x256, .f32⟩
  | 75 => ⟨S_, .f32⟩
  | 76 => ⟨S256x256, .f32⟩
  | 77 => ⟨S256x256, .f32⟩
  | 78 => ⟨S256x256, .f32⟩
  | 79 => ⟨S256x256, .f32⟩
  | 80 => ⟨S1x256, .f32⟩
  | 81 => ⟨S256x256, .f32⟩
  | 82 => ⟨S256x256, .f32⟩
  | 83 => ⟨S_, .f32⟩
  | 84 => ⟨S256x256, .f32⟩
  | 85 => ⟨S256x256, .f32⟩
  | 86 => ⟨S256x1, .f32⟩
  | 87 => ⟨S256x1, .f32⟩
  | 88 => ⟨S1x1, .f32⟩
  | 89 => ⟨S256x1, .f32⟩
  | 90 => ⟨S256x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_cst_0 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_1 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_c : Ref sig .tc := ⟨.hbm, 32, rfl⟩
abbrev main_v11 : Ref sig .tc := ⟨.hbm, 33, rfl⟩
abbrev main_v12 : Ref sig .tc := ⟨.hbm, 34, rfl⟩
abbrev main_c_2 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_c_3 : Ref sig .tc := ⟨.hbm, 41, rfl⟩
abbrev main_v18 : Ref sig .tc := ⟨.hbm, 42, rfl⟩
abbrev main_v19 : Ref sig .tc := ⟨.hbm, 43, rfl⟩
abbrev main_c_4 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_c_5 : Ref sig .tc := ⟨.hbm, 58, rfl⟩
abbrev main_v33 : Ref sig .tc := ⟨.hbm, 59, rfl⟩
abbrev main_v34 : Ref sig .tc := ⟨.hbm, 60, rfl⟩
abbrev main_c_6 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_7 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_call0_cst : Ref sig .tc := ⟨.hbm, 81, rfl⟩
abbrev main_call0_v0 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_c_8 : Ref sig .tc := ⟨.hbm, 88, rfl⟩
abbrev main_v58 : Ref sig .tc := ⟨.hbm, 89, rfl⟩
abbrev main_v59 : Ref sig .tc := ⟨.hbm, 90, rfl⟩
abbrev main_c_9 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst_10 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_call1_cst : Ref sig .tc := ⟨.hbm, 111, rfl⟩
abbrev main_call1_v0 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_c_11 : Ref sig .tc := ⟨.hbm, 118, rfl⟩
abbrev main_v83 : Ref sig .tc := ⟨.hbm, 119, rfl⟩
abbrev main_v84 : Ref sig .tc := ⟨.hbm, 120, rfl⟩
abbrev main_c_12 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_cst_13 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_call2_cst : Ref sig .tc := ⟨.hbm, 141, rfl⟩
abbrev main_call2_v0 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_cst_14 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_cst_15 : Ref sig .tc := ⟨.hbm, 153, rfl⟩
abbrev main_v112 : Ref sig .tc := ⟨.hbm, 154, rfl⟩
abbrev main_cst_16 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_cst_17 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_call3_cst : Ref sig .tc := ⟨.hbm, 174, rfl⟩
abbrev main_call3_v0 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_call4_cst : Ref sig .tc := ⟨.hbm, 186, rfl⟩
abbrev main_call4_v0 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_call5_cst : Ref sig .tc := ⟨.hbm, 194, rfl⟩
abbrev main_call5_v0 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_call6_cst : Ref sig .tc := ⟨.hbm, 203, rfl⟩
abbrev main_call6_v0 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_call7_cst : Ref sig .tc := ⟨.hbm, 211, rfl⟩
abbrev main_call7_v0 : Ref sig .tc := ⟨.hbm, 212, rfl⟩
abbrev main_v159 : Ref sig .tc := ⟨.hbm, 213, rfl⟩
abbrev main_v160 : Ref sig .tc := ⟨.hbm, 214, rfl⟩
abbrev main_v161 : Ref sig .tc := ⟨.hbm, 215, rfl⟩
abbrev main_v162 : Ref sig .tc := ⟨.hbm, 216, rfl⟩
abbrev main_v163 : Ref sig .tc := ⟨.hbm, 217, rfl⟩
abbrev main_v164 : Ref sig .tc := ⟨.hbm, 218, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  slices_S3x128x128_S1x128x128_0_0_0 : S3x128x128.Slices ![0, 0, 0] S1x128x128
  shapeCasts_S1x128x128_S128x128 : S1x128x128.ShapeCasts S128x128
  transposes_S128x128_S128x128_1_0 : S128x128.Transposes [1, 0] S128x128
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S256x128 : S_.BroadcastsInDim S256x128 (![] : Fin 0 → Fin S256x128.rank)
  bcast_S_S256 : S_.BroadcastsInDim S256 (![] : Fin 0 → Fin S256.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  slices_S2x256x256_S1x256x256_0_0_0 : S2x256x256.Slices ![0, 0, 0] S1x256x256
  shapeCasts_S1x256x256_S256x256 : S1x256x256.ShapeCasts S256x256
  transposes_S256x256_S256x256_1_0 : S256x256.Transposes [1, 0] S256x256
  slices_S2x256_S1x256_0_0 : S2x256.Slices ![0, 0] S1x256
  shapeCasts_S1x256_S256 : S1x256.ShapeCasts S256
  bcast_S256_S1x256_1 : S256.BroadcastsInDim S1x256 (![1] : Fin 1 → Fin S1x256.rank)
  bcast_S1x256_S256x256_0_1 : S1x256.BroadcastsInDim S256x256 (![0, 1] : Fin 2 → Fin S256x256.rank)
  bcast_S_S256x256 : S_.BroadcastsInDim S256x256 (![] : Fin 0 → Fin S256x256.rank)
  slices_S2x256x256_S1x256x256_1_0_0 : S2x256x256.Slices ![1, 0, 0] S1x256x256
  slices_S2x256_S1x256_1_0 : S2x256.Slices ![1, 0] S1x256
  transposes_S64x256_S256x64_1_0 : S64x256.Transposes [1, 0] S256x64
  bcast_S64_S1x64_1 : S64.BroadcastsInDim S1x64 (![1] : Fin 1 → Fin S1x64.rank)
  bcast_S1x64_S256x64_0_1 : S1x64.BroadcastsInDim S256x64 (![0, 1] : Fin 2 → Fin S256x64.rank)
  bcast_S_S256x64 : S_.BroadcastsInDim S256x64 (![] : Fin 0 → Fin S256x64.rank)
  concatenates_S256x128_S256x64_S256x192_d1 : Shape.Concatenates [S256x128, S256x64] S256x192 1
  transposes_S256x192_S192x256_1_0 : S256x192.Transposes [1, 0] S192x256
  transposes_S1x256_S256x1_1_0 : S1x256.Transposes [1, 0] S256x1
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S256x128_S50000x1_S50000x128_1_0_0_1_wf : ScatterDims.WF S256x128 S50000x1 S50000x128 [1] [0] [0] 1
  scatter_S256_S50000x1_S50000_n_0_0_1_wf : ScatterDims.WF S256 S50000x1 S50000 [] [0] [0] 1
  dot_S256x256_S256x256_S256x256_1_0_0_1_n_n_wf : DotDims.WF S256x256 S256x256 S256x256 [1] [0] [0] [1] [] []
  dot_S256x256_S256x64_S256x64_1_0_0_1_n_n_wf : DotDims.WF S256x256 S256x64 S256x64 [1] [0] [0] [1] [] []
  dot_S256x192_S192x256_S256x256_1_0_0_1_n_n_wf : DotDims.WF S256x192 S192x256 S256x256 [1] [0] [0] [1] [] []
  dot_S256x256_S256x1_S256x1_1_0_0_1_n_n_wf : DotDims.WF S256x256 S256x1 S256x1 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S256x128_S50000x1_S50000x128_1_0_0_1 : ScatterDims S256x128 S50000x1 S50000x128 where
  updateWindowDims := [1]
  insertedWindowDims := [0]
  scatterDimsToOperandDims := [0]
  indexVectorDim := 1
  wf := scatter_S256x128_S50000x1_S50000x128_1_0_0_1_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def dot_S256x256_S256x64_S256x64_1_0_0_1_n_n : DotDims S256x256 S256x64 S256x64 where
  lhsContracting := [1]
  rhsContracting := [0]
  lhsNonContracting := [0]
  rhsNonContracting := [1]
  lhsBatch := []
  rhsBatch := []
  wf := dot_S256x256_S256x64_S256x64_1_0_0_1_n_n_wf
def dot_S256x192_S192x256_S256x256_1_0_0_1_n_n : DotDims S256x192 S192x256 S256x256 where
  lhsContracting := [1]
  rhsContracting := [0]
  lhsNonContracting := [0]
  rhsNonContracting := [1]
  lhsBatch := []
  rhsBatch := []
  wf := dot_S256x192_S192x256_S256x256_1_0_0_1_n_n_wf
def dot_S256x256_S256x1_S256x1_1_0_0_1_n_n : DotDims S256x256 S256x1 S256x1 where
  lhsContracting := [1]
  rhsContracting := [0]
  lhsNonContracting := [0]
  rhsNonContracting := [1]
  lhsBatch := []
  rhsBatch := []
  wf := dot_S256x256_S256x1_S256x1_1_0_0_1_n_n_wf

class Facts : Prop extends Facts₀ where

variable [Facts]
-- ==== Proof.KernelRun.lean ====
/-
  The idealized kernel program's run, with the result array named.

  The program is five kernel regions among stretches of host operations. Its final state holds every unscoped buffer at
  the contents the last boundary gives it; the result array is one of those buffers, so it ends at that boundary's
  contents, and the argument arrays end as launched.
-/
import proofs.«118885_j83339545411634_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the idealized kernel program with its result named: every weakly fair execution terminates without a
    fault, the result array ends at the last boundary's contents of its buffer, and every argument array ends as launched. -/
theorem run_value : θ_run defs (onTc (τ := τ) (main (F := F))) ⟨m, fun _ => 0, ρ⟩ (fun r => ∀ c : Dev nD,
      r.2.mem ((c.tc : Thread nD τ).loc main_v94) = W10 m ρ c (Proc.devRef .tc main_v94)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v94 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c),
       (h c _ (mem_uc main_arg15 (by decide))).trans (W10_main_arg15 m ρ c),
       (h c _ (mem_uc main_arg16 (by decide))).trans (W10_main_arg16 m ρ c),
       (h c _ (mem_uc main_arg17 (by decide))).trans (W10_main_arg17 m ρ c)⟩)

end Cert.KernelIdeal.RunValue

end
-- ==== Proof.Payloads.lean ====
/-
  The bodies of the four tiled kernels, read at an index of a block.

  Each body loads a block of 5000 node rows, casts to a narrower float format (the identity on extended reals), multiplies
  by a 128 x 128 weight matrix into a zero accumulator (a plain sum over the contracted axis) and combines pointwise with
  a per-row scale, a per-column bias and a clamp at zero. Read at row p and column q of the block, the first body is
  d p * sum_k x p k * w k q; the middle two are d p * sum_k max (d p * (a p k + s p k) + b k) 0 * w k q; the last is
  sum_k max (d p * (a p k + s p k) + b k) 0 * w k q + c q.
-/
import proofs.«118885_j83339545411634_2_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.Payloads

open Cert.KernelIdeal Cert.KernelIdeal.Gen Idealize.ShloMosaic Idealize.ShloMosaic.ValueIdx

/-- The block matrix product's dimension numbers: rows by the contracted axis times the contracted axis by columns. -/
abbrev dK := dot_S5000x128_S128x128_S5000x128_1_0_0_1_n_n

theorem lhs0 (i : S5000x128.Idx) (q : dK.contr.Idx) : (dK.lhsIdx i q 0).val = (i 0).val := by
  unfold DotDims.lhsIdx
  rw [dif_neg (show ¬(0 : Fin S5000x128.rank) ∈ dK.lhsBatch by decide), dif_pos (show (0 : Fin S5000x128.rank) ∈ dK.lhsNonContracting by decide)]
  rfl
theorem lhs1 (i : S5000x128.Idx) (q : dK.contr.Idx) : (dK.lhsIdx i q 1).val = (q ⟨0, by decide⟩).val :=
  dK.lhsIdx_val_of_single rfl i q
theorem rhs0 (i : S5000x128.Idx) (q : dK.contr.Idx) : (dK.rhsIdx i q 0).val = (q ⟨0, by decide⟩).val :=
  dK.rhsIdx_val_of_single rfl i q
theorem rhs1 (i : S5000x128.Idx) (q : dK.contr.Idx) : (dK.rhsIdx i q 1).val = (i 1).val := by
  unfold DotDims.rhsIdx
  rw [dif_neg (show ¬(1 : Fin S128x128.rank) ∈ dK.rhsBatch by decide), dif_pos (show (1 : Fin S128x128.rank) ∈ dK.rhsNonContracting by decide)]
  rfl

/-- The block matrix product into a zero accumulator, at row p and column q: the sum over the contracted axis. -/
theorem mm_apply {φ₁ φ₂ : FTy} (a : FVec Ideal S5000x128 φ₁) (w : FVec Ideal S128x128 φ₂) (p : Fin 5000) (q : Fin 128) :
    matmul dK none a w (constant S5000x128 .f32 0x00000000#32) (ix2 p q) = ∑ k : Fin 128, a (ix2 p k) * w (ix2 k q) := by
  refine (Ideal.matmul_constant_zero_apply dK none a w (ix2 p q)).trans ?_
  rw [← Equiv.sum_comp (ValueIdx.contrEquiv1 dK 128 rfl rfl).symm]
  refine Finset.sum_congr rfl fun k _ => ?_
  have hk := ValueIdx.contrEquiv1_symm_val dK 128 rfl rfl k
  have el : dK.lhsIdx (ix2 p q) ((ValueIdx.contrEquiv1 dK 128 rfl rfl).symm k) = ix2 p k := funext fun a => Fin.ext (by
    match a with
    | ⟨0, _⟩ => exact lhs0 _ _
    | ⟨1, _⟩ => exact (lhs1 _ _).trans hk)
  have er : dK.rhsIdx (ix2 p q) ((ValueIdx.contrEquiv1 dK 128 rfl rfl).symm k) = ix2 k q := funext fun a => Fin.ext (by
    match a with
    | ⟨0, _⟩ => exact (rhs0 _ _).trans hk
    | ⟨1, _⟩ => exact rhs1 _ _)
  rw [el, er]

/-- A column of per-row values spread over the 128 columns reads the row's value. -/
theorem spread_col {α : Type} (x : S5000x1.Idx → α) (h : S5000x1.Broadcasts S5000x128) (p : Fin 5000) (q : Fin 128) :
    broadcastTo S5000x128 x h (ix2 p q) = x (ix2 p (0 : Fin 1)) :=
  broadcastTo_apply x h (ix2 p q) (ix2 p (0 : Fin 1)) (fun a => by
    match a with
    | ⟨0, _⟩ => rfl
    | ⟨1, _⟩ => rfl)

/-- A row of per-column values spread over the 5000 rows reads the column's value. -/
theorem spread_row {α : Type} (x : S1x128.Idx → α) (h : S1x128.Broadcasts S5000x128) (p : Fin 5000) (q : Fin 128) :
    broadcastTo S5000x128 x h (ix2 p q) = x (ix2 (0 : Fin 1) q) :=
  broadcastTo_apply x h (ix2 p q) (ix2 (0 : Fin 1) q) (fun a => by
    match a with
    | ⟨0, _⟩ => rfl
    | ⟨1, _⟩ => rfl)

/-- The first body at (p, q): the row's scale times the row of x against column q of w. -/
theorem pay0_apply (x : Vec Ideal S5000x128 .f32) (w : Vec Ideal S128x128 .f32) (d : Vec Ideal S5000x1 .f32)
    (p : Fin 5000) (q : Fin 128) :
    k0_pay1 (F := Ideal) x w d (ix2 p q) = d (ix2 p (0 : Fin 1)) * ∑ k : Fin 128, x (ix2 p k) * w (ix2 k q) := by
  unfold k0_pay1
  simp only [shapeCast_self]
  refine (mulf_apply _ _ _).trans ?_
  rw [spread_col, mm_apply]
  rfl

/-- The combined row of a middle or last body at (p, k): the clamp at zero of d p * (a p k + s p k) + b k. -/
def comb (d : Vec Ideal S5000x1 .f32) (a s : Vec Ideal S5000x128 .f32) (b : Vec Ideal S1x128 .f32) (p : Fin 5000) (k : Fin 128) : EReal :=
  max (d (ix2 p (0 : Fin 1)) * (a (ix2 p k) + s (ix2 p k)) + b (ix2 (0 : Fin 1) k)) 0

/-- A middle body at (p, q): the row's scale times the combined row against column q of w. -/
theorem pay1_apply (d : Vec Ideal S5000x1 .f32) (a s : Vec Ideal S5000x128 .f32) (b : Vec Ideal S1x128 .f32) (w : Vec Ideal S128x128 .f32)
    (p : Fin 5000) (q : Fin 128) :
    k1_pay1 (F := Ideal) d a s b w (ix2 p q) = d (ix2 p (0 : Fin 1)) * ∑ k : Fin 128, comb d a s b p k * w (ix2 k q) := by
  unfold k1_pay1
  simp only [shapeCast_self]
  refine (mulf_apply _ _ _).trans ?_
  rw [spread_col, mm_apply]
  refine congrArg (d (ix2 p (0 : Fin 1)) * ·) (Finset.sum_congr rfl fun k _ => ?_)
  refine congrArg (· * w (ix2 k q)) ?_
  show max (broadcastTo S5000x128 d _ (ix2 p k) * (a (ix2 p k) + s (ix2 p k)) + broadcastTo S5000x128 b _ (ix2 p k)) (Ideal.ofBits .f32 0x00000000#32) = _
  rw [spread_col, spread_row, Ideal.ofBits_zero_f32]
  rfl

theorem pay2_apply (d : Vec Ideal S5000x1 .f32) (a s : Vec Ideal S5000x128 .f32) (b : Vec Ideal S1x128 .f32) (w : Vec Ideal S128x128 .f32)
    (p : Fin 5000) (q : Fin 128) :
    k2_pay1 (F := Ideal) d a s b w (ix2 p q) = d (ix2 p (0 : Fin 1)) * ∑ k : Fin 128, comb d a s b p k * w (ix2 k q) :=
  pay1_apply d a s b w p q

/-- The last body at (p, q): the combined row against column q of w, plus the output bias of column q. -/
theorem pay3_apply (d : Vec Ideal S5000x1 .f32) (a s : Vec Ideal S5000x128 .f32) (b : Vec Ideal S1x128 .f32) (w : Vec Ideal S128x128 .f32)
    (c : Vec Ideal S1x128 .f32) (p : Fin 5000) (q : Fin 128) :
    k3_pay1 (F := Ideal) d a s b w c (ix2 p q) = (∑ k : Fin 128, comb d a s b p k * w (ix2 k q)) + c (ix2 (0 : Fin 1) q) := by
  unfold k3_pay1
  simp only [shapeCast_self]
  refine (addf_apply _ _ _).trans ?_
  rw [spread_row, mm_apply]
  refine congrArg (· + c (ix2 (0 : Fin 1) q)) (Finset.sum_congr rfl fun k _ => ?_)
  refine congrArg (· * w (ix2 k q)) ?_
  show max (broadcastTo S5000x128 d _ (ix2 p k) * (a (ix2 p k) + s (ix2 p k)) + broadcastTo S5000x128 b _ (ix2 p k)) (Ideal.ofBits .f32 0x00000000#32) = _
  rw [spread_col, spread_row, Ideal.ofBits_zero_f32]
  rfl

end Cert.KernelIdeal.Payloads

end
-- ==== Proof.RegionArrays.lean ====
/-
  The four tiled kernels' output arrays, each as one function of the kernel's input arrays.

  Every one of these kernels walks ten blocks of 5000 node rows. At block t it reads rows 5000 t .. 5000 t + 4999 of its
  row-blocked inputs, the whole weight matrix and the whole bias rows, and writes the same rows of its output. Read at an
  index (n, f) of the whole array the written value is therefore the body's value at row n: the blocks cover the array,
  and a block's row p is the array's row 5000 t + p.
-/
import proofs.«118885_j83339545411634_2_alg».proof.Proof.Gen.KernelIdeal.Frame
import proofs.«118885_j83339545411634_2_alg».proof.Proof.Payloads

set_option maxRecDepth 16384

noncomputable section

open scoped BigOperators

namespace Cert.KernelIdeal.RegionArrays

open Cert.KernelIdeal Cert.KernelIdeal.Gen Cert.KernelIdeal.Payloads
open Idealize.ShloMosaic Idealize.ShloMosaic.TcCoe Idealize.ShloMosaic.ValueIdx Idealize.SL.Sem
open Idealize.ShloMosaic.Pipeline (Dat Cfg Window)

theorem hz : (![0, 0] : Fin 2 → Nat) = fun _ => 0 := funext fun a => by fin_cases a <;> rfl

variable (V : (c : Dev nD) → (b : Ref sig .tc) → Buf (Elt Ideal) ((c : Thread nD τ).loc b))

/-! ## The first kernel: the scaled product -/

/-- Row n of the output is the row's scale times row n of x against the weight matrix. -/
def R0 (x : S50000x128.Idx → EReal) (d : S50000x1.Idx → EReal) (w : S128x128.Idx → EReal) : S50000x128.Idx → EReal :=
  fun i => d (ix2 (i 0) (0 : Fin 1)) * ∑ k : Fin 128, x (ix2 (i 0) k) * w (ix2 k (i 1))

/-- The first body at row p, column q of a block is R0 at the array index E, once the block's entries are the arrays'
    entries at E's row and column. -/
theorem R0_blocks (X : S50000x128.Idx → EReal) (D : S50000x1.Idx → EReal) (W : S128x128.Idx → EReal) (E : S50000x128.Idx)
    (x : S5000x128.Idx → EReal) (d : S5000x1.Idx → EReal) (w : S128x128.Idx → EReal) (p : Fin 5000) (q : Fin 128)
    (hd : d (ix2 p (0 : Fin 1)) = D (ix2 (E 0) (0 : Fin 1))) (hx : ∀ k : Fin 128, x (ix2 p k) = X (ix2 (E 0) k))
    (hw : ∀ k : Fin 128, w (ix2 k q) = W (ix2 k (E 1))) :
    k0_pay1 (F := Ideal) x w d (ix2 p q) = R0 X D W E := by
  rw [pay0_apply, hd]
  unfold R0
  refine congrArg (_ * ·) (Finset.sum_congr rfl fun k _ => ?_)
  rw [hx k, hw k]

/-- The printed block index maps over the grid: the row-blocked windows move together along the rows, the whole
    windows stay, and there are ten row blocks. -/
theorem idx_facts0 : ∀ t : Fin cfg0.N,
    win0_0.index t (0 : Fin 2) = win0_3.index t (0 : Fin 2) ∧ win0_0.index t (1 : Fin 2) = 0
    ∧ win0_1.index t (0 : Fin 2) = win0_3.index t (0 : Fin 2) ∧ win0_1.index t (1 : Fin 2) = 0
    ∧ win0_2.index t (0 : Fin 2) = 0 ∧ win0_2.index t (1 : Fin 2) = 0
    ∧ win0_3.index t (0 : Fin 2) ≤ 9 ∧ win0_3.index t (1 : Fin 2) = 0 :=
  (by decide +kernel : ∀ t : Fin grid0.N, _)

/-- Every row block is some grid point's. -/
theorem idx_onto0 : ∀ q0 : Fin 10, ∃ t : Fin cfg0.N, win0_3.index t = ![q0.val, 0] :=
  (by decide +kernel : ∀ q0 : Fin 10, ∃ t : Fin grid0.N, win0_3.index t = ![q0.val, 0])

set_option maxHeartbeats 2000000 in
/-- What grid point t writes back is block t of R0 of the arrays as the kernel finds them. -/
theorem flushed0 (c : Dev nD) (t : Fin cfg0.N) :
    (dat0 (F := Ideal) V c).flushed 3 t = ((cfg0.win 3).blk t).view.read (Elt Ideal)
      (R0 (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S5000x1) hz]
  obtain ⟨e00, e01, e10, e11, e20, e21, e3, e31⟩ := idx_facts0 t
  funext j
  obtain ⟨p, q, rfl⟩ : ∃ (p : Fin 5000) (q : Fin 128), j = ix2 p q := ⟨j 0, j 1, eq_ix2 j⟩
  have hp : p.val < 5000 := p.isLt
  have hq : q.val < 128 := q.isLt
  have h1 : ((cfg0.win 1).blk t).view.emb (ix2 p (0 : Fin 1))
      = ix2 ((((cfg0.win 3).blk t).view.emb (ix2 p q)) 0) (0 : Fin 1) := by
    funext a; apply Fin.ext
    match a with
    | ⟨0, _⟩ => show win0_1.index t (0 : Fin 2) * 5000 + 1 * p.val = win0_3.index t (0 : Fin 2) * 5000 + 1 * p.val; omega
    | ⟨1, _⟩ => show win0_1.index t (1 : Fin 2) * 1 + 1 * 0 = 0; omega
  have h0 : ∀ k : Fin 128, ((cfg0.win 0).blk t).view.emb (ix2 p k)
      = ix2 ((((cfg0.win 3).blk t).view.emb (ix2 p q)) 0) k := by
    intro k
    funext a; apply Fin.ext
    match a with
    | ⟨0, _⟩ => show win0_0.index t (0 : Fin 2) * 5000 + 1 * p.val = win0_3.index t (0 : Fin 2) * 5000 + 1 * p.val; omega
    | ⟨1, _⟩ => show win0_0.index t (1 : Fin 2) * 128 + 1 * k.val = k.val; omega
  have h2 : ∀ k : Fin 128, ((cfg0.win 2).blk t).view.emb (ix2 k q)
      = ix2 k ((((cfg0.win 3).blk t).view.emb (ix2 p q)) 1) := by
    intro k
    funext a; apply Fin.ext
    match a with
    | ⟨0, _⟩ => show win0_2.index t (0 : Fin 2) * 128 + 1 * k.val = k.val; omega
    | ⟨1, _⟩ => show win0_2.index t (1 : Fin 2) * 128 + 1 * q.val = win0_3.index t (1 : Fin 2) * 128 + 1 * q.val; omega
  exact R0_blocks (V c (Pipeline.arrRef spec0 0)) (V c (Pipeline.arrRef spec0 1)) (V c (Pipeline.arrRef spec0 2))
    (((cfg0.win 3).blk t).view.emb (ix2 p q)) (iblk0 V c 0 t) (iblk0 V c 1 t) (iblk0 V c 2 t) p q
    (congrArg (V c (Pipeline.arrRef spec0 1)) h1) (fun k => congrArg (V c (Pipeline.arrRef spec0 0)) (h0 k))
    (fun k => congrArg (V c (Pipeline.arrRef spec0 2)) (h2 k))

/-- An index of the output array is in point t's block iff its row is among the block's 5000 rows. -/
theorem mem_blk0 (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v15).slice (win0_3.rect t)).set ↔ _
  rw [View.set_slice_whole, Rect.mem_set_unit]
  exact Iff.rfl

/-- The ten blocks cover the output array. -/
theorem cover0 (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ := idx_onto0 ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk0]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- THE FIRST KERNEL'S OUTPUT ARRAY after its ten points: R0 of the arrays it was entered with. -/
theorem arr0 (c : Dev nD) :
    (dat0 (F := Ideal) V c).arrAt 3 cfg0.N
      = R0 (V c (Pipeline.arrRef spec0 0)) (V c (Pipeline.arrRef spec0 1)) (V c (Pipeline.arrRef spec0 2)) :=
  (dat0 (F := Ideal) V c).arrAt_eq_of_cover 3 _ (fun t _ => flushed0 V c t) (cover0)

/-! ## The combining kernels: clamp, then the product -/

/-- The combined value of node n at feature k: the clamp at zero of d n * (a n k + s n k) + b k. -/
def combA (d : S50000x1.Idx → EReal) (a s : S50000x128.Idx → EReal) (b : S1x128.Idx → EReal) (n : Fin 50000) (k : Fin 128) : EReal :=
  max (d (ix2 n (0 : Fin 1)) * (a (ix2 n k) + s (ix2 n k)) + b (ix2 (0 : Fin 1) k)) 0

/-- A middle kernel's output: the row's scale times the combined row against the weight matrix. -/
def R1 (a s : S50000x128.Idx → EReal) (d : S50000x1.Idx → EReal) (b : S1x128.Idx → EReal) (w : S128x128.Idx → EReal) : S50000x128.Idx → EReal :=
  fun i => d (ix2 (i 0) (0 : Fin 1)) * ∑ k : Fin 128, combA d a s b (i 0) k * w (ix2 k (i 1))

/-- The last tiled kernel's output: the combined row against the weight matrix, plus the output bias. -/
def R3 (a s : S50000x128.Idx → EReal) (d : S50000x1.Idx → EReal) (b : S1x128.Idx → EReal) (w : S128x128.Idx → EReal) (c : S1x128.Idx → EReal) : S50000x128.Idx → EReal :=
  fun i => (∑ k : Fin 128, combA d a s b (i 0) k * w (ix2 k (i 1))) + c (ix2 (0 : Fin 1) (i 1))

/-- A middle body at row p, column q of a block is R1 at the array index E, once the block's entries are the arrays'
    entries at E's row and column. -/
theorem R1_blocks (A S : S50000x128.Idx → EReal) (D : S50000x1.Idx → EReal) (B : S1x128.Idx → EReal) (W : S128x128.Idx → EReal)
    (E : S50000x128.Idx)
    (a s : S5000x128.Idx → EReal) (d : S5000x1.Idx → EReal) (b : S1x128.Idx → EReal) (w : S128x128.Idx → EReal) (p : Fin 5000) (q : Fin 128)
    (hd : d (ix2 p (0 : Fin 1)) = D (ix2 (E 0) (0 : Fin 1))) (ha : ∀ k : Fin 128, a (ix2 p k) = A (ix2 (E 0) k))
    (hs : ∀ k : Fin 128, s (ix2 p k) = S (ix2 (E 0) k)) (hb : ∀ k : Fin 128, b (ix2 (0 : Fin 1) k) = B (ix2 (0 : Fin 1) k))
    (hw : ∀ k : Fin 128, w (ix2 k q) = W (ix2 k (E 1))) :
    k1_pay1 (F := Ideal) d a s b w (ix2 p q) = R1 A S D B W E := by
  rw [pay1_apply, hd]
  unfold R1
  refine congrArg (_ * ·) (Finset.sum_congr rfl fun k _ => ?_)
  unfold comb combA
  rw [hd, ha k, hs k, hb k, hw k]

/-- The same for the third kernel, whose body is the same text. -/
theorem R1_blocks' (A S : S50000x128.Idx → EReal) (D : S50000x1.Idx → EReal) (B : S1x128.Idx → EReal) (W : S128x128.Idx → EReal)
    (E : S50000x128.Idx)
    (a s : S5000x128.Idx → EReal) (d : S5000x1.Idx → EReal) (b : S1x128.Idx → EReal) (w : S128x128.Idx → EReal) (p : Fin 5000) (q : Fin 128)
    (hd : d (ix2 p (0 : Fin 1)) = D (ix2 (E 0) (0 : Fin 1))) (ha : ∀ k : Fin 128, a (ix2 p k) = A (ix2 (E 0) k))
    (hs : ∀ k : Fin 128, s (ix2 p k) = S (ix2 (E 0) k)) (hb : ∀ k : Fin 128, b (ix2 (0 : Fin 1) k) = B (ix2 (0 : Fin 1) k))
    (hw : ∀ k : Fin 128, w (ix2 k q) = W (ix2 k (E 1))) :
    k2_pay1 (F := Ideal) d a s b w (ix2 p q) = R1 A S D B W E :=
  R1_blocks A S D B W E a s d b w p q hd ha hs hb hw

/-- The last tiled body at row p, column q of a block is R3 at the array index E. -/
theorem R3_blocks (A S : S50000x128.Idx → EReal) (D : S50000x1.Idx → EReal) (B : S1x128.Idx → EReal) (W : S128x128.Idx → EReal)
    (C : S1x128.Idx → EReal) (E : S50000x128.Idx)
    (a s : S5000x128.Idx → EReal) (d : S5000x1.Idx → EReal) (b : S1x128.Idx → EReal) (w : S128x128.Idx → EReal) (cc : S1x128.Idx → EReal)
    (p : Fin 5000) (q : Fin 128)
    (hd : d (ix2 p (0 : Fin 1)) = D (ix2 (E 0) (0 : Fin 1))) (ha : ∀ k : Fin 128, a (ix2 p k) = A (ix2 (E 0) k))
    (hs : ∀ k : Fin 128, s (ix2 p k) = S (ix2 (E 0) k)) (hb : ∀ k : Fin 128, b (ix2 (0 : Fin 1) k) = B (ix2 (0 : Fin 1) k))
    (hw : ∀ k : Fin 128, w (ix2 k q) = W (ix2 k (E 1))) (hc : cc (ix2 (0 : Fin 1) q) = C (ix2 (0 : Fin 1) (E 1))) :
    k3_pay1 (F := Ideal) d a s b w cc (ix2 p q) = R3 A S D B W C E := by
  rw [pay3_apply, hc]
  unfold R3
  refine congrArg (· + _) (Finset.sum_congr rfl fun k _ => ?_)
  unfold comb combA
  rw [hd, ha k, hs k, hb k, hw k]

/-! ## Kernel 2 -/

/-- The printed block index maps over the grid: the row-blocked windows move together along the rows, the whole
    windows stay, and there are ten row blocks. -/
theorem idx_facts1 : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = win1_5.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) ≤ 9 ∧ win1_5.index t (1 : Fin 2) = 0 :=
  (by decide +kernel : ∀ t : Fin grid1.N, _)

/-- Every row block is some grid point's. -/
theorem idx_onto1 : ∀ q0 : Fin 10, ∃ t : Fin cfg1.N, win1_5.index t = ![q0.val, 0] :=
  (by decide +kernel : ∀ q0 : Fin 10, ∃ t : Fin grid1.N, win1_5.index t = ![q0.val, 0])

set_option maxHeartbeats 2000000 in
/-- What grid point t writes back is block t of the kernel's whole-array function of the arrays as it finds them. -/
theorem flushed1 (c : Dev nD) (t : Fin cfg1.N) :
    (dat1 (F := Ideal) V c).flushed 5 t = ((cfg1.win 5).blk t).view.read (Elt Ideal)
      (R1 (V c (Pipeline.arrRef spec1 0)) (V c (Pipeline.arrRef spec1 1)) (V c (Pipeline.arrRef spec1 2)) (V c (Pipeline.arrRef spec1 3)) (V c (Pipeline.arrRef spec1 4))) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S5000x1) hz, View.ld_unit_zero (S := S1x128) hz]
  obtain ⟨e00, e01, e10, e11, e20, e21, e30, e31, e40, e41, eo, eo1⟩ := idx_facts1 t
  funext j
  obtain ⟨p, q, rfl⟩ : ∃ (p : Fin 5000) (q : Fin 128), j = ix2 p q := ⟨j 0, j 1, eq_ix2 j⟩
  have hp : p.val < 5000 := p.isLt
  have hq : q.val < 128 := q.isLt
  have h2 : ((cfg1.win 2).blk t).view.emb (ix2 p (0 : Fin 1))
      = ix2 ((((cfg1.win 5).blk t).view.emb (ix2 p q)) 0) (0 : Fin 1) := by
    funext a; apply Fin.ext
    match a with
    | ⟨0, _⟩ => show win1_2.index t (0 : Fin 2) * 5000 + 1 * p.val = win1_5.index t (0 : Fin 2) * 5000 + 1 * p.val; omega
    | ⟨1, _⟩ => show win1_2.index t (1 : Fin 2) * 1 + 1 * 0 = 0; omega
  have h0 : ∀ k : Fin 128, ((cfg1.win 0).blk t).view.emb (ix2 p k)
      = ix2 ((((cfg1.win 5).blk t).view.emb (ix2 p q)) 0) k := by
    intro k
    funext a; apply Fin.ext
    match a with
    | ⟨0, _⟩ => show win1_0.index t (0 : Fin 2) * 5000 + 1 * p.val = win1_5.index t (0 : Fin 2) * 5000 + 1 * p.val; omega
    | ⟨1, _⟩ => show win1_0.index t (1 : Fin 2) * 128 + 1 * k.val = k.val; omega
  have h1 : ∀ k : Fin 128, ((cfg1.win 1).blk t).view.emb (ix2 p k)
      = ix2 ((((cfg1.win 5).blk t).view.emb (ix2 p q)) 0) k := by
    intro k
    funext a; apply Fin.ext
    match a with
    | ⟨0, _⟩ => show win1_1.index t (0 : Fin 2) * 5000 + 1 * p.val = win1_5.index t (0 : Fin 2) * 5000 + 1 * p.val; omega
    | ⟨1, _⟩ => show win1_1.index t (1 : Fin 2) * 128 + 1 * k.val = k.val; omega
  have h3 : ∀ k : Fin 128, ((cfg1.win 3).blk t).view.emb (ix2 (0 : Fin 1) k) = ix2 (0 : Fin 1) k := by
    intro k
    funext a; apply Fin.ext
    match a with
    | ⟨0, _⟩ => show win1_3.index t (0 : Fin 2) * 1 + 1 * 0 = 0; omega
    | ⟨1, _⟩ => show win1_3.index t (1 : Fin 2) * 128 + 1 * k.val = k.val; omega
  have h4 : ∀ k : Fin 128, ((cfg1.win 4).blk t).view.emb (ix2 k q)
      = ix2 k ((((cfg1.win 5).blk t).view.emb (ix2 p q)) 1) := by
    intro k
    funext a; apply Fin.ext
    match a with
    | ⟨0, _⟩ => show win1_4.index t (0 : Fin 2) * 128 + 1 * k.val = k.val; omega
    | ⟨1, _⟩ => show win1_4.index t (1 : Fin 2) * 128 + 1 * q.val = win1_5.index t (1 : Fin 2) * 128 + 1 * q.val; omega
  exact R1_blocks (V c (Pipeline.arrRef spec1 0)) (V c (Pipeline.arrRef spec1 1)) (V c (Pipeline.arrRef spec1 2)) (V c (Pipeline.arrRef spec1 3)) (V c (Pipeline.arrRef spec1 4))
    (((cfg1.win 5).blk t).view.emb (ix2 p q)) (iblk1 V c 0 t) (iblk1 V c 1 t) (iblk1 V c 2 t) (iblk1 V c 3 t) (iblk1 V c 4 t) p q
    (congrArg (V c (Pipeline.arrRef spec1 2)) h2) (fun k => congrArg (V c (Pipeline.arrRef spec1 0)) (h0 k))
    (fun k => congrArg (V c (Pipeline.arrRef spec1 1)) (h1 k)) (fun k => congrArg (V c (Pipeline.arrRef spec1 3)) (h3 k))
    (fun k => congrArg (V c (Pipeline.arrRef spec1 4)) (h4 k))

/-- An index of the output array is in point t's block iff its row is among the block's 5000 rows. -/
theorem mem_blk1 (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v32).slice (win1_5.rect t)).set ↔ _
  rw [View.set_slice_whole, Rect.mem_set_unit]
  exact Iff.rfl

/-- The ten blocks cover the output array. -/
theorem cover1 (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht⟩ := idx_onto1 ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- THE KERNEL'S OUTPUT ARRAY after its ten points: its whole-array function of the arrays it was entered with. -/
theorem arr1 (c : Dev nD) :
    (dat1 (F := Ideal) V c).arrAt 5 cfg1.N
      = (R1 (V c (Pipeline.arrRef spec1 0)) (V c (Pipeline.arrRef spec1 1)) (V c (Pipeline.arrRef spec1 2)) (V c (Pipeline.arrRef spec1 3)) (V c (Pipeline.arrRef spec1 4))) :=
  (dat1 (F := Ideal) V c).arrAt_eq_of_cover 5 _ (fun t _ => flushed1 V c t) (cover1)

/-! ## Kernel 3 -/

/-- The printed block index maps over the grid: the row-blocked windows move together along the rows, the whole
    windows stay, and there are ten row blocks. -/
theorem idx_facts2 : ∀ t : Fin cfg2.N,
    win2_0.index t (0 : Fin 2) = win2_5.index t (0 : Fin 2) ∧ win2_0.index t (1 : Fin 2) = 0
    ∧ win2_1.index t (0 : Fin 2) = win2_5.index t (0 : Fin 2) ∧ win2_1.index t (1 : Fin 2) = 0
    ∧ win2_2.index t (0 : Fin 2) = win2_5.index t (0 : Fin 2) ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) ≤ 9 ∧ win2_5.index t (1 : Fin 2) = 0 :=
  (by decide +kernel : ∀ t : Fin grid2.N, _)

/-- Every row block is some grid point's. -/
theorem idx_onto2 : ∀ q0 : Fin 10, ∃ t : Fin cfg2.N, win2_5.index t = ![q0.val, 0] :=
  (by decide +kernel : ∀ q0 : Fin 10, ∃ t : Fin grid2.N, win2_5.index t = ![q0.val, 0])

set_option maxHeartbeats 2000000 in
/-- What grid point t writes back is block t of the kernel's whole-array function of the arrays as it finds them. -/
theorem flushed2 (c : Dev nD) (t : Fin cfg2.N) :
    (dat2 (F := Ideal) V c).flushed 5 t = ((cfg2.win 5).blk t).view.read (Elt Ideal)
      (R1 (V c (Pipeline.arrRef spec2 0)) (V c (Pipeline.arrRef spec2 1)) (V c (Pipeline.arrRef spec2 2)) (V c (Pipeline.arrRef spec2 3)) (V c (Pipeline.arrRef spec2 4))) := by
  show (cfg2.win 5).cut (grid2.coords t) ((dat2 V c).after 5 t) = _
  rw [after2_5]
  unfold out2_5
  rw [View.canon_unit_zero hz]
  simp only [View.ld_unit_zero (S := S5000x128) hz, View.ld_unit_zero (S := S128x128) hz, View.ld_unit_zero (S := S5000x1) hz, View.ld_unit_zero (S := S1x128) hz]
  obtain ⟨e00, e01, e10, e11, e20, e21, e30, e31, e40, e41, eo, eo1⟩ := idx_facts2 t
  funext j
  obtain ⟨p, q, rfl⟩ : ∃ (p : Fin 5000) (q : Fin 128), j = ix2 p q := ⟨j 0, j 1, eq_ix2 j⟩
  have hp : p.val < 5000 := p.isLt
  have hq : q.val < 128 := q.isLt
  have h2 : ((cfg2.win 2).blk t).view.emb (ix2 p (0 : Fin 1))
      = ix2 ((((cfg2.win 5).blk t).view.emb (ix2 p q)) 0) (0 : Fin 1) := by
    funext a; apply Fin.ext
    match a with
    | ⟨0, _⟩ => show win2_2.index t (0 : Fin 2) * 5000 + 1 * p.val = win2_5.index t (0 : Fin 2) * 5000 + 1 * p.val; omega
    | ⟨1, _⟩ => show win2_2.index t (1 : Fin 2) * 1 + 1 * 0 = 0; omega
  have h0 : ∀ k : Fin 128, ((cfg2.win 0).blk t).view.emb (ix2 p k)
      = ix2 ((((cfg2.win 5).blk t).view.emb (ix2 p q)) 0) k := by
    intro k
    funext a; apply Fin.ext
    match a with
    | ⟨0, _⟩ => show win2_0.index t (0 : Fin 2) * 5000 + 1 * p.val = win2_5.index t (0 : Fin 2) * 5000 + 1 * p.val; omega
    | ⟨1, _⟩ => show win2_0.index t (1 : Fin 2) * 128 + 1 * k.val = k.val; omega
  have h1 : ∀ k : Fin 128, ((cfg2.win 1).blk t).view.emb (ix2 p k)
      = ix2 ((((cfg2.win 5).blk t).view.emb (ix2 p q)) 0) k := by
    intro k
    funext a; apply Fin.ext
    match a with
    | ⟨0, _⟩ => show win2_1.index t (0 : Fin 2) * 5000 + 1 * p.val = win2_5.index t (0 : Fin 2) * 5000 + 1 * p.val; omega
    | ⟨1, _⟩ => show win2_1.index t (1 : Fin 2) * 128 + 1 * k.val = k.val; omega
  have h3 : ∀ k : Fin 128, ((cfg2.win 3).blk t).view.emb (ix2 (0 : Fin 1) k) = ix2 (0 : Fin 1) k := by
    intro k
    funext a; apply Fin.ext
    match a with
    | ⟨0, _⟩ => show win2_3.index t (0 : Fin 2) * 1 + 1 * 0 = 0; omega
    | ⟨1, _⟩ => show win2_3.index t (1 : Fin 2) * 128 + 1 * k.val = k.val; omega
  have h4 : ∀ k : Fin 128, ((cfg2.win 4).blk t).view.emb (ix2 k q)
      = ix2 k ((((cfg2.win 5).blk t).view.emb (ix2 p q)) 1) := by
    intro k
    funext a; apply Fin.ext
    match a with
    | ⟨0, _⟩ => show win2_4.index t (0 : Fin 2) * 128 + 1 * k.val = k.val; omega
    | ⟨1, _⟩ => show win2_4.index t (1 : Fin 2) * 128 + 1 * q.val = win2_5.index t (1 : Fin 2) * 128 + 1 * q.val; omega
  exact R1_blocks' (V c (Pipeline.arrRef spec2 0)) (V c (Pipeline.arrRef spec2 1)) (V c (Pipeline.arrRef spec2 2)) (V c (Pipeline.arrRef spec2 3)) (V c (Pipeline.arrRef spec2 4))
    (((cfg2.win 5).blk t).view.emb (ix2 p q)) (iblk2 V c 0 t) (iblk2 V c 1 t) (iblk2 V c 2 t) (iblk2 V c 3 t) (iblk2 V c 4 t) p q
    (congrArg (V c (Pipeline.arrRef spec2 2)) h2) (fun k => congrArg (V c (Pipeline.arrRef spec2 0)) (h0 k))
    (fun k => congrArg (V c (Pipeline.arrRef spec2 1)) (h1 k)) (fun k => congrArg (V c (Pipeline.arrRef spec2 3)) (h3 k))
    (fun k => congrArg (V c (Pipeline.arrRef spec2 4)) (h4 k))

/-- An index of the output array is in point t's block iff its row is among the block's 5000 rows. -/
theorem mem_blk2 (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v49).slice (win2_5.rect t)).set ↔ _
  rw [View.set_slice_whole, Rect.mem_set_unit]
  exact Iff.rfl

/-- The ten blocks cover the output array. -/
theorem cover2 (i : S50000x128.Idx) : ∃ t : Fin cfg2.N, (cfg2.win 5).flush t = true ∧ i ∈ ((cfg2.win 5).blk t).view.set := by
  have hi0 : (i 0).val < 50000 := (i 0).isLt
  have hi1 : (i 1).val < 128 := (i 1).isLt
  obtain ⟨t, ht⟩ := idx_onto2 ⟨(i 0).val / 5000, by omega⟩
  have q0 : win2_5.index t (0 : Fin 2) = (i 0).val / 5000 := congrFun ht 0
  have q1 : win2_5.index t (1 : Fin 2) = 0 := congrFun ht 1
  refine ⟨t, flush2_5 t, ?_⟩
  rw [mem_blk2]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 128 ≤ (i 1).val ∧ (i 1).val < win2_5.index t (1 : Fin 2) * 128 + 128; omega

/-- THE KERNEL'S OUTPUT ARRAY after its ten points: its whole-array function of the arrays it was entered with. -/
theorem arr2 (c : Dev nD) :
    (dat2 (F := Ideal) V c).arrAt 5 cfg2.N
      = (R1 (V c (Pipeline.arrRef spec2 0)) (V c (Pipeline.arrRef spec2 1)) (V c (Pipeline.arrRef spec2 2)) (V c (Pipeline.arrRef spec2 3)) (V c (Pipeline.arrRef spec2 4))) :=
  (dat2 (F := Ideal) V c).arrAt_eq_of_cover 5 _ (fun t _ => flushed2 V c t) (cover2)

/-! ## Kernel 4 -/

/-- The printed block index maps over the grid: the row-blocked windows move together along the rows, the whole
    windows stay, and there are ten row blocks. -/
theorem idx_facts3 : ∀ t : Fin cfg3.N,
    win3_0.index t (0 : Fin 2) = win3_6.index t (0 : Fin 2) ∧ win3_0.index t (1 : Fin 2) = 0
    ∧ win3_1.index t (0 : Fin 2) = win3_6.index t (0 : Fin 2) ∧ win3_1.index t (1 : Fin 2) = 0
    ∧ win3_2.index t (0 : Fin 2) = win3_6.index t (0 : Fin 2) ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_6.index t (0 : Fin 2) ≤ 9 ∧ win3_6.index t (1 : Fin 2) = 0
    ∧ win3_5.index t (0 : Fin 2) = 0 ∧ win3_5.index t (1 : Fin 2) = 0 :=
  (by decide +kernel : ∀ t : Fin grid3.N, _)

/-- Every row block is some grid point's. -/
theorem idx_onto3 : ∀ q0 : Fin 10, ∃ t : Fin cfg3.N, win3_6.index t = ![q0.val, 0] :=
  (by decide +kernel : ∀ q0 : Fin 10, ∃ t : Fin grid3.N, win3_6.index t = ![q0.val, 0])

set_option maxHeartbeats 2000000 in
/-- What grid point t writes back is block t of the kernel's whole-array function of the arrays as it finds them. -/
theorem flushed3 (c : Dev nD) (t : Fin cfg3.N) :
    (dat3 (F := Ideal) V c).flushed 6 t = ((cfg3.win 6).blk t).view.read (Elt Ideal)
      (R3 (V c (Pipeline.arrRef spec3 0)) (V c (Pipeline.arrRef spec3 1)) (V c (Pipeline.arrRef spec3 2)) (V c (Pipeline.arrRef spec3 3)) (V c (Pipeline.arrRef spec3 4)) (V c (Pipeline.arrRef spec3 5))) := by
  show (cfg3.win 6).cut (grid3.coords t) ((dat3 V c).after 6 t) = _
  rw [after3_6]
  unfold out3_6
  rw [View.canon_unit_zero hz]
  simp only [View.ld_unit_zero (S := S5000x128) hz, View.ld_unit_zero (S := S128x128) hz, View.ld_unit_zero (S := S5000x1) hz, View.ld_unit_zero (S := S1x128) hz]
  obtain ⟨e00, e01, e10, e11, e20, e21, e30, e31, e40, e41, eo, eo1, e50, e51⟩ := idx_facts3 t
  funext j
  obtain ⟨p, q, rfl⟩ : ∃ (p : Fin 5000) (q : Fin 128), j = ix2 p q := ⟨j 0, j 1, eq_ix2 j⟩
  have hp : p.val < 5000 := p.isLt
  have hq : q.val < 128 := q.isLt
  have h2 : ((cfg3.win 2).blk t).view.emb (ix2 p (0 : Fin 1))
      = ix2 ((((cfg3.win 6).blk t).view.emb (ix2 p q)) 0) (0 : Fin 1) := by
    funext a; apply Fin.ext
    match a with
    | ⟨0, _⟩ => show win3_2.index t (0 : Fin 2) * 5000 + 1 * p.val = win3_6.index t (0 : Fin 2) * 5000 + 1 * p.val; omega
    | ⟨1, _⟩ => show win3_2.index t (1 : Fin 2) * 1 + 1 * 0 = 0; omega
  have h0 : ∀ k : Fin 128, ((cfg3.win 0).blk t).view.emb (ix2 p k)
      = ix2 ((((cfg3.win 6).blk t).view.emb (ix2 p q)) 0) k := by
    intro k
    funext a; apply Fin.ext
    match a with
    | ⟨0, _⟩ => show win3_0.index t (0 : Fin 2) * 5000 + 1 * p.val = win3_6.index t (0 : Fin 2) * 5000 + 1 * p.val; omega
    | ⟨1, _⟩ => show win3_0.index t (1 : Fin 2) * 128 + 1 * k.val = k.val; omega
  have h1 : ∀ k : Fin 128, ((cfg3.win 1).blk t).view.emb (ix2 p k)
      = ix2 ((((cfg3.win 6).blk t).view.emb (ix2 p q)) 0) k := by
    intro k
    funext a; apply Fin.ext
    match a with
    | ⟨0, _⟩ => show win3_1.index t (0 : Fin 2) * 5000 + 1 * p.val = win3_6.index t (0 : Fin 2) * 5000 + 1 * p.val; omega
    | ⟨1, _⟩ => show win3_1.index t (1 : Fin 2) * 128 + 1 * k.val = k.val; omega
  have h3 : ∀ k : Fin 128, ((cfg3.win 3).blk t).view.emb (ix2 (0 : Fin 1) k) = ix2 (0 : Fin 1) k := by
    intro k
    funext a; apply Fin.ext
    match a with
    | ⟨0, _⟩ => show win3_3.index t (0 : Fin 2) * 1 + 1 * 0 = 0; omega
    | ⟨1, _⟩ => show win3_3.index t (1 : Fin 2) * 128 + 1 * k.val = k.val; omega
  have h4 : ∀ k : Fin 128, ((cfg3.win 4).blk t).view.emb (ix2 k q)
      = ix2 k ((((cfg3.win 6).blk t).view.emb (ix2 p q)) 1) := by
    intro k
    funext a; apply Fin.ext
    match a with
    | ⟨0, _⟩ => show win3_4.index t (0 : Fin 2) * 128 + 1 * k.val = k.val; omega
    | ⟨1, _⟩ => show win3_4.index t (1 : Fin 2) * 128 + 1 * q.val = win3_6.index t (1 : Fin 2) * 128 + 1 * q.val; omega
  have h5 : ((cfg3.win 5).blk t).view.emb (ix2 (0 : Fin 1) q)
      = ix2 (0 : Fin 1) ((((cfg3.win 6).blk t).view.emb (ix2 p q)) 1) := by
    funext a; apply Fin.ext
    match a with
    | ⟨0, _⟩ => show win3_5.index t (0 : Fin 2) * 1 + 1 * 0 = 0; omega
    | ⟨1, _⟩ => show win3_5.index t (1 : Fin 2) * 128 + 1 * q.val = win3_6.index t (1 : Fin 2) * 128 + 1 * q.val; omega
  exact R3_blocks (V c (Pipeline.arrRef spec3 0)) (V c (Pipeline.arrRef spec3 1)) (V c (Pipeline.arrRef spec3 2)) (V c (Pipeline.arrRef spec3 3)) (V c (Pipeline.arrRef spec3 4)) (V c (Pipeline.arrRef spec3 5))
    (((cfg3.win 6).blk t).view.emb (ix2 p q)) (iblk3 V c 0 t) (iblk3 V c 1 t) (iblk3 V c 2 t) (iblk3 V c 3 t) (iblk3 V c 4 t) (iblk3 V c 5 t) p q
    (congrArg (V c (Pipeline.arrRef spec3 2)) h2) (fun k => congrArg (V c (Pipeline.arrRef spec3 0)) (h0 k))
    (fun k => congrArg (V c (Pipeline.arrRef spec3 1)) (h1 k)) (fun k => congrArg (V c (Pipeline.arrRef spec3 3)) (h3 k))
    (fun k => congrArg (V c (Pipeline.arrRef spec3 4)) (h4 k)) (congrArg (V c (Pipeline.arrRef spec3 5)) h5)

/-- An index of the output array is in point t's block iff its row is among the block's 5000 rows. -/
theorem mem_blk3 (t : Fin cfg3.N) (i : S50000x128.Idx) :
    i ∈ ((cfg3.win 6).blk t).view.set ↔ ∀ a : Fin 2, win3_6.index t a * S5000x128.size a ≤ (i a).val ∧ (i a).val < win3_6.index t a * S5000x128.size a + S5000x128.size a := by
  show i ∈ ((View.whole main_v65).slice (win3_6.rect t)).set ↔ _
  rw [View.set_slice_whole, Rect.mem_set_unit]
  exact Iff.rfl

/-- The ten blocks cover the output array. -/
theorem cover3 (i : S50000x128.Idx) : ∃ t : Fin cfg3.N, (cfg3.win 6).flush t = true ∧ i ∈ ((cfg3.win 6).blk t).view.set := by
  have hi0 : (i 0).val < 50000 := (i 0).isLt
  have hi1 : (i 1).val < 128 := (i 1).isLt
  obtain ⟨t, ht⟩ := idx_onto3 ⟨(i 0).val / 5000, by omega⟩
  have q0 : win3_6.index t (0 : Fin 2) = (i 0).val / 5000 := congrFun ht 0
  have q1 : win3_6.index t (1 : Fin 2) = 0 := congrFun ht 1
  refine ⟨t, flush3_6 t, ?_⟩
  rw [mem_blk3]
  intro a
  match a with
  | ⟨0, _⟩ => show win3_6.index t (0 : Fin 2) * 5000 ≤ (i 0).val ∧ (i 0).val < win3_6.index t (0 : Fin 2) * 5000 + 5000; omega
  | ⟨1, _⟩ => show win3_6.index t (1 : Fin 2) * 128 ≤ (i 1).val ∧ (i 1).val < win3_6.index t (1 : Fin 2) * 128 + 128; omega

/-- THE KERNEL'S OUTPUT ARRAY after its ten points: its whole-array function of the arrays it was entered with. -/
theorem arr3 (c : Dev nD) :
    (dat3 (F := Ideal) V c).arrAt 6 cfg3.N
      = (R3 (V c (Pipeline.arrRef spec3 0)) (V c (Pipeline.arrRef spec3 1)) (V c (Pipeline.arrRef spec3 2)) (V c (Pipeline.arrRef spec3 3)) (V c (Pipeline.arrRef spec3 4)) (V c (Pipeline.arrRef spec3 5))) :=
  (dat3 (F := Ideal) V c).arrAt_eq_of_cover 6 _ (fun t _ => flushed3 V c t) (cover3)

end Cert.KernelIdeal.RegionArrays

end
-- ==== Proof.HostK.lean ====
/-
  The idealized kernel program's buffers at the boundaries between its host stretches and its kernels.

  Each host stretch is a straight line of pure operations, so a buffer after it is that line's term of the buffers
  before it; a kernel leaves every buffer but its output array as it found it. Where the reference program computes the
  same term (the edge endpoints, the per-node scale, the transposed weight matrices, the zero arrays) the buffer is named
  by the reference's own stage function: the two programs print the same operations there.
-/
import proofs.«118885_j83339545411634_2_alg».proof.Proof.Gen.KernelIdeal.Frame
import proofs.«118885_j83339545411634_2_alg».proof.Proof.Gen.ReferenceIdeal.Read
import proofs.«118885_j83339545411634_2_alg».proof.Proof.RegionArrays
import Idealize.ShloMosaic.Lib.StableHlo.Run

set_option maxRecDepth 16384

noncomputable section

namespace Cert.KernelIdeal.HostReads

open Cert.KernelIdeal Cert.KernelIdeal.Gen Cert.KernelIdeal.RegionArrays
open Idealize.ShloMosaic Idealize.ShloMosaic.TcCoe Idealize.SL.Sem Idealize.ShloMosaic.StableHlo
open Cert.ReferenceIdeal.Read (val_main_v1 val_main_v3 val_main_v10 val_main_v31)

variable (m : (ℓ : Loc nD τ sig) → Buf (Elt Ideal) ℓ) (ρ : Dev nD → PrngReg) (c : Dev nD)

/-! ## After the first host stretch -/

theorem W1_arg0 : W1 m ρ c (Proc.devRef .tc main_arg0) = m ((c : Thread nD τ).loc main_arg0) := by
  dsimp only [W1, hostOps0]; after_results

/-- The edge sources. -/
theorem W1_v1 : (W1 m ρ c (Proc.devRef .tc main_v1) : S800000.Idx → BitVec 32)
    = val_main_v1 (F := Ideal) (m ((c : Thread nD τ).loc main_arg1)) := by
  dsimp only [W1, hostOps0]; after_results; rfl

/-- The edge targets. -/
theorem W1_v3 : (W1 m ρ c (Proc.devRef .tc main_v3) : S800000.Idx → BitVec 32)
    = val_main_v3 (F := Ideal) (m ((c : Thread nD τ).loc main_arg1)) := by
  dsimp only [W1, hostOps0]; after_results; rfl

/-- The per-node scale, as a column. -/
theorem W1_v11 : (W1 m ρ c (Proc.devRef .tc main_v11) : S50000x1.Idx → EReal)
    = broadcastInDim S50000x1 ![0] bcast_S50000_S50000x1_0 (val_main_v10 (F := Ideal) (m ((c : Thread nD τ).loc main_arg1))) := by
  dsimp only [W1, hostOps0]; after_results; rfl

/-- The first layer's weight matrix, transposed. -/
theorem W1_v14 : (W1 m ρ c (Proc.devRef .tc main_v14) : S128x128.Idx → EReal)
    = val_main_v31 (F := Ideal) (m ((c : Thread nD τ).loc main_arg4)) := by
  dsimp only [W1, hostOps0]; after_results; rfl

/-! ## The kernel program's arrays as functions of the arguments -/

/-- The per-node scale as a column. -/
def DK (x1 : (⟨S2x800000, .i32⟩ : BufTy).Contents (Elt Ideal)) : S50000x1.Idx → EReal :=
  broadcastInDim S50000x1 ![0] bcast_S50000_S50000x1_0 (Cert.ReferenceIdeal.Read.val_main_v10 (F := Ideal) x1)

/-- The aggregation: the rows of hs gathered at the edge sources, added up at the edge targets. -/
def agg (x1 : (⟨S2x800000, .i32⟩ : BufTy).Contents (Elt Ideal)) (hs : S50000x128.Idx → EReal) : S50000x128.Idx → EReal :=
  Host.scatterAdd (F := Ideal) (φ := .f32) Cert.ReferenceIdeal.scatter_S50000x128_S800000x1_S800000x128_1_0_0_1 (Cert.ReferenceIdeal.Read.val_main_v42 (F := Ideal)) (Cert.ReferenceIdeal.Read.val_main_v43 (F := Ideal) x1)
    (Host.gather Cert.ReferenceIdeal.gather_S50000x128_S800000x1_S800000x128_1_0_n_n_0_1_1128 hs (Cert.ReferenceIdeal.Read.val_main_v38 (F := Ideal) x1))

/-- A vector of 128 as a row. -/
def brow (v : S128.Idx → EReal) : S1x128.Idx → EReal := shapeCast S1x128 v shapeCasts_S128_S1x128

section Terms
variable (x0 : (⟨S50000x128, .f32⟩ : BufTy).Contents (Elt Ideal)) (x1 : (⟨S2x800000, .i32⟩ : BufTy).Contents (Elt Ideal))
  (x4 : (⟨S3x128x128, .f32⟩ : BufTy).Contents (Elt Ideal)) (x5 : (⟨S3x128, .f32⟩ : BufTy).Contents (Elt Ideal))
  (x6 : (⟨S128x128, .f32⟩ : BufTy).Contents (Elt Ideal)) (x7 : (⟨S128, .f32⟩ : BufTy).Contents (Elt Ideal))

/-- The first kernel's output: the scaled first-layer product. -/
def HS0 : S50000x128.Idx → EReal := R0 x0 (DK x1) (Cert.ReferenceIdeal.Read.val_main_v31 (F := Ideal) x4)
/-- The second kernel's output. -/
def HS1 : S50000x128.Idx → EReal :=
  R1 (agg x1 (HS0 x0 x1 x4)) (HS0 x0 x1 x4) (DK x1) (brow (Cert.ReferenceIdeal.Read.val_main_v49 (F := Ideal) x5)) (Cert.ReferenceIdeal.Read.val_main_v56 (F := Ideal) x4)
/-- The third kernel's output. -/
def HS2 : S50000x128.Idx → EReal :=
  R1 (agg x1 (HS1 x0 x1 x4 x5)) (HS1 x0 x1 x4 x5) (DK x1) (brow (Cert.ReferenceIdeal.Read.val_main_v74 (F := Ideal) x5)) (Cert.ReferenceIdeal.Read.val_main_v81 (F := Ideal) x4)
/-- The fourth kernel's output: the node features before pooling. -/
def OUT3 : S50000x128.Idx → EReal :=
  R3 (agg x1 (HS2 x0 x1 x4 x5)) (HS2 x0 x1 x4 x5) (DK x1) (brow (Cert.ReferenceIdeal.Read.val_main_v99 (F := Ideal) x5)) (Cert.ReferenceIdeal.Read.val_main_v104 (F := Ideal) x6) (brow x7)
end Terms

/-! ## After the first kernel -/

theorem W2_v15 : (W2 m ρ c (Proc.devRef .tc main_v15) : S50000x128.Idx → EReal)
    = HS0 (m ((c : Thread nD τ).loc main_arg0)) (m ((c : Thread nD τ).loc main_arg1)) (m ((c : Thread nD τ).loc main_arg4)) := by
  refine (W2_arr m ρ c 3).trans ?_
  rw [arr0 (V1 m ρ) c]
  show R0 (W1 m ρ c (Proc.devRef .tc main_arg0)) (W1 m ρ c (Proc.devRef .tc main_v11)) (W1 m ρ c (Proc.devRef .tc main_v14)) = _
  rw [W1_arg0, W1_v11, W1_v14]
  rfl

theorem W2_v1 : (W2 m ρ c (Proc.devRef .tc main_v1) : S800000.Idx → BitVec 32) = Cert.ReferenceIdeal.Read.val_main_v1 (F := Ideal) (m ((c : Thread nD τ).loc main_arg1)) :=
  (W2_of_ne m ρ c main_v1 (by decide)).trans (W1_v1 m ρ c)
theorem W2_v3 : (W2 m ρ c (Proc.devRef .tc main_v3) : S800000.Idx → BitVec 32) = Cert.ReferenceIdeal.Read.val_main_v3 (F := Ideal) (m ((c : Thread nD τ).loc main_arg1)) :=
  (W2_of_ne m ρ c main_v3 (by decide)).trans (W1_v3 m ρ c)
theorem W2_v11 : (W2 m ρ c (Proc.devRef .tc main_v11) : S50000x1.Idx → EReal) = DK (m ((c : Thread nD τ).loc main_arg1)) :=
  ((W2_arr m ρ c 1).trans (((dat0 (V1 m ρ) c).arrAt_in 1 rfl _).trans (A_eq0 (V1 m ρ) c 1))).trans (W1_v11 m ρ c)

/-! ## After the second host stretch -/

set_option maxHeartbeats 4000000 in
theorem W3_v25 : (W3 m ρ c (Proc.devRef .tc main_v25) : S50000x128.Idx → EReal)
    = agg (m ((c : Thread nD τ).loc main_arg1)) (HS0 (m ((c : Thread nD τ).loc main_arg0)) (m ((c : Thread nD τ).loc main_arg1)) (m ((c : Thread nD τ).loc main_arg4))) := by
  dsimp only [W3, hostOps1]; after_results
  rw [W2_v1, W2_v3, W2_v15]
  rfl
set_option maxHeartbeats 4000000 in
theorem W3_v28 : (W3 m ρ c (Proc.devRef .tc main_v28) : S1x128.Idx → EReal) = brow (Cert.ReferenceIdeal.Read.val_main_v49 (F := Ideal) (m ((c : Thread nD τ).loc main_arg5))) := by
  dsimp only [W3, hostOps1]; after_results
  have h : W2 m ρ c (Proc.devRef .tc main_arg5) = (m ((c : Thread nD τ).loc main_arg5)) :=
    (W2_of_ne m ρ c main_arg5 (by decide)).trans (by dsimp only [W1, hostOps0]; after_results)
  rw [h]; rfl
set_option maxHeartbeats 4000000 in
theorem W3_v31 : (W3 m ρ c (Proc.devRef .tc main_v31) : S128x128.Idx → EReal) = Cert.ReferenceIdeal.Read.val_main_v56 (F := Ideal) (m ((c : Thread nD τ).loc main_arg4)) := by
  dsimp only [W3, hostOps1]; after_results
  have h : W2 m ρ c (Proc.devRef .tc main_arg4) = (m ((c : Thread nD τ).loc main_arg4)) :=
    (W2_of_ne m ρ c main_arg4 (by decide)).trans (by dsimp only [W1, hostOps0]; after_results)
  rw [h]; rfl
theorem W3_v15 : (W3 m ρ c (Proc.devRef .tc main_v15) : S50000x128.Idx → EReal) = HS0 (m ((c : Thread nD τ).loc main_arg0)) (m ((c : Thread nD τ).loc main_arg1)) (m ((c : Thread nD τ).loc main_arg4)) :=
  (show W3 m ρ c (Proc.devRef .tc main_v15) = W2 m ρ c (Proc.devRef .tc main_v15) from StableHlo.after_of_forall_not_mem (b := Proc.devRef .tc main_v15) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_v15 m ρ c)
theorem W3_v11 : (W3 m ρ c (Proc.devRef .tc main_v11) : S50000x1.Idx → EReal) = DK (m ((c : Thread nD τ).loc main_arg1)) :=
  (show W3 m ρ c (Proc.devRef .tc main_v11) = W2 m ρ c (Proc.devRef .tc main_v11) from StableHlo.after_of_forall_not_mem (b := Proc.devRef .tc main_v11) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_v11 m ρ c)
theorem W3_v1 : (W3 m ρ c (Proc.devRef .tc main_v1) : S800000.Idx → BitVec 32) = Cert.ReferenceIdeal.Read.val_main_v1 (F := Ideal) (m ((c : Thread nD τ).loc main_arg1)) :=
  (show W3 m ρ c (Proc.devRef .tc main_v1) = W2 m ρ c (Proc.devRef .tc main_v1) from StableHlo.after_of_forall_not_mem (b := Proc.devRef .tc main_v1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_v1 m ρ c)
theorem W3_v3 : (W3 m ρ c (Proc.devRef .tc main_v3) : S800000.Idx → BitVec 32) = Cert.ReferenceIdeal.Read.val_main_v3 (F := Ideal) (m ((c : Thread nD τ).loc main_arg1)) :=
  (show W3 m ρ c (Proc.devRef .tc main_v3) = W2 m ρ c (Proc.devRef .tc main_v3) from StableHlo.after_of_forall_not_mem (b := Proc.devRef .tc main_v3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_v3 m ρ c)
theorem W3_arg4 : W3 m ρ c (Proc.devRef .tc main_arg4) = (m ((c : Thread nD τ).loc main_arg4)) :=
  (show W3 m ρ c (Proc.devRef .tc main_arg4) = W2 m ρ c (Proc.devRef .tc main_arg4) from StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ((W2_of_ne m ρ c main_arg4 (by decide)).trans (by dsimp only [W1, hostOps0]; after_results))
theorem W3_arg5 : W3 m ρ c (Proc.devRef .tc main_arg5) = (m ((c : Thread nD τ).loc main_arg5)) :=
  (show W3 m ρ c (Proc.devRef .tc main_arg5) = W2 m ρ c (Proc.devRef .tc main_arg5) from StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ((W2_of_ne m ρ c main_arg5 (by decide)).trans (by dsimp only [W1, hostOps0]; after_results))

/-! ## The arguments at the later boundaries: nothing writes them -/

theorem W4_arg4 : W4 m ρ c (Proc.devRef .tc main_arg4) = (m ((c : Thread nD τ).loc main_arg4)) := (((show W5 m ρ c (Proc.devRef .tc main_arg4) = W4 m ρ c (Proc.devRef .tc main_arg4) from StableHlo.after_of_forall_not_mem (b := Proc.devRef .tc main_arg4) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).symm).trans (((W6_of_ne m ρ c main_arg4 (by decide)).symm).trans (((show W7 m ρ c (Proc.devRef .tc main_arg4) = W6 m ρ c (Proc.devRef .tc main_arg4) from StableHlo.after_of_forall_not_mem (b := Proc.devRef .tc main_arg4) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).symm).trans (((W8_of_ne m ρ c main_arg4 (by decide)).symm).trans (((show W9 m ρ c (Proc.devRef .tc main_arg4) = W8 m ρ c (Proc.devRef .tc main_arg4) from StableHlo.after_of_forall_not_mem (b := Proc.devRef .tc main_arg4) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).symm).trans (((W10_of_ne m ρ c main_arg4 (by decide)).symm).trans (W10_main_arg4 m ρ c)))))))
theorem W4_arg5 : W4 m ρ c (Proc.devRef .tc main_arg5) = (m ((c : Thread nD τ).loc main_arg5)) := (((show W5 m ρ c (Proc.devRef .tc main_arg5) = W4 m ρ c (Proc.devRef .tc main_arg5) from StableHlo.after_of_forall_not_mem (b := Proc.devRef .tc main_arg5) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).symm).trans (((W6_of_ne m ρ c main_arg5 (by decide)).symm).trans (((show W7 m ρ c (Proc.devRef .tc main_arg5) = W6 m ρ c (Proc.devRef .tc main_arg5) from StableHlo.after_of_forall_not_mem (b := Proc.devRef .tc main_arg5) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).symm).trans (((W8_of_ne m ρ c main_arg5 (by decide)).symm).trans (((show W9 m ρ c (Proc.devRef .tc main_arg5) = W8 m ρ c (Proc.devRef .tc main_arg5) from StableHlo.after_of_forall_not_mem (b := Proc.devRef .tc main_arg5) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).symm).trans (((W10_of_ne m ρ c main_arg5 (by decide)).symm).trans (W10_main_arg5 m ρ c)))))))
theorem W6_arg5 : W6 m ρ c (Proc.devRef .tc main_arg5) = (m ((c : Thread nD τ).loc main_arg5)) := (((show W7 m ρ c (Proc.devRef .tc main_arg5) = W6 m ρ c (Proc.devRef .tc main_arg5) from StableHlo.after_of_forall_not_mem (b := Proc.devRef .tc main_arg5) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).symm).trans (((W8_of_ne m ρ c main_arg5 (by decide)).symm).trans (((show W9 m ρ c (Proc.devRef .tc main_arg5) = W8 m ρ c (Proc.devRef .tc main_arg5) from StableHlo.after_of_forall_not_mem (b := Proc.devRef .tc main_arg5) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).symm).trans (((W10_of_ne m ρ c main_arg5 (by decide)).symm).trans (W10_main_arg5 m ρ c)))))
theorem W6_arg6 : W6 m ρ c (Proc.devRef .tc main_arg6) = (m ((c : Thread nD τ).loc main_arg6)) := (((show W7 m ρ c (Proc.devRef .tc main_arg6) = W6 m ρ c (Proc.devRef .tc main_arg6) from StableHlo.after_of_forall_not_mem (b := Proc.devRef .tc main_arg6) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).symm).trans (((W8_of_ne m ρ c main_arg6 (by decide)).symm).trans (((show W9 m ρ c (Proc.devRef .tc main_arg6) = W8 m ρ c (Proc.devRef .tc main_arg6) from StableHlo.after_of_forall_not_mem (b := Proc.devRef .tc main_arg6) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).symm).trans (((W10_of_ne m ρ c main_arg6 (by decide)).symm).trans (W10_main_arg6 m ρ c)))))
theorem W6_arg7 : W6 m ρ c (Proc.devRef .tc main_arg7) = (m ((c : Thread nD τ).loc main_arg7)) := (((show W7 m ρ c (Proc.devRef .tc main_arg7) = W6 m ρ c (Proc.devRef .tc main_arg7) from StableHlo.after_of_forall_not_mem (b := Proc.devRef .tc main_arg7) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).symm).trans (((W8_of_ne m ρ c main_arg7 (by decide)).symm).trans (((show W9 m ρ c (Proc.devRef .tc main_arg7) = W8 m ρ c (Proc.devRef .tc main_arg7) from StableHlo.after_of_forall_not_mem (b := Proc.devRef .tc main_arg7) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).symm).trans (((W10_of_ne m ρ c main_arg7 (by decide)).symm).trans (W10_main_arg7 m ρ c)))))
theorem W8_arg2 : W8 m ρ c (Proc.devRef .tc main_arg2) = (m ((c : Thread nD τ).loc main_arg2)) := (((show W9 m ρ c (Proc.devRef .tc main_arg2) = W8 m ρ c (Proc.devRef .tc main_arg2) from StableHlo.after_of_forall_not_mem (b := Proc.devRef .tc main_arg2) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).symm).trans (((W10_of_ne m ρ c main_arg2 (by decide)).symm).trans (W10_main_arg2 m ρ c)))
theorem W8_arg8 : W8 m ρ c (Proc.devRef .tc main_arg8) = (m ((c : Thread nD τ).loc main_arg8)) := (((show W9 m ρ c (Proc.devRef .tc main_arg8) = W8 m ρ c (Proc.devRef .tc main_arg8) from StableHlo.after_of_forall_not_mem (b := Proc.devRef .tc main_arg8) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).symm).trans (((W10_of_ne m ρ c main_arg8 (by decide)).symm).trans (W10_main_arg8 m ρ c)))
theorem W8_arg9 : W8 m ρ c (Proc.devRef .tc main_arg9) = (m ((c : Thread nD τ).loc main_arg9)) := (((show W9 m ρ c (Proc.devRef .tc main_arg9) = W8 m ρ c (Proc.devRef .tc main_arg9) from StableHlo.after_of_forall_not_mem (b := Proc.devRef .tc main_arg9) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).symm).trans (((W10_of_ne m ρ c main_arg9 (by decide)).symm).trans (W10_main_arg9 m ρ c)))
theorem W8_arg10 : W8 m ρ c (Proc.devRef .tc main_arg10) = (m ((c : Thread nD τ).loc main_arg10)) := (((show W9 m ρ c (Proc.devRef .tc main_arg10) = W8 m ρ c (Proc.devRef .tc main_arg10) from StableHlo.after_of_forall_not_mem (b := Proc.devRef .tc main_arg10) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).symm).trans (((W10_of_ne m ρ c main_arg10 (by decide)).symm).trans (W10_main_arg10 m ρ c)))
theorem W8_arg11 : W8 m ρ c (Proc.devRef .tc main_arg11) = (m ((c : Thread nD τ).loc main_arg11)) := (((show W9 m ρ c (Proc.devRef .tc main_arg11) = W8 m ρ c (Proc.devRef .tc main_arg11) from StableHlo.after_of_forall_not_mem (b := Proc.devRef .tc main_arg11) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).symm).trans (((W10_of_ne m ρ c main_arg11 (by decide)).symm).trans (W10_main_arg11 m ρ c)))
theorem W8_arg12 : W8 m ρ c (Proc.devRef .tc main_arg12) = (m ((c : Thread nD τ).loc main_arg12)) := (((show W9 m ρ c (Proc.devRef .tc main_arg12) = W8 m ρ c (Proc.devRef .tc main_arg12) from StableHlo.after_of_forall_not_mem (b := Proc.devRef .tc main_arg12) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).symm).trans (((W10_of_ne m ρ c main_arg12 (by decide)).symm).trans (W10_main_arg12 m ρ c)))
theorem W8_arg13 : W8 m ρ c (Proc.devRef .tc main_arg13) = (m ((c : Thread nD τ).loc main_arg13)) := (((show W9 m ρ c (Proc.devRef .tc main_arg13) = W8 m ρ c (Proc.devRef .tc main_arg13) from StableHlo.after_of_forall_not_mem (b := Proc.devRef .tc main_arg13) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).symm).trans (((W10_of_ne m ρ c main_arg13 (by decide)).symm).trans (W10_main_arg13 m ρ c)))
theorem W8_arg14 : W8 m ρ c (Proc.devRef .tc main_arg14) = (m ((c : Thread nD τ).loc main_arg14)) := (((show W9 m ρ c (Proc.devRef .tc main_arg14) = W8 m ρ c (Proc.devRef .tc main_arg14) from StableHlo.after_of_forall_not_mem (b := Proc.devRef .tc main_arg14) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).symm).trans (((W10_of_ne m ρ c main_arg14 (by decide)).symm).trans (W10_main_arg14 m ρ c)))
theorem W8_arg15 : W8 m ρ c (Proc.devRef .tc main_arg15) = (m ((c : Thread nD τ).loc main_arg15)) := (((show W9 m ρ c (Proc.devRef .tc main_arg15) = W8 m ρ c (Proc.devRef .tc main_arg15) from StableHlo.after_of_forall_not_mem (b := Proc.devRef .tc main_arg15) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).symm).trans (((W10_of_ne m ρ c main_arg15 (by decide)).symm).trans (W10_main_arg15 m ρ c)))
theorem W8_arg16 : W8 m ρ c (Proc.devRef .tc main_arg16) = (m ((c : Thread nD τ).loc main_arg16)) := (((show W9 m ρ c (Proc.devRef .tc main_arg16) = W8 m ρ c (Proc.devRef .tc main_arg16) from StableHlo.after_of_forall_not_mem (b := Proc.devRef .tc main_arg16) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).symm).trans (((W10_of_ne m ρ c main_arg16 (by decide)).symm).trans (W10_main_arg16 m ρ c)))
theorem W8_arg17 : W8 m ρ c (Proc.devRef .tc main_arg17) = (m ((c : Thread nD τ).loc main_arg17)) := (((show W9 m ρ c (Proc.devRef .tc main_arg17) = W8 m ρ c (Proc.devRef .tc main_arg17) from StableHlo.after_of_forall_not_mem (b := Proc.devRef .tc main_arg17) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).symm).trans (((W10_of_ne m ρ c main_arg17 (by decide)).symm).trans (W10_main_arg17 m ρ c)))
theorem W9_arg3 : W9 m ρ c (Proc.devRef .tc main_arg3) = (m ((c : Thread nD τ).loc main_arg3)) :=
  (((W10_arr m ρ c 2).trans (((dat4 (V9 m ρ) c).arrAt_in 2 rfl _).trans (A_eq4 (V9 m ρ) c 2))).symm).trans (W10_main_arg3 m ρ c)

/-! ## After the second kernel -/

theorem W4_v32 : (W4 m ρ c (Proc.devRef .tc main_v32) : S50000x128.Idx → EReal)
    = HS1 (m ((c : Thread nD τ).loc main_arg0)) (m ((c : Thread nD τ).loc main_arg1)) (m ((c : Thread nD τ).loc main_arg4)) (m ((c : Thread nD τ).loc main_arg5)) := by
  refine (W4_arr m ρ c 5).trans ?_
  rw [arr1 (V3 m ρ) c]
  show R1 (W3 m ρ c (Proc.devRef .tc main_v25)) (W3 m ρ c (Proc.devRef .tc main_v15)) (W3 m ρ c (Proc.devRef .tc main_v11)) (W3 m ρ c (Proc.devRef .tc main_v28)) (W3 m ρ c (Proc.devRef .tc main_v31)) = _
  rw [W3_v25, W3_v15, W3_v11, W3_v28, W3_v31]
  rfl
theorem W4_v1 : (W4 m ρ c (Proc.devRef .tc main_v1) : S800000.Idx → BitVec 32) = Cert.ReferenceIdeal.Read.val_main_v1 (F := Ideal) (m ((c : Thread nD τ).loc main_arg1)) :=
  (W4_of_ne m ρ c main_v1 (by decide)).trans (W3_v1 m ρ c)
theorem W4_v3 : (W4 m ρ c (Proc.devRef .tc main_v3) : S800000.Idx → BitVec 32) = Cert.ReferenceIdeal.Read.val_main_v3 (F := Ideal) (m ((c : Thread nD τ).loc main_arg1)) :=
  (W4_of_ne m ρ c main_v3 (by decide)).trans (W3_v3 m ρ c)
theorem W4_v11 : (W4 m ρ c (Proc.devRef .tc main_v11) : S50000x1.Idx → EReal) = DK (m ((c : Thread nD τ).loc main_arg1)) :=
  ((W4_arr m ρ c 2).trans (((dat1 (V3 m ρ) c).arrAt_in 2 rfl _).trans (A_eq1 (V3 m ρ) c 2))).trans (W3_v11 m ρ c)

/-! ## After the third host stretch -/

set_option maxHeartbeats 4000000 in
theorem W5_v42 : (W5 m ρ c (Proc.devRef .tc main_v42) : S50000x128.Idx → EReal)
    = agg (m ((c : Thread nD τ).loc main_arg1)) (HS1 (m ((c : Thread nD τ).loc main_arg0)) (m ((c : Thread nD τ).loc main_arg1)) (m ((c : Thread nD τ).loc main_arg4)) (m ((c : Thread nD τ).loc main_arg5))) := by
  dsimp only [W5, hostOps2]; after_results
  rw [W4_v1, W4_v3, W4_v32]
  rfl
set_option maxHeartbeats 4000000 in
theorem W5_v45 : (W5 m ρ c (Proc.devRef .tc main_v45) : S1x128.Idx → EReal) = brow (Cert.ReferenceIdeal.Read.val_main_v74 (F := Ideal) (m ((c : Thread nD τ).loc main_arg5))) := by
  dsimp only [W5, hostOps2]; after_results
  rw [W4_arg5]; rfl
set_option maxHeartbeats 4000000 in
theorem W5_v48 : (W5 m ρ c (Proc.devRef .tc main_v48) : S128x128.Idx → EReal) = Cert.ReferenceIdeal.Read.val_main_v81 (F := Ideal) (m ((c : Thread nD τ).loc main_arg4)) := by
  dsimp only [W5, hostOps2]; after_results
  rw [W4_arg4]; rfl
theorem W5_v32 : (W5 m ρ c (Proc.devRef .tc main_v32) : S50000x128.Idx → EReal) = HS1 (m ((c : Thread nD τ).loc main_arg0)) (m ((c : Thread nD τ).loc main_arg1)) (m ((c : Thread nD τ).loc main_arg4)) (m ((c : Thread nD τ).loc main_arg5)) :=
  (show W5 m ρ c (Proc.devRef .tc main_v32) = W4 m ρ c (Proc.devRef .tc main_v32) from StableHlo.after_of_forall_not_mem (b := Proc.devRef .tc main_v32) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W4_v32 m ρ c)
theorem W5_v11 : (W5 m ρ c (Proc.devRef .tc main_v11) : S50000x1.Idx → EReal) = DK (m ((c : Thread nD τ).loc main_arg1)) :=
  (show W5 m ρ c (Proc.devRef .tc main_v11) = W4 m ρ c (Proc.devRef .tc main_v11) from StableHlo.after_of_forall_not_mem (b := Proc.devRef .tc main_v11) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W4_v11 m ρ c)
theorem W5_v1 : (W5 m ρ c (Proc.devRef .tc main_v1) : S800000.Idx → BitVec 32) = Cert.ReferenceIdeal.Read.val_main_v1 (F := Ideal) (m ((c : Thread nD τ).loc main_arg1)) :=
  (show W5 m ρ c (Proc.devRef .tc main_v1) = W4 m ρ c (Proc.devRef .tc main_v1) from StableHlo.after_of_forall_not_mem (b := Proc.devRef .tc main_v1) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W4_v1 m ρ c)
theorem W5_v3 : (W5 m ρ c (Proc.devRef .tc main_v3) : S800000.Idx → BitVec 32) = Cert.ReferenceIdeal.Read.val_main_v3 (F := Ideal) (m ((c : Thread nD τ).loc main_arg1)) :=
  (show W5 m ρ c (Proc.devRef .tc main_v3) = W4 m ρ c (Proc.devRef .tc main_v3) from StableHlo.after_of_forall_not_mem (b := Proc.devRef .tc main_v3) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W4_v3 m ρ c)

/-! ## After the third kernel -/

theorem W6_v49 : (W6 m ρ c (Proc.devRef .tc main_v49) : S50000x128.Idx → EReal)
    = HS2 (m ((c : Thread nD τ).loc main_arg0)) (m ((c : Thread nD τ).loc main_arg1)) (m ((c : Thread nD τ).loc main_arg4)) (m ((c : Thread nD τ).loc main_arg5)) := by
  refine (W6_arr m ρ c 5).trans ?_
  rw [arr2 (V5 m ρ) c]
  show R1 (W5 m ρ c (Proc.devRef .tc main_v42)) (W5 m ρ c (Proc.devRef .tc main_v32)) (W5 m ρ c (Proc.devRef .tc main_v11)) (W5 m ρ c (Proc.devRef .tc main_v45)) (W5 m ρ c (Proc.devRef .tc main_v48)) = _
  rw [W5_v42, W5_v32, W5_v11, W5_v45, W5_v48]
  rfl
theorem W6_v1 : (W6 m ρ c (Proc.devRef .tc main_v1) : S800000.Idx → BitVec 32) = Cert.ReferenceIdeal.Read.val_main_v1 (F := Ideal) (m ((c : Thread nD τ).loc main_arg1)) :=
  (W6_of_ne m ρ c main_v1 (by decide)).trans (W5_v1 m ρ c)
theorem W6_v3 : (W6 m ρ c (Proc.devRef .tc main_v3) : S800000.Idx → BitVec 32) = Cert.ReferenceIdeal.Read.val_main_v3 (F := Ideal) (m ((c : Thread nD τ).loc main_arg1)) :=
  (W6_of_ne m ρ c main_v3 (by decide)).trans (W5_v3 m ρ c)
theorem W6_v11 : (W6 m ρ c (Proc.devRef .tc main_v11) : S50000x1.Idx → EReal) = DK (m ((c : Thread nD τ).loc main_arg1)) :=
  ((W6_arr m ρ c 2).trans (((dat2 (V5 m ρ) c).arrAt_in 2 rfl _).trans (A_eq2 (V5 m ρ) c 2))).trans (W5_v11 m ρ c)

/-! ## After the fourth host stretch -/

set_option maxHeartbeats 4000000 in
theorem W7_v59 : (W7 m ρ c (Proc.devRef .tc main_v59) : S50000x128.Idx → EReal)
    = agg (m ((c : Thread nD τ).loc main_arg1)) (HS2 (m ((c : Thread nD τ).loc main_arg0)) (m ((c : Thread nD τ).loc main_arg1)) (m ((c : Thread nD τ).loc main_arg4)) (m ((c : Thread nD τ).loc main_arg5))) := by
  dsimp only [W7, hostOps3]; after_results
  rw [W6_v1, W6_v3, W6_v49]
  rfl
set_option maxHeartbeats 4000000 in
theorem W7_v62 : (W7 m ρ c (Proc.devRef .tc main_v62) : S1x128.Idx → EReal) = brow (Cert.ReferenceIdeal.Read.val_main_v99 (F := Ideal) (m ((c : Thread nD τ).loc main_arg5))) := by
  dsimp only [W7, hostOps3]; after_results
  rw [W6_arg5]; rfl
set_option maxHeartbeats 4000000 in
theorem W7_v63 : (W7 m ρ c (Proc.devRef .tc main_v63) : S128x128.Idx → EReal) = Cert.ReferenceIdeal.Read.val_main_v104 (F := Ideal) (m ((c : Thread nD τ).loc main_arg6)) := by
  dsimp only [W7, hostOps3]; after_results
  rw [W6_arg6]; rfl
set_option maxHeartbeats 4000000 in
theorem W7_v64 : (W7 m ρ c (Proc.devRef .tc main_v64) : S1x128.Idx → EReal) = brow (m ((c : Thread nD τ).loc main_arg7)) := by
  dsimp only [W7, hostOps3]; after_results
  rw [W6_arg7]; rfl
theorem W7_v49 : (W7 m ρ c (Proc.devRef .tc main_v49) : S50000x128.Idx → EReal) = HS2 (m ((c : Thread nD τ).loc main_arg0)) (m ((c : Thread nD τ).loc main_arg1)) (m ((c : Thread nD τ).loc main_arg4)) (m ((c : Thread nD τ).loc main_arg5)) :=
  (show W7 m ρ c (Proc.devRef .tc main_v49) = W6 m ρ c (Proc.devRef .tc main_v49) from StableHlo.after_of_forall_not_mem (b := Proc.devRef .tc main_v49) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W6_v49 m ρ c)
theorem W7_v11 : (W7 m ρ c (Proc.devRef .tc main_v11) : S50000x1.Idx → EReal) = DK (m ((c : Thread nD τ).loc main_arg1)) :=
  (show W7 m ρ c (Proc.devRef .tc main_v11) = W6 m ρ c (Proc.devRef .tc main_v11) from StableHlo.after_of_forall_not_mem (b := Proc.devRef .tc main_v11) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W6_v11 m ρ c)

/-! ## After the fourth kernel: the node features before pooling -/

theorem W8_v65 : (W8 m ρ c (Proc.devRef .tc main_v65) : S50000x128.Idx → EReal)
    = OUT3 (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) := by
  refine (W8_arr m ρ c 6).trans ?_
  rw [arr3 (V7 m ρ) c]
  show R3 (W7 m ρ c (Proc.devRef .tc main_v59)) (W7 m ρ c (Proc.devRef .tc main_v49)) (W7 m ρ c (Proc.devRef .tc main_v11)) (W7 m ρ c (Proc.devRef .tc main_v62)) (W7 m ρ c (Proc.devRef .tc main_v63)) (W7 m ρ c (Proc.devRef .tc main_v64)) = _
  rw [W7_v59, W7_v49, W7_v11, W7_v62, W7_v63, W7_v64]
  rfl

end Cert.KernelIdeal.HostReads

end
-- ==== Proof.HeadArray.lean ====
/-
  The head kernel's output array.

  The head kernel has a single grid point and every one of its windows is the whole of its array, so the block a window
  stages is the array itself and the output array ends at the body's value of the input arrays.
-/
import proofs.«118885_j83339545411634_2_alg».proof.Proof.Gen.KernelIdeal.Frame
import Idealize.ShloMosaic.Lib.Pipeline.Value
import Idealize.ShloMosaic.PureOps.Ideal

set_option maxRecDepth 16384

noncomputable section

namespace Cert.KernelIdeal.HeadArray

open Cert.KernelIdeal Cert.KernelIdeal.Gen
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

/-- Every window of the head kernel sits at block (0, 0) at its one grid point. -/
theorem idx_facts4 : ∀ t : Fin cfg4.N,
    (win4_0.index t (0 : Fin 2) = 0 ∧ win4_0.index t (1 : Fin 2) = 0)
    ∧ (win4_1.index t (0 : Fin 2) = 0 ∧ win4_1.index t (1 : Fin 2) = 0)
    ∧ (win4_2.index t (0 : Fin 2) = 0 ∧ win4_2.index t (1 : Fin 2) = 0)
    ∧ (win4_3.index t (0 : Fin 2) = 0 ∧ win4_3.index t (1 : Fin 2) = 0)
    ∧ (win4_4.index t (0 : Fin 2) = 0 ∧ win4_4.index t (1 : Fin 2) = 0)
    ∧ (win4_5.index t (0 : Fin 2) = 0 ∧ win4_5.index t (1 : Fin 2) = 0)
    ∧ (win4_6.index t (0 : Fin 2) = 0 ∧ win4_6.index t (1 : Fin 2) = 0)
    ∧ (win4_7.index t (0 : Fin 2) = 0 ∧ win4_7.index t (1 : Fin 2) = 0)
    ∧ (win4_8.index t (0 : Fin 2) = 0 ∧ win4_8.index t (1 : Fin 2) = 0)
    ∧ (win4_9.index t (0 : Fin 2) = 0 ∧ win4_9.index t (1 : Fin 2) = 0)
    ∧ (win4_10.index t (0 : Fin 2) = 0 ∧ win4_10.index t (1 : Fin 2) = 0)
    ∧ (win4_11.index t (0 : Fin 2) = 0 ∧ win4_11.index t (1 : Fin 2) = 0)
    ∧ (win4_12.index t (0 : Fin 2) = 0 ∧ win4_12.index t (1 : Fin 2) = 0)
    ∧ (win4_13.index t (0 : Fin 2) = 0 ∧ win4_13.index t (1 : Fin 2) = 0)
    ∧ (win4_14.index t (0 : Fin 2) = 0 ∧ win4_14.index t (1 : Fin 2) = 0)
    ∧ (win4_15.index t (0 : Fin 2) = 0 ∧ win4_15.index t (1 : Fin 2) = 0) :=
  (by decide +kernel : ∀ t : Fin grid4.N, _)

set_option maxHeartbeats 4000000 in
/-- What the one grid point writes back is the body's value of the arrays as the kernel finds them. -/
theorem flushed4 (c : Dev nD) (t : Fin cfg4.N) :
    (dat4 (F := Ideal) V c).flushed 15 t = ((cfg4.win 15).blk t).view.read (Elt Ideal)
      (out4_15 (F := Ideal) (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6)) (V c (Pipeline.arrRef spec4 7)) (V c (Pipeline.arrRef spec4 8)) (V c (Pipeline.arrRef spec4 9)) (V c (Pipeline.arrRef spec4 10)) (V c (Pipeline.arrRef spec4 11)) (V c (Pipeline.arrRef spec4 12)) (V c (Pipeline.arrRef spec4 13)) (V c (Pipeline.arrRef spec4 14))) := by
  show (cfg4.win 15).cut (grid4.coords t) ((dat4 V c).after 15 t) = _
  rw [after4_15]
  obtain ⟨⟨a0, b0⟩, ⟨a1, b1⟩, ⟨a2, b2⟩, ⟨a3, b3⟩, ⟨a4, b4⟩, ⟨a5, b5⟩, ⟨a6, b6⟩, ⟨a7, b7⟩, ⟨a8, b8⟩, ⟨a9, b9⟩, ⟨a10, b10⟩, ⟨a11, b11⟩, ⟨a12, b12⟩, ⟨a13, b13⟩, ⟨a14, b14⟩, ⟨a15, b15⟩⟩ := idx_facts4 t
  have hw0 : iblk4 V c 0 t = V c (Pipeline.arrRef spec4 0) := by
    funext y
    show V c (Pipeline.arrRef spec4 0) (((cfg4.win 0).blk t).view.emb y) = V c (Pipeline.arrRef spec4 0) y
    refine congrArg _ (funext fun a => Fin.ext ?_)
    match a with
    | ⟨0, _⟩ => show win4_0.index t (0 : Fin 2) * 256 + 1 * (y 0).val = (y 0).val; omega
    | ⟨1, _⟩ => show win4_0.index t (1 : Fin 2) * 128 + 1 * (y 1).val = (y 1).val; omega
  have hw1 : iblk4 V c 1 t = V c (Pipeline.arrRef spec4 1) := by
    funext y
    show V c (Pipeline.arrRef spec4 1) (((cfg4.win 1).blk t).view.emb y) = V c (Pipeline.arrRef spec4 1) y
    refine congrArg _ (funext fun a => Fin.ext ?_)
    match a with
    | ⟨0, _⟩ => show win4_1.index t (0 : Fin 2) * 256 + 1 * (y 0).val = (y 0).val; omega
    | ⟨1, _⟩ => show win4_1.index t (1 : Fin 2) * 1 + 1 * (y 1).val = (y 1).val; omega
  have hw2 : iblk4 V c 2 t = V c (Pipeline.arrRef spec4 2) := by
    funext y
    show V c (Pipeline.arrRef spec4 2) (((cfg4.win 2).blk t).view.emb y) = V c (Pipeline.arrRef spec4 2) y
    refine congrArg _ (funext fun a => Fin.ext ?_)
    match a with
    | ⟨0, _⟩ => show win4_2.index t (0 : Fin 2) * 256 + 1 * (y 0).val = (y 0).val; omega
    | ⟨1, _⟩ => show win4_2.index t (1 : Fin 2) * 256 + 1 * (y 1).val = (y 1).val; omega
  have hw3 : iblk4 V c 3 t = V c (Pipeline.arrRef spec4 3) := by
    funext y
    show V c (Pipeline.arrRef spec4 3) (((cfg4.win 3).blk t).view.emb y) = V c (Pipeline.arrRef spec4 3) y
    refine congrArg _ (funext fun a => Fin.ext ?_)
    match a with
    | ⟨0, _⟩ => show win4_3.index t (0 : Fin 2) * 256 + 1 * (y 0).val = (y 0).val; omega
    | ⟨1, _⟩ => show win4_3.index t (1 : Fin 2) * 256 + 1 * (y 1).val = (y 1).val; omega
  have hw4 : iblk4 V c 4 t = V c (Pipeline.arrRef spec4 4) := by
    funext y
    show V c (Pipeline.arrRef spec4 4) (((cfg4.win 4).blk t).view.emb y) = V c (Pipeline.arrRef spec4 4) y
    refine congrArg _ (funext fun a => Fin.ext ?_)
    match a with
    | ⟨0, _⟩ => show win4_4.index t (0 : Fin 2) * 256 + 1 * (y 0).val = (y 0).val; omega
    | ⟨1, _⟩ => show win4_4.index t (1 : Fin 2) * 256 + 1 * (y 1).val = (y 1).val; omega
  have hw5 : iblk4 V c 5 t = V c (Pipeline.arrRef spec4 5) := by
    funext y
    show V c (Pipeline.arrRef spec4 5) (((cfg4.win 5).blk t).view.emb y) = V c (Pipeline.arrRef spec4 5) y
    refine congrArg _ (funext fun a => Fin.ext ?_)
    match a with
    | ⟨0, _⟩ => show win4_5.index t (0 : Fin 2) * 1 + 1 * (y 0).val = (y 0).val; omega
    | ⟨1, _⟩ => show win4_5.index t (1 : Fin 2) * 256 + 1 * (y 1).val = (y 1).val; omega
  have hw6 : iblk4 V c 6 t = V c (Pipeline.arrRef spec4 6) := by
    funext y
    show V c (Pipeline.arrRef spec4 6) (((cfg4.win 6).blk t).view.emb y) = V c (Pipeline.arrRef spec4 6) y
    refine congrArg _ (funext fun a => Fin.ext ?_)
    match a with
    | ⟨0, _⟩ => show win4_6.index t (0 : Fin 2) * 1 + 1 * (y 0).val = (y 0).val; omega
    | ⟨1, _⟩ => show win4_6.index t (1 : Fin 2) * 256 + 1 * (y 1).val = (y 1).val; omega
  have hw7 : iblk4 V c 7 t = V c (Pipeline.arrRef spec4 7) := by
    funext y
    show V c (Pipeline.arrRef spec4 7) (((cfg4.win 7).blk t).view.emb y) = V c (Pipeline.arrRef spec4 7) y
    refine congrArg _ (funext fun a => Fin.ext ?_)
    match a with
    | ⟨0, _⟩ => show win4_7.index t (0 : Fin 2) * 256 + 1 * (y 0).val = (y 0).val; omega
    | ⟨1, _⟩ => show win4_7.index t (1 : Fin 2) * 64 + 1 * (y 1).val = (y 1).val; omega
  have hw8 : iblk4 V c 8 t = V c (Pipeline.arrRef spec4 8) := by
    funext y
    show V c (Pipeline.arrRef spec4 8) (((cfg4.win 8).blk t).view.emb y) = V c (Pipeline.arrRef spec4 8) y
    refine congrArg _ (funext fun a => Fin.ext ?_)
    match a with
    | ⟨0, _⟩ => show win4_8.index t (0 : Fin 2) * 1 + 1 * (y 0).val = (y 0).val; omega
    | ⟨1, _⟩ => show win4_8.index t (1 : Fin 2) * 64 + 1 * (y 1).val = (y 1).val; omega
  have hw9 : iblk4 V c 9 t = V c (Pipeline.arrRef spec4 9) := by
    funext y
    show V c (Pipeline.arrRef spec4 9) (((cfg4.win 9).blk t).view.emb y) = V c (Pipeline.arrRef spec4 9) y
    refine congrArg _ (funext fun a => Fin.ext ?_)
    match a with
    | ⟨0, _⟩ => show win4_9.index t (0 : Fin 2) * 192 + 1 * (y 0).val = (y 0).val; omega
    | ⟨1, _⟩ => show win4_9.index t (1 : Fin 2) * 256 + 1 * (y 1).val = (y 1).val; omega
  have hw10 : iblk4 V c 10 t = V c (Pipeline.arrRef spec4 10) := by
    funext y
    show V c (Pipeline.arrRef spec4 10) (((cfg4.win 10).blk t).view.emb y) = V c (Pipeline.arrRef spec4 10) y
    refine congrArg _ (funext fun a => Fin.ext ?_)
    match a with
    | ⟨0, _⟩ => show win4_10.index t (0 : Fin 2) * 1 + 1 * (y 0).val = (y 0).val; omega
    | ⟨1, _⟩ => show win4_10.index t (1 : Fin 2) * 256 + 1 * (y 1).val = (y 1).val; omega
  have hw11 : iblk4 V c 11 t = V c (Pipeline.arrRef spec4 11) := by
    funext y
    show V c (Pipeline.arrRef spec4 11) (((cfg4.win 11).blk t).view.emb y) = V c (Pipeline.arrRef spec4 11) y
    refine congrArg _ (funext fun a => Fin.ext ?_)
    match a with
    | ⟨0, _⟩ => show win4_11.index t (0 : Fin 2) * 256 + 1 * (y 0).val = (y 0).val; omega
    | ⟨1, _⟩ => show win4_11.index t (1 : Fin 2) * 256 + 1 * (y 1).val = (y 1).val; omega
  have hw12 : iblk4 V c 12 t = V c (Pipeline.arrRef spec4 12) := by
    funext y
    show V c (Pipeline.arrRef spec4 12) (((cfg4.win 12).blk t).view.emb y) = V c (Pipeline.arrRef spec4 12) y
    refine congrArg _ (funext fun a => Fin.ext ?_)
    match a with
    | ⟨0, _⟩ => show win4_12.index t (0 : Fin 2) * 1 + 1 * (y 0).val = (y 0).val; omega
    | ⟨1, _⟩ => show win4_12.index t (1 : Fin 2) * 256 + 1 * (y 1).val = (y 1).val; omega
  have hw13 : iblk4 V c 13 t = V c (Pipeline.arrRef spec4 13) := by
    funext y
    show V c (Pipeline.arrRef spec4 13) (((cfg4.win 13).blk t).view.emb y) = V c (Pipeline.arrRef spec4 13) y
    refine congrArg _ (funext fun a => Fin.ext ?_)
    match a with
    | ⟨0, _⟩ => show win4_13.index t (0 : Fin 2) * 256 + 1 * (y 0).val = (y 0).val; omega
    | ⟨1, _⟩ => show win4_13.index t (1 : Fin 2) * 1 + 1 * (y 1).val = (y 1).val; omega
  have hw14 : iblk4 V c 14 t = V c (Pipeline.arrRef spec4 14) := by
    funext y
    show V c (Pipeline.arrRef spec4 14) (((cfg4.win 14).blk t).view.emb y) = V c (Pipeline.arrRef spec4 14) y
    refine congrArg _ (funext fun a => Fin.ext ?_)
    match a with
    | ⟨0, _⟩ => show win4_14.index t (0 : Fin 2) * 1 + 1 * (y 0).val = (y 0).val; omega
    | ⟨1, _⟩ => show win4_14.index t (1 : Fin 2) * 1 + 1 * (y 1).val = (y 1).val; omega
  rw [hw0, hw1, hw2, hw3, hw4, hw5, hw6, hw7, hw8, hw9, hw10, hw11, hw12, hw13, hw14]
  funext j
  show out4_15 (F := Ideal) (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6)) (V c (Pipeline.arrRef spec4 7)) (V c (Pipeline.arrRef spec4 8)) (V c (Pipeline.arrRef spec4 9)) (V c (Pipeline.arrRef spec4 10)) (V c (Pipeline.arrRef spec4 11)) (V c (Pipeline.arrRef spec4 12)) (V c (Pipeline.arrRef spec4 13)) (V c (Pipeline.arrRef spec4 14)) j
    = out4_15 (F := Ideal) (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6)) (V c (Pipeline.arrRef spec4 7)) (V c (Pipeline.arrRef spec4 8)) (V c (Pipeline.arrRef spec4 9)) (V c (Pipeline.arrRef spec4 10)) (V c (Pipeline.arrRef spec4 11)) (V c (Pipeline.arrRef spec4 12)) (V c (Pipeline.arrRef spec4 13)) (V c (Pipeline.arrRef spec4 14)) (((cfg4.win 15).blk t).view.emb j)
  refine congrArg _ (funext fun a => Fin.ext ?_)
  match a with
  | ⟨0, _⟩ => show (j 0).val = win4_15.index t (0 : Fin 2) * 256 + 1 * (j 0).val; omega
  | ⟨1, _⟩ => show (j 1).val = win4_15.index t (1 : Fin 2) * 1 + 1 * (j 1).val; omega

/-- An index of the output array is in the one block. -/
theorem cover4 (i : S256x1.Idx) : ∃ t : Fin cfg4.N, (cfg4.win 15).flush t = true ∧ i ∈ ((cfg4.win 15).blk t).view.set := by
  have hN : grid4.N = 1 := by decide
  let t : Fin cfg4.N := ⟨0, by show 0 < grid4.N; omega⟩
  refine ⟨t, flush4_15 t, ?_⟩
  show i ∈ ((View.whole main_v94).slice (win4_15.rect t)).set
  rw [View.set_slice_whole, Rect.mem_set_unit]
  obtain ⟨⟨a0, b0⟩, ⟨a1, b1⟩, ⟨a2, b2⟩, ⟨a3, b3⟩, ⟨a4, b4⟩, ⟨a5, b5⟩, ⟨a6, b6⟩, ⟨a7, b7⟩, ⟨a8, b8⟩, ⟨a9, b9⟩, ⟨a10, b10⟩, ⟨a11, b11⟩, ⟨a12, b12⟩, ⟨a13, b13⟩, ⟨a14, b14⟩, ⟨a15, b15⟩⟩ := idx_facts4 t
  have hi0 : (i 0).val < 256 := (i 0).isLt
  have hi1 : (i 1).val < 1 := (i 1).isLt
  intro a
  match a with
  | ⟨0, _⟩ => show win4_15.index t (0 : Fin 2) * 256 ≤ (i 0).val ∧ (i 0).val < win4_15.index t (0 : Fin 2) * 256 + 256; omega
  | ⟨1, _⟩ => show win4_15.index t (1 : Fin 2) * 1 ≤ (i 1).val ∧ (i 1).val < win4_15.index t (1 : Fin 2) * 1 + 1; omega

/-- THE HEAD KERNEL'S OUTPUT ARRAY: the body's value of the arrays it was entered with. -/
theorem arr4 (c : Dev nD) :
    (dat4 (F := Ideal) V c).arrAt 15 cfg4.N
      = out4_15 (F := Ideal) (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6)) (V c (Pipeline.arrRef spec4 7)) (V c (Pipeline.arrRef spec4 8)) (V c (Pipeline.arrRef spec4 9)) (V c (Pipeline.arrRef spec4 10)) (V c (Pipeline.arrRef spec4 11)) (V c (Pipeline.arrRef spec4 12)) (V c (Pipeline.arrRef spec4 13)) (V c (Pipeline.arrRef spec4 14)) :=
  (dat4 (F := Ideal) V c).arrAt_eq_of_cover 15 _ (fun t _ => flushed4 V c t) (cover4)

end Cert.KernelIdeal.HeadArray

end
-- ==== Proof.Head.lean ====
/-
  The head of the network, read as whole arrays at the ideal values.

  From the pooled sums s [256,128] and the node counts cnt [256] of the graphs, the molecule features
  x3 [256,256] and the weights x8 … x17, the network's last stage computes

      h1  = s / max(cnt, 1)                                  (the mean over each graph's nodes)
      h2  = relu(relu(relu(x3·W₀ᵀ + b₀)·W₁ᵀ + b₁)·x10ᵀ + x11)      (W = x8, b = x9)
      out = relu(relu([h1 | h2]·x12ᵀ + x13)·x14ᵀ + x15)·x16ᵀ + x17.

  The reference writes this as its operations %116 … %164 (the function tailR below, built from the same
  operations the generated reading module names); the kernel's last region computes it from transposed and
  reshaped copies of the weights that host operations prepare (k73 … k93 below), with the matrix products
  accumulated into a zero array. At the ideal values a product into a zero accumulator and the host's
  dot_general are the same sum over the contraction index, the format casts are the identity, and the bias rows,
  the zero of the relu and the divisor column are the same arrays however they were broadcast; so the two
  computations agree array by array, layer by layer.
-/
import proofs.«118885_j83339545411634_2_alg».proof.Proof.Gen.KernelIdeal.Frame
import proofs.«118885_j83339545411634_2_alg».proof.Proof.Gen.ReferenceIdeal.Read
import Idealize.ShloMosaic.Lib.ValueLayout

noncomputable section

namespace Cert.Head

open Idealize.ShloMosaic

variable {F : FTy → Type} [FloatOps F]

/-- The contents of an f32 array of shape S over the float values F (at F = Ideal, a function from its indices to the
    extended reals). -/
abbrev Arr (F : FTy → Type) (S : Shape) : Type := (⟨S, .f32⟩ : BufTy).Contents (Elt F)

/-! ## What the operations are at the ideal values, as whole arrays -/

section Generic

open Idealize.ShloMosaic.ValueIdx

variable {α : Type}

/-- A matrix product accumulated into the zero array, its operands cast to a narrower format on the way in, is the
    host's dot_general of the operands: at the ideal values the casts keep every element and both are the sum,
    over the contraction index, of the products. -/
theorem matmul_truncf_zero_eq_dotGeneral {sl sr so : Shape} (d : DotDims sl sr so) (X : FVec Ideal sl .f32)
    (W : FVec Ideal sr .f32) (h1 h2 : FTy.bits .bf16 < FTy.bits .f32) :
    matmul d none (truncf .bf16 X h1) (truncf .bf16 W h2) (constant (F := Ideal) so .f32 0x00000000#32)
      = Host.dotGeneral d none X W := by
  funext j
  simp only [matmul, Host.dotGeneral]
  rw [Ideal.matmul_constant_zero_apply, Ideal.dotGeneral_apply]
  rfl

/-- Between matrices, a broadcast along the unit axes is the broadcast_in_dim that keeps both axes in place. -/
theorem broadcastTo_eq_broadcastInDim {a b a' b' : ℕ} (v : (⟨2, ![a', b']⟩ : Shape).Idx → α)
    (h : (⟨2, ![a', b']⟩ : Shape).Broadcasts ⟨2, ![a, b]⟩)
    (h' : (⟨2, ![a', b']⟩ : Shape).BroadcastsInDim ⟨2, ![a, b]⟩ (![0, 1] : Fin 2 → Fin 2)) :
    broadcastTo ⟨2, ![a, b]⟩ v h = broadcastInDim ⟨2, ![a, b]⟩ ![0, 1] h' v := by
  funext j
  unfold broadcastTo broadcastInDim
  refine congrArg v (funext fun ax => ?_)
  match ax with
  | ⟨0, _⟩ => rfl
  | ⟨1, _⟩ => rfl

/-- A vector [b] viewed as the one-row matrix [1,b] is the vector broadcast along a new leading axis. -/
theorem shapeCast_row_eq_broadcastInDim {b : ℕ} (v : (⟨1, ![b]⟩ : Shape).Idx → α)
    (h : (⟨1, ![b]⟩ : Shape).ShapeCasts ⟨2, ![1, b]⟩)
    (h' : (⟨1, ![b]⟩ : Shape).BroadcastsInDim ⟨2, ![1, b]⟩ (![1] : Fin 1 → Fin 2)) :
    shapeCast ⟨2, ![1, b]⟩ v h = broadcastInDim ⟨2, ![1, b]⟩ ![1] h' v := by
  funext j
  obtain ⟨u, c, rfl⟩ : ∃ (u : Fin 1) (c : Fin b), j = ix2 u c := ⟨j 0, j 1, eq_ix2 j⟩
  rw [shapeCast_a_1a_apply]
  refine (broadcastInDim_apply _ h' v (ix2 u c) (ix1 c) fun ax => ?_).symm
  match ax with
  | ⟨0, _⟩ =>
    show c.val = if b = 1 then 0 else c.val
    split
    · have := c.isLt; omega
    · rfl

/-- A bias vector [b] viewed as a row and broadcast over the a rows of a matrix, either way it is written. -/
theorem bias_rows_eq {a b : ℕ} (v : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (h3 : (⟨1, ![b]⟩ : Shape).BroadcastsInDim ⟨2, ![1, b]⟩ (![1] : Fin 1 → Fin 2))
    (h4 : (⟨2, ![1, b]⟩ : Shape).BroadcastsInDim ⟨2, ![a, b]⟩ (![0, 1] : Fin 2 → Fin 2)) :
    broadcastTo ⟨2, ![a, b]⟩ (shapeCast ⟨2, ![1, b]⟩ v h1) h2
      = broadcastInDim ⟨2, ![a, b]⟩ ![0, 1] h4 (broadcastInDim ⟨2, ![1, b]⟩ ![1] h3 v) := by
  rw [broadcastTo_eq_broadcastInDim _ h2 h4, shapeCast_row_eq_broadcastInDim v h1 h3]

end Generic

/-! ## The reference's last stage as one function of the pooled sums and the counts -/

section Reference

open Cert.ReferenceIdeal Cert.ReferenceIdeal.Gen Cert.ReferenceIdeal.Read

/-- %116 … %120: the mean over each graph's nodes, sums divided by max(counts, 1) along the rows. -/
def meanR (s : Arr F S256x128) (cnt : Arr F S256) : Arr F S256x128 :=
  Host.divf s (broadcastInDim S256x128 ![0, 1] bcast_S256x1_S256x128_0_1
    (broadcastInDim S256x1 ![0] bcast_S256_S256x1_0 (maximumf cnt (val_main_v116 (F := F)))))

/-- %147: the mean [256,128] and the feature branch's output h2 [256,64] side by side. -/
def joinedR (s : Arr F S256x128) (cnt : Arr F S256) (h2 : Arr F S256x64) : Arr F S256x192 :=
  concatenate S256x192 1 [⟨S256x128, meanR s cnt⟩, ⟨S256x64, h2⟩] concatenates_S256x128_S256x64_S256x192_d1

/-- %148 … %153: the first prediction layer, relu(joined · x12ᵀ + x13). -/
def hidden1R (s : Arr F S256x128) (cnt : Arr F S256) (h2 : Arr F S256x64) (x12 : Arr F S256x192) (x13 : Arr F S256) :
    Arr F S256x256 :=
  maximumf (addf (Host.dotGeneral dot_S256x192_S192x256_S256x256_1_0_0_1_n_n none (joinedR s cnt h2)
    (val_main_v148 (F := F) x12)) (val_main_v151 (F := F) x13)) (val_main_call6_v0 (F := F))

/-- %154 … %159: the second prediction layer, relu(hidden1 · x14ᵀ + x15). -/
def hidden2R (s : Arr F S256x128) (cnt : Arr F S256) (h2 : Arr F S256x64) (x12 : Arr F S256x192) (x13 : Arr F S256)
    (x14 : Arr F S256x256) (x15 : Arr F S256) : Arr F S256x256 :=
  maximumf (addf (Host.dotGeneral dot_S256x256_S256x256_S256x256_1_0_0_1_n_n none
    (hidden1R s cnt h2 x12 x13) (val_main_v154 (F := F) x14)) (val_main_v157 (F := F) x15))
    (val_main_call7_v0 (F := F))

/-- %160 … %164: the output layer, hidden2 · x16ᵀ + x17 — the reference's result from the pooled sums, the counts and
    the feature branch's output. -/
def outR (s : Arr F S256x128) (cnt : Arr F S256) (h2 : Arr F S256x64) (x12 : Arr F S256x192) (x13 : Arr F S256)
    (x14 : Arr F S256x256) (x15 : Arr F S256) (x16 : Arr F S1x256) (x17 : Arr F S1) : Arr F S256x1 :=
  addf (Host.dotGeneral dot_S256x256_S256x1_S256x1_1_0_0_1_n_n none
    (hidden2R s cnt h2 x12 x13 x14 x15) (val_main_v160 (F := F) x16)) (val_main_v163 (F := F) x17)

/-- %116 … %164: the reference's output as a function of the pooled sums (%111), the counts (%115) and the
    arguments the last stage reads; %121 … %146, the feature branch, is the generated reading's own term. -/
def tailR (s : Arr F S256x128) (cnt : Arr F S256) (x3 : Arr F S256x256) (x8 : Arr F S2x256x256) (x9 : Arr F S2x256)
    (x10 : Arr F S64x256) (x11 : Arr F S64) (x12 : Arr F S256x192) (x13 : Arr F S256) (x14 : Arr F S256x256) (x15 : Arr F S256)
    (x16 : Arr F S1x256) (x17 : Arr F S1) : Arr F S256x1 :=
  outR s cnt (val_main_v146 (F := F) x3 x8 x9 x10 x11) x12 x13 x14 x15 x16 x17

/-- The reference's %164 is tailR at its own pooled sums and counts: the definitions unfold to the same operations. -/
theorem tailR_eq (x0 : Arr Ideal S50000x128) (x1 : (⟨S2x800000, .i32⟩ : BufTy).Contents (Elt Ideal))
    (x2 : (⟨S50000, .i32⟩ : BufTy).Contents (Elt Ideal)) (x3 : Arr Ideal S256x256) (x4 : Arr Ideal S3x128x128) (x5 : Arr Ideal S3x128)
    (x6 : Arr Ideal S128x128) (x7 : Arr Ideal S128) (x8 : Arr Ideal S2x256x256) (x9 : Arr Ideal S2x256) (x10 : Arr Ideal S64x256) (x11 : Arr Ideal S64)
    (x12 : Arr Ideal S256x192) (x13 : Arr Ideal S256) (x14 : Arr Ideal S256x256) (x15 : Arr Ideal S256) (x16 : Arr Ideal S1x256) (x17 : Arr Ideal S1) :
    val_main_v164 (F := Ideal) x0 x1 x2 x3 x4 x5 x6 x7 x8 x9 x10 x11 x12 x13 x14 x15 x16 x17
      = tailR (F := Ideal) (val_main_v111 (F := Ideal) x0 x1 x2 x4 x5 x6 x7) (val_main_v115 (F := Ideal) x2)
          x3 x8 x9 x10 x11 x12 x13 x14 x15 x16 x17 := rfl

end Reference

/-! ## The host terms the kernel's last region reads -/

section Kernel

open Cert.KernelIdeal Cert.KernelIdeal.Gen

/-- %73: the counts [256] as a column [256,1]. -/
def k73 (cnt : Arr F S256) : Arr F S256x1 :=
  broadcastInDim S256x1 ![0] bcast_S256_S256x1_0 cnt

/-- %74 … %76: the first of x8's two matrices, transposed. -/
def k76 (x8 : Arr F S2x256x256) : Arr F S256x256 :=
  transpose S256x256 [1, 0] (shapeCast _ (extractStridedSlice S1x256x256 ![0, 0, 0] x8 slices_S2x256x256_S1x256x256_0_0_0)
    shapeCasts_S1x256x256_S256x256) transposes_S256x256_S256x256_1_0

/-- %77 … %79: the second of x8's two matrices, transposed. -/
def k79 (x8 : Arr F S2x256x256) : Arr F S256x256 :=
  transpose S256x256 [1, 0] (shapeCast _ (extractStridedSlice S1x256x256 ![1, 0, 0] x8 slices_S2x256x256_S1x256x256_1_0_0)
    shapeCasts_S1x256x256_S256x256) transposes_S256x256_S256x256_1_0

/-- %80: x10 transposed. -/
def k80 (x10 : Arr F S64x256) : Arr F S256x64 := transpose S256x64 [1, 0] x10 transposes_S64x256_S256x64_1_0

/-- %81: x12 transposed. -/
def k81 (x12 : Arr F S256x192) : Arr F S192x256 := transpose S192x256 [1, 0] x12 transposes_S256x192_S192x256_1_0

/-- %82: x14 transposed. -/
def k82 (x14 : Arr F S256x256) : Arr F S256x256 := transpose S256x256 [1, 0] x14 transposes_S256x256_S256x256_1_0

/-- %83: x16 transposed. -/
def k83 (x16 : Arr F S1x256) : Arr F S256x1 := transpose S256x1 [1, 0] x16 transposes_S1x256_S256x1_1_0

/-- %84 … %86: the first row of x9, as a row [1,256]. -/
def k86 (x9 : Arr F S2x256) : Arr F S1x256 :=
  shapeCast _ (shapeCast _ (extractStridedSlice S1x256 ![0, 0] x9 slices_S2x256_S1x256_0_0) shapeCasts_S1x256_S256)
    shapeCasts_S256_S1x256

/-- %87 … %89: the second row of x9, as a row [1,256]. -/
def k89 (x9 : Arr F S2x256) : Arr F S1x256 :=
  shapeCast _ (shapeCast _ (extractStridedSlice S1x256 ![1, 0] x9 slices_S2x256_S1x256_1_0) shapeCasts_S1x256_S256)
    shapeCasts_S256_S1x256

/-- %90: x11 as a row [1,64]. -/
def k90 (x11 : Arr F S64) : Arr F S1x64 := shapeCast _ x11 shapeCasts_S64_S1x64

/-- %91: x13 as a row [1,256]. -/
def k91 (x13 : Arr F S256) : Arr F S1x256 := shapeCast _ x13 shapeCasts_S256_S1x256

/-- %92: x15 as a row [1,256]. -/
def k92 (x15 : Arr F S256) : Arr F S1x256 := shapeCast _ x15 shapeCasts_S256_S1x256

/-- %93: x17 as a [1,1] matrix. -/
def k93 (x17 : Arr F S1) : Arr F S1x1 := shapeCast _ x17 shapeCasts_S1_S1x1

end Kernel

/-! ## The kernel's last region computes the reference's last stage -/

section Bridge

/-- The offsets of a rectangle that starts at the origin of a matrix. -/
theorem zeros2 : (![0, 0] : Fin 2 → Nat) = fun _ => 0 := funext fun a => by fin_cases a <;> rfl

/-- The feature branch: three relu(x·W + b) layers on x3, with the kernel's transposed weights and bias rows, are the
    reference's %121 … %146. -/
theorem features_eq (x3 : Arr Ideal Cert.KernelIdeal.S256x256) (x8 : Arr Ideal Cert.KernelIdeal.S2x256x256)
    (x9 : Arr Ideal Cert.KernelIdeal.S2x256) (x10 : Arr Ideal Cert.KernelIdeal.S64x256) (x11 : Arr Ideal Cert.KernelIdeal.S64) :
    Cert.KernelIdeal.Gen.k4_pay1 (F := Ideal) x3 (k76 x8) (k86 x9) (k79 x8) (k89 x9) (k80 x10) (k90 x11)
      = Cert.ReferenceIdeal.Read.val_main_v146 (F := Ideal) x3 x8 x9 x10 x11 := by
  unfold Cert.KernelIdeal.Gen.k4_pay1
  simp only [shapeCast_self, matmul_truncf_zero_eq_dotGeneral]
  unfold k86 k89 k90
  simp only [bias_rows_eq _ _ _ Cert.ReferenceIdeal.Gen.bcast_S256_S1x256_1 Cert.ReferenceIdeal.Gen.bcast_S1x256_S256x256_0_1,
    bias_rows_eq _ _ _ Cert.ReferenceIdeal.Gen.bcast_S64_S1x64_1 Cert.ReferenceIdeal.Gen.bcast_S1x64_S256x64_0_1]
  rfl

/-- The mean over each graph's nodes: the kernel divides the sums by the column max(counts, 1) broadcast along the
    rows, the reference by max(counts, 1) made a column and broadcast; the same array. -/
theorem mean_eq (s : Arr Ideal Cert.KernelIdeal.S256x128) (cnt : Arr Ideal Cert.KernelIdeal.S256)
    (h : Cert.KernelIdeal.S256x128.ShapeCasts Cert.KernelIdeal.S256x128)
    (h' : Cert.KernelIdeal.S256x1.ShapeCasts Cert.KernelIdeal.S256x1)
    (hb : Cert.KernelIdeal.S256x1.Broadcasts Cert.KernelIdeal.S256x128) :
    divf (shapeCast Cert.KernelIdeal.S256x128 s h)
        (broadcastTo Cert.KernelIdeal.S256x128
          (maximumf (shapeCast Cert.KernelIdeal.S256x1 (k73 cnt) h')
            (broadcast Cert.KernelIdeal.S256x1 (FloatOps.ofBits (F := Ideal) .f32 0x3F800000#32))) hb)
      = meanR (F := Ideal) s cnt := by
  rw [shapeCast_self, shapeCast_self, broadcastTo_eq_broadcastInDim _ hb Cert.ReferenceIdeal.Gen.bcast_S256x1_S256x128_0_1]
  rfl

/-- The prediction layers: from the feature branch's output h2, the kernel's mean, concatenation, two relu layers and
    output layer are the reference's %116 … %120 and %147 … %164. -/
theorem prediction_eq (h2 : Arr Ideal Cert.KernelIdeal.S256x64) (s : Arr Ideal Cert.KernelIdeal.S256x128)
    (cnt : Arr Ideal Cert.KernelIdeal.S256) (x12 : Arr Ideal Cert.KernelIdeal.S256x192) (x13 : Arr Ideal Cert.KernelIdeal.S256)
    (x14 : Arr Ideal Cert.KernelIdeal.S256x256) (x15 : Arr Ideal Cert.KernelIdeal.S256) (x16 : Arr Ideal Cert.KernelIdeal.S1x256)
    (x17 : Arr Ideal Cert.KernelIdeal.S1) :
    Cert.KernelIdeal.Gen.k4_pay3 (F := Ideal) h2 (Cert.KernelIdeal.Gen.k4_pay2 (F := Ideal) (k73 cnt))
        (Scalar.ofBits .f32 0x3F800000#32) s (k81 x12) (k91 x13) (k82 x14) (k92 x15) (k83 x16) (k93 x17)
      = outR (F := Ideal) s cnt h2 x12 x13 x14 x15 x16 x17 := by
  unfold Cert.KernelIdeal.Gen.k4_pay3 Cert.KernelIdeal.Gen.k4_pay2
  simp only [shapeCast_self, matmul_truncf_zero_eq_dotGeneral]
  unfold k91 k92 k93
  simp only [bias_rows_eq _ _ _ Cert.ReferenceIdeal.Gen.bcast_S256_S1x256_1 Cert.ReferenceIdeal.Gen.bcast_S1x256_S256x256_0_1,
    bias_rows_eq _ _ _ Cert.ReferenceIdeal.Gen.bcast_S1_S1x1_1 Cert.ReferenceIdeal.Gen.bcast_S1x1_S256x1_0_1]
  rw [mean_eq]
  rfl

/-- The kernel's last region, run on the pooled sums, the counts as a column, x3 and the prepared weights, leaves the
    reference's last stage. -/
theorem head_bridge (s : Arr Ideal Cert.KernelIdeal.S256x128) (cnt : Arr Ideal Cert.KernelIdeal.S256)
    (x3 : Arr Ideal Cert.KernelIdeal.S256x256) (x8 : Arr Ideal Cert.KernelIdeal.S2x256x256)
    (x9 : Arr Ideal Cert.KernelIdeal.S2x256) (x10 : Arr Ideal Cert.KernelIdeal.S64x256) (x11 : Arr Ideal Cert.KernelIdeal.S64)
    (x12 : Arr Ideal Cert.KernelIdeal.S256x192) (x13 : Arr Ideal Cert.KernelIdeal.S256)
    (x14 : Arr Ideal Cert.KernelIdeal.S256x256) (x15 : Arr Ideal Cert.KernelIdeal.S256) (x16 : Arr Ideal Cert.KernelIdeal.S1x256)
    (x17 : Arr Ideal Cert.KernelIdeal.S1) :
    Cert.KernelIdeal.Gen.out4_15 (F := Ideal) s (k73 cnt) x3 (k76 x8) (k79 x8) (k86 x9) (k89 x9) (k80 x10) (k90 x11)
        (k81 x12) (k91 x13) (k82 x14) (k92 x15) (k83 x16) (k93 x17)
      = tailR (F := Ideal) s cnt x3 x8 x9 x10 x11 x12 x13 x14 x15 x16 x17 := by
  unfold Cert.KernelIdeal.Gen.out4_15
  rw [View.canon_unit_zero (S := Cert.KernelIdeal.S256x1) zeros2]
  simp only [View.ld_unit_zero (S := Cert.KernelIdeal.S256x256) zeros2, View.ld_unit_zero (S := Cert.KernelIdeal.S1x256) zeros2,
    View.ld_unit_zero (S := Cert.KernelIdeal.S256x64) zeros2, View.ld_unit_zero (S := Cert.KernelIdeal.S1x64) zeros2,
    View.ld_unit_zero (S := Cert.KernelIdeal.S256x1) zeros2, View.ld_unit_zero (S := Cert.KernelIdeal.S256x128) zeros2,
    View.ld_unit_zero (S := Cert.KernelIdeal.S192x256) zeros2, View.ld_unit_zero (S := Cert.KernelIdeal.S1x1) zeros2]
  rw [features_eq, prediction_eq]
  rfl

end Bridge

end Cert.Head

end
-- ==== Proof.LibScatterGather.lean ====
/-
  A gather of ROWS and a scatter of ROWS, read at an index.

  `stablehlo.gather` of a rank-2 operand [H, W] at start indices [N, 1] with the row axis collapsed and named by the
  start index and the column axis kept whole (offset_dims [1], collapsed_slice_dims [0], start_index_map [0],
  index_vector_dim 1, slice sizes [1, W]) gives [N, W]: result element (e, q) is the operand at (row, q), the row being
  start index e read as a signed integer and clamped into the axis.

  `stablehlo.scatter` of updates [N, W] into an operand [H, W] at scatter indices [N, 1] (update_window_dims [1],
  inserted_window_dims [0], scatter_dims_to_operand_dims [0], index_vector_dim 1): update element (e, q) lands at
  (row, q), the row being scatter index e read as a signed integer and NOT clamped; an update whose row is outside the
  operand is dropped. With an addition as the body, at the extended reals, element (r, c) of the result is the
  operand's plus the sum over the e whose scatter index is r of update (e, c).

  Generic in the extents; the records' conditions `wf` are decided on literal shapes.
-/
import Idealize.ShloMosaic.PureOps
import Idealize.ShloMosaic.Lib.ValueIdx

noncomputable section

open scoped BigOperators

namespace Cert.LibScatterGather

open Idealize.ShloMosaic Idealize.ShloMosaic.ValueIdx

variable {α : Type}

/-! ## The row gather -/

/-- The dimension numbers of a row gather from `[H, W]` at start indices `[N, 1]` into `[N, W]`. -/
abbrev rowGatherDims (H W N : Nat)
    (wf : GatherDims.WF ⟨2, ![H, W]⟩ ⟨2, ![N, 1]⟩ ⟨2, ![N, W]⟩ [1] [0] [] [0] [] 1 ![1, W]) :
    GatherDims ⟨2, ![H, W]⟩ ⟨2, ![N, 1]⟩ ⟨2, ![N, W]⟩ where
  offsetDims := [1]
  collapsedSliceDims := [0]
  operandBatchingDims := []
  startIndicesBatchingDims := []
  startIndexMap := [0]
  indexVectorDim := 1
  sliceSizes := ![1, W]
  wf := wf

section Gather
variable {H W N w : Nat}
  (wf : GatherDims.WF ⟨2, ![H, W]⟩ ⟨2, ![N, 1]⟩ ⟨2, ![N, W]⟩ [1] [0] [] [0] [] 1 ![1, W])
  (idx : IVec ⟨2, ![N, 1]⟩ w) (e : Fin N) (q : Fin W)

/-- The operand row a result element reads: its start index, signed, clamped. -/
theorem gather_row : ((rowGatherDims H W N wf).operandIdx (ix2 e q) idx (0 : Fin 2)).val
    = min (idx (ix2 e (0 : Fin 1))).toInt.toNat (H - 1) := by
  show (rowGatherDims H W N wf).start (ix2 e q) idx 0 + (rowGatherDims H W N wf).batchCoord (ix2 e q) 0
      + (rowGatherDims H W N wf).offCoord (ix2 e q) 0 = _
  rw [GatherDims.batchCoord_eq_zero _ _ _ List.not_mem_nil,
    GatherDims.offCoord_eq_zero _ _ _ (fun h => ((GatherDims.mem_sKept _ _).mp h).1 List.mem_cons_self)]
  simp only [Nat.add_zero]
  unfold GatherDims.start
  rw [dif_pos (show (0 : Fin 2) ∈ (rowGatherDims H W N wf).startIndexMap from List.mem_cons_self)]
  have hsi : (rowGatherDims H W N wf).siIdx (ix2 e q) ⟨List.idxOf (0 : Fin 2) (rowGatherDims H W N wf).startIndexMap,
      List.idxOf_lt_length_iff.2 List.mem_cons_self⟩ = ix2 e (0 : Fin 1) := by
    funext b; refine Fin.ext ?_
    match b with
    | ⟨0, _⟩ => rfl
    | ⟨1, _⟩ => rfl
  rw [hsi]
  rfl

/-- On the kept column axis a result element reads its own column. -/
theorem gather_col : ((rowGatherDims H W N wf).operandIdx (ix2 e q) idx (1 : Fin 2)).val = q.val := by
  show (rowGatherDims H W N wf).start (ix2 e q) idx 1 + (rowGatherDims H W N wf).batchCoord (ix2 e q) 1
      + (rowGatherDims H W N wf).offCoord (ix2 e q) 1 = _
  rw [GatherDims.batchCoord_eq_zero _ _ _ List.not_mem_nil]
  have hnot : (1 : Fin 2) ∉ (rowGatherDims H W N wf).startIndexMap :=
    (by decide : (1 : Fin 2) ∉ ([0] : List (Fin 2)))
  have hk : (1 : Fin 2) ∈ (rowGatherDims H W N wf).sKept :=
    (GatherDims.mem_sKept _ _).mpr ⟨(by decide : (1 : Fin 2) ∉ ([0] : List (Fin 2))), List.not_mem_nil⟩
  unfold GatherDims.start GatherDims.offCoord
  rw [dif_neg hnot, dif_pos hk]
  simp only [Nat.add_zero, Nat.zero_add]
  rfl

/-- THE ROW GATHER READ AT `(e, q)`: the operand at (row, q), the row being start index `e` read signed and clamped
    into the axis. -/
theorem gather_rows_apply (hH : 0 < H) (x : (⟨2, ![H, W]⟩ : Shape).Idx → α) :
    Host.gather (rowGatherDims H W N wf) x idx (ix2 e q)
      = x (ix2 ⟨min (idx (ix2 e (0 : Fin 1))).toInt.toNat (H - 1), by omega⟩ q) := by
  unfold Host.gather
  refine congrArg x (funext fun a => Fin.ext ?_)
  match a with
  | ⟨0, _⟩ => exact gather_row wf idx e q
  | ⟨1, _⟩ => exact gather_col wf idx e q

end Gather

/-! ## The row scatter -/

/-- The dimension numbers of a row scatter of updates `[N, W]` into `[H, W]` at scatter indices `[N, 1]`. -/
abbrev rowScatterDims (H W N : Nat)
    (wf : ScatterDims.WF ⟨2, ![H, W]⟩ ⟨2, ![N, 1]⟩ ⟨2, ![N, W]⟩ [1] [0] [0] 1) :
    ScatterDims ⟨2, ![H, W]⟩ ⟨2, ![N, 1]⟩ ⟨2, ![N, W]⟩ where
  updateWindowDims := [1]
  insertedWindowDims := [0]
  scatterDimsToOperandDims := [0]
  indexVectorDim := 1
  wf := wf

section Scatter
variable {H W N w : Nat}
  (wf : ScatterDims.WF ⟨2, ![H, W]⟩ ⟨2, ![N, 1]⟩ ⟨2, ![N, W]⟩ [1] [0] [0] 1)
  (idx : IVec ⟨2, ![N, 1]⟩ w) (e : Fin N) (q : Fin W)

/-- The window's start on the row axis: scatter index `e`, read signed. -/
theorem scatter_start0 : (rowScatterDims H W N wf).start (ix2 e q) idx (0 : Fin 2) = (idx (ix2 e (0 : Fin 1))).toInt := by
  unfold ScatterDims.start
  rw [dif_pos (show (0 : Fin 2) ∈ (rowScatterDims H W N wf).scatterDimsToOperandDims from List.mem_cons_self)]
  have hsi : (rowScatterDims H W N wf).siIdx (ix2 e q) ⟨List.idxOf (0 : Fin 2) (rowScatterDims H W N wf).scatterDimsToOperandDims,
      List.idxOf_lt_length_iff.2 List.mem_cons_self⟩ = ix2 e (0 : Fin 1) := by
    funext b; refine Fin.ext ?_
    match b with
    | ⟨0, _⟩ => rfl
    | ⟨1, _⟩ => rfl
  rw [hsi]

/-- The window's start on the column axis is 0: the map does not name it. -/
theorem scatter_start1 : (rowScatterDims H W N wf).start (ix2 e q) idx (1 : Fin 2) = 0 := by
  unfold ScatterDims.start
  rw [dif_neg (by decide : (1 : Fin 2) ∉ ([0] : List (Fin 2)))]

/-- The window coordinate on the row axis is 0: the axis is inserted. -/
theorem scatter_window0 : (rowScatterDims H W N wf).window (ix2 e q) (0 : Fin 2) = 0 := by
  unfold ScatterDims.window
  rw [dif_neg (by simp [Shape.kept, List.mem_filter, List.mem_finRange] : (0 : Fin 2) ∉ (⟨2, ![H, W]⟩ : Shape).kept ([0] : List (Fin 2)))]

/-- The window coordinate on the column axis is the update's column. -/
theorem scatter_window1 : (rowScatterDims H W N wf).window (ix2 e q) (1 : Fin 2) = q.val := by
  unfold ScatterDims.window
  rw [dif_pos (by simp [Shape.kept, List.mem_filter, List.mem_finRange] : (1 : Fin 2) ∈ (⟨2, ![H, W]⟩ : Shape).kept ([0] : List (Fin 2)))]
  rfl

/-- THE ROW SCATTER'S LANDING INDEX: update `(e, q)` lands at `(r, c)` exactly when scatter index `e`, read signed,
    is `r`, and `q = c`. -/
theorem scatter_rows_resultIdx_eq (r : Fin H) (c : Fin W) :
    (rowScatterDims H W N wf).resultIdx? (ix2 e q) idx = some (ix2 r c)
      ↔ (idx (ix2 e (0 : Fin 1))).toInt = (r.val : Int) ∧ q = c := by
  have h0 := scatter_start0 wf idx e q
  have h1 := scatter_start1 wf idx e q
  have w0 := scatter_window0 wf e q
  have w1 := scatter_window1 wf e q
  unfold ScatterDims.resultIdx?
  constructor
  · intro h
    split at h
    · rename_i hall
      have heq := Option.some.inj h
      have e0 := congrArg (fun f => (f (0 : Fin 2)).val) heq
      have e1 := congrArg (fun f => (f (1 : Fin 2)).val) heq
      simp only at e0 e1
      have hb0 := (hall 0).1
      rw [h0, w0] at e0 hb0
      rw [h1, w1] at e1
      refine ⟨?_, Fin.ext ?_⟩
      · have : ((idx (ix2 e (0 : Fin 1))).toInt + ((0 : Nat) : Int)).toNat = r.val := e0
        omega
      · have : ((0 : Int) + (q.val : Int)).toNat = c.val := e1
        omega
    · exact absurd h (by simp)
  · rintro ⟨hr, rfl⟩
    have hall : ∀ a : Fin 2, 0 ≤ (rowScatterDims H W N wf).start (ix2 e q) idx a + ((rowScatterDims H W N wf).window (ix2 e q) a : Int)
        ∧ (rowScatterDims H W N wf).start (ix2 e q) idx a + ((rowScatterDims H W N wf).window (ix2 e q) a : Int)
          < ((⟨2, ![H, W]⟩ : Shape).size a : Int) := by
      intro a
      match a with
      | ⟨0, _⟩ =>
        show 0 ≤ (rowScatterDims H W N wf).start (ix2 e q) idx 0 + (((rowScatterDims H W N wf).window (ix2 e q) 0 : Nat) : Int)
          ∧ (rowScatterDims H W N wf).start (ix2 e q) idx 0 + (((rowScatterDims H W N wf).window (ix2 e q) 0 : Nat) : Int) < (H : Int)
        rw [h0, w0, hr]; have := r.isLt; omega
      | ⟨1, _⟩ =>
        show 0 ≤ (rowScatterDims H W N wf).start (ix2 e q) idx 1 + (((rowScatterDims H W N wf).window (ix2 e q) 1 : Nat) : Int)
          ∧ (rowScatterDims H W N wf).start (ix2 e q) idx 1 + (((rowScatterDims H W N wf).window (ix2 e q) 1 : Nat) : Int) < (W : Int)
        rw [h1, w1]; have := q.isLt; omega
    rw [dif_pos hall]
    refine congrArg some (funext fun a => Fin.ext ?_)
    match a with
    | ⟨0, _⟩ =>
      show ((rowScatterDims H W N wf).start (ix2 e q) idx 0 + (((rowScatterDims H W N wf).window (ix2 e q) 0 : Nat) : Int)).toNat = r.val
      rw [h0, w0, hr]; omega
    | ⟨1, _⟩ =>
      show ((rowScatterDims H W N wf).start (ix2 e q) idx 1 + (((rowScatterDims H W N wf).window (ix2 e q) 1 : Nat) : Int)).toNat = q.val
      rw [h1, w1]; omega

end Scatter

/-- THE ACCUMULATING ROW SCATTER READ AT `(r, c)`, at the extended reals: the operand's element plus the sum, over
    the update rows `e` whose scatter index read signed is `r`, of update `(e, c)`. -/
theorem scatterAdd_rows_apply {H W N w : Nat}
    (wf : ScatterDims.WF ⟨2, ![H, W]⟩ ⟨2, ![N, 1]⟩ ⟨2, ![N, W]⟩ [1] [0] [0] 1)
    (x : (⟨2, ![H, W]⟩ : Shape).Idx → EReal) (idx : IVec ⟨2, ![N, 1]⟩ w)
    (upd : (⟨2, ![N, W]⟩ : Shape).Idx → EReal) (r : Fin H) (c : Fin W) :
    Ideal.hostScatterAdd (rowScatterDims H W N wf) x idx upd (ix2 r c)
      = x (ix2 r c) + ∑ e ∈ Finset.univ.filter (fun e : Fin N => (idx (ix2 e (0 : Fin 1))).toInt = (r.val : Int)),
          upd (ix2 e c) := by
  unfold Ideal.hostScatterAdd
  refine congrArg (x (ix2 r c) + ·) ?_
  rw [Finset.sum_filter, sum_idx2, Finset.sum_filter]
  refine Finset.sum_congr rfl fun e _ => ?_
  by_cases he : (idx (ix2 e (0 : Fin 1))).toInt = (r.val : Int)
  · rw [if_pos he]
    rw [Finset.sum_eq_single c]
    · rw [if_pos ((scatter_rows_resultIdx_eq wf idx e c r c).mpr ⟨he, rfl⟩)]
    · intro q _ hq
      rw [if_neg (fun h => hq ((scatter_rows_resultIdx_eq wf idx e q r c).mp h).2)]
    · intro h; exact absurd (Finset.mem_univ c) h
  · rw [if_neg he]
    refine Finset.sum_eq_zero fun q _ => ?_
    rw [if_neg (fun h => he ((scatter_rows_resultIdx_eq wf idx e q r c).mp h).1)]

end Cert.LibScatterGather

end
-- ==== Proof.LibGatherVec.lean ====
/-
  A gather of single ELEMENTS of a vector, read at an index.

  `stablehlo.gather` of a rank-1 operand [H] at start indices [N, 1] with the one axis collapsed and named by the
  start index (offset_dims [], collapsed_slice_dims [0], start_index_map [0], index_vector_dim 1, slice sizes [1])
  gives [N]: result element e is the operand at the position that start index e, read as a signed integer and
  clamped into the axis, names.

  Generic in the extents; the record's conditions `wf` are decided on literal shapes.
-/
import Idealize.ShloMosaic.PureOps
import Idealize.ShloMosaic.Lib.ValueIdx

noncomputable section

namespace Cert.LibGatherVec

open Idealize.ShloMosaic Idealize.ShloMosaic.ValueIdx

variable {α : Type}

/-- The dimension numbers of an element gather from `[H]` at start indices `[N, 1]` into `[N]`. -/
abbrev vecGatherDims (H N : Nat)
    (wf : GatherDims.WF ⟨1, ![H]⟩ ⟨2, ![N, 1]⟩ ⟨1, ![N]⟩ [] [0] [] [0] [] 1 ![1]) :
    GatherDims ⟨1, ![H]⟩ ⟨2, ![N, 1]⟩ ⟨1, ![N]⟩ where
  offsetDims := []
  collapsedSliceDims := [0]
  operandBatchingDims := []
  startIndicesBatchingDims := []
  startIndexMap := [0]
  indexVectorDim := 1
  sliceSizes := ![1]
  wf := wf

section Gather
variable {H N w : Nat}
  (wf : GatherDims.WF ⟨1, ![H]⟩ ⟨2, ![N, 1]⟩ ⟨1, ![N]⟩ [] [0] [] [0] [] 1 ![1])
  (idx : IVec ⟨2, ![N, 1]⟩ w) (e : Fin N)

/-- The operand position a result element reads: its start index, signed, clamped. -/
theorem gather_pos : ((vecGatherDims H N wf).operandIdx (ix1 e) idx (0 : Fin 1)).val
    = min (idx (ix2 e (0 : Fin 1))).toInt.toNat (H - 1) := by
  show (vecGatherDims H N wf).start (ix1 e) idx 0 + (vecGatherDims H N wf).batchCoord (ix1 e) 0
      + (vecGatherDims H N wf).offCoord (ix1 e) 0 = _
  rw [GatherDims.batchCoord_eq_zero _ _ _ List.not_mem_nil,
    GatherDims.offCoord_eq_zero _ _ _ (fun h => ((GatherDims.mem_sKept _ _).mp h).1 List.mem_cons_self)]
  simp only [Nat.add_zero]
  unfold GatherDims.start
  rw [dif_pos (show (0 : Fin 1) ∈ (vecGatherDims H N wf).startIndexMap from List.mem_cons_self)]
  have hsi : (vecGatherDims H N wf).siIdx (ix1 e) ⟨List.idxOf (0 : Fin 1) (vecGatherDims H N wf).startIndexMap,
      List.idxOf_lt_length_iff.2 List.mem_cons_self⟩ = ix2 e (0 : Fin 1) := by
    funext b; refine Fin.ext ?_
    match b with
    | ⟨0, _⟩ => rfl
    | ⟨1, _⟩ => rfl
  rw [hsi]
  rfl

/-- THE ELEMENT GATHER READ AT `e`: the operand at the position start index `e`, read signed and clamped into the
    axis, names. -/
theorem gather_vec_apply (hH : 0 < H) (x : (⟨1, ![H]⟩ : Shape).Idx → α) :
    Host.gather (vecGatherDims H N wf) x idx (ix1 e)
      = x (ix1 ⟨min (idx (ix2 e (0 : Fin 1))).toInt.toNat (H - 1), by omega⟩) := by
  unfold Host.gather
  refine congrArg x (funext fun a => Fin.ext ?_)
  match a with
  | ⟨0, _⟩ => exact gather_pos wf idx e

end Gather

end Cert.LibGatherVec

end
-- ==== Proof.RefLayers.lean ====
/-
  The reference's graph-convolution layers in closed form at an index, at the extended reals.

  Each layer is: a dense product H = X · Wᵀ; a gather of H's rows at the edges' source nodes, scaled by the
  edge weight dinv[source] · dinv[target]; an accumulating scatter of those rows to the edges' target nodes; plus the
  self term dinv[n]² · H[n]; plus the bias; then a maximum with zero. dinv is the reciprocal square root of one plus the
  number of edges whose target is the node.
-/
import proofs.«118885_j83339545411634_2_alg».proof.Proof.Gen.ReferenceIdeal.Read
import proofs.«118885_j83339545411634_2_alg».proof.Proof.LibScatterGather
import proofs.«118885_j83339545411634_2_alg».proof.Proof.LibGatherVec

noncomputable section

open scoped BigOperators

namespace Cert.RefLayers

open Cert.ReferenceIdeal Cert.ReferenceIdeal.Gen Cert.ReferenceIdeal.Read Idealize.ShloMosaic Idealize.ShloMosaic.ValueIdx
  Idealize.ShloMosaic.StableHlo Cert.LibScatterGather Cert.LibGatherVec

/-- The contents of the edge list: two rows of 800000 ids. -/
abbrev Edges := (⟨S2x800000, .i32⟩ : BufTy).Contents (Elt Ideal)

/-- Edge `e`'s source id (row 0 of the edge list). -/
def rowId (x1 : Edges) (e : Fin 800000) : BitVec 32 := x1 (ix2 (0 : Fin 2) e)
/-- Edge `e`'s target id (row 1 of the edge list). -/
def colId (x1 : Edges) (e : Fin 800000) : BitVec 32 := x1 (ix2 (1 : Fin 2) e)
/-- A negative id is shifted up by the number of nodes. -/
def norm (b : BitVec 32) : BitVec 32 := Scalar.select (IntOp.cmpi .slt b 0#32) (IntOp.addi b 50000#32) b
/-- An id read signed and clamped into the node axis. -/
def clamp (b : BitVec 32) : Fin 50000 := ⟨min b.toInt.toNat (50000 - 1), by omega⟩
/-- The node edge `e`'s source id names: shifted, then clamped. -/
def rowg (x1 : Edges) (e : Fin 800000) : Fin 50000 := clamp (norm (rowId x1 e))
/-- The node edge `e`'s target id names when gathered: shifted, then clamped. -/
def colg (x1 : Edges) (e : Fin 800000) : Fin 50000 := clamp (norm (colId x1 e))

theorem v1_at (x1 : Edges) (e : Fin 800000) : val_main_v1 (F := Ideal) x1 (ix1 e) = rowId x1 e := by
  rw [val_main_v1_apply, val_main_v0_apply]
  refine congrArg x1 (funext fun a => Fin.ext ?_)
  match a with
  | ⟨0, _⟩ => rfl
  | ⟨1, _⟩ => exact Nat.mod_eq_of_lt e.isLt

theorem v3_at (x1 : Edges) (e : Fin 800000) : val_main_v3 (F := Ideal) x1 (ix1 e) = colId x1 e := by
  rw [val_main_v3_apply, val_main_v2_apply]
  refine congrArg x1 (funext fun a => Fin.ext ?_)
  match a with
  | ⟨0, _⟩ => rfl
  | ⟨1, _⟩ => exact Nat.mod_eq_of_lt e.isLt

theorem v16_at (x1 : Edges) (e : Fin 800000) : val_main_v16 (F := Ideal) x1 (ix2 e (0 : Fin 1)) = norm (rowId x1 e) := by
  rw [val_main_v16_apply, val_main_v15_apply, val_main_v12_apply, val_main_v14_apply, val_main_v11_apply, val_main_v13_apply,
    val_main_c_apply, val_main_c_2_apply]
  have h : idx_main_v16 (ix2 e (0 : Fin 1)) = ix1 e := by
    funext a; match a with | ⟨0, _⟩ => rfl
  rw [h, v1_at]; rfl

theorem v23_at (x1 : Edges) (e : Fin 800000) : val_main_v23 (F := Ideal) x1 (ix2 e (0 : Fin 1)) = norm (colId x1 e) := by
  rw [val_main_v23_apply, val_main_v22_apply, val_main_v19_apply, val_main_v21_apply, val_main_v18_apply, val_main_v20_apply,
    val_main_c_3_apply, val_main_c_4_apply]
  have h : idx_main_v23 (ix2 e (0 : Fin 1)) = ix1 e := by
    funext a; match a with | ⟨0, _⟩ => rfl
  rw [h, v3_at]; rfl

/-! ## The printed gathers and scatters, read at an index -/

theorem vecGather_rec : gather_S50000_S800000x1_S800000_n_0_n_n_0_1_1
    = vecGatherDims 50000 800000 Facts₀.gather_S50000_S800000x1_S800000_n_0_n_n_0_1_1_wf := rfl
theorem rowGather_rec : gather_S50000x128_S800000x1_S800000x128_1_0_n_n_0_1_1128
    = rowGatherDims 50000 128 800000 Facts₀.gather_S50000x128_S800000x1_S800000x128_1_0_n_n_0_1_1128_wf := rfl
theorem rowScatter_rec : scatter_S50000x128_S800000x1_S800000x128_1_0_0_1
    = rowScatterDims 50000 128 800000 Facts₀.scatter_S50000x128_S800000x1_S800000x128_1_0_0_1_wf := rfl

/-- The element gather of the program, read at `e`. -/
theorem vecGather_read (X : S50000.Idx → EReal) (idx : IVec S800000x1 32) (e : Fin 800000) :
    Host.gather gather_S50000_S800000x1_S800000_n_0_n_n_0_1_1 X idx (ix1 e) = X (ix1 (clamp (idx (ix2 e (0 : Fin 1))))) := by
  rw [vecGather_rec]
  exact gather_vec_apply _ idx e (by decide) X

/-- The row gather of the program, read at `(e, f)`. -/
theorem rowGather_read (X : S50000x128.Idx → EReal) (idx : IVec S800000x1 32) (e : Fin 800000) (f : Fin 128) :
    Host.gather gather_S50000x128_S800000x1_S800000x128_1_0_n_n_0_1_1128 X idx (ix2 e f)
      = X (ix2 (clamp (idx (ix2 e (0 : Fin 1)))) f) := by
  rw [rowGather_rec]
  exact gather_rows_apply _ idx e f (by decide) X

/-- The accumulating row scatter of the program, read at `(n, f)`. -/
theorem rowScatter_read (Z : S50000x128.Idx → EReal) (idx : IVec S800000x1 32) (U : S800000x128.Idx → EReal)
    (n : Fin 50000) (f : Fin 128) :
    Host.scatterAdd (F := Ideal) (φ := .f32) scatter_S50000x128_S800000x1_S800000x128_1_0_0_1 Z idx U (ix2 n f)
      = Z (ix2 n f) + ∑ e ∈ Finset.univ.filter (fun e : Fin 800000 => (idx (ix2 e (0 : Fin 1))).toInt = (n.val : Int)),
          U (ix2 e f) := by
  rw [rowScatter_rec]
  exact scatterAdd_rows_apply _ Z idx U n f

/-! ## The degree normalization is a nonnegative real -/

theorem one_f32 : Ideal.ofBits .f32 0x3F800000#32 = 1 := by
  simp [Ideal.ofBits, Ideal.ieee, -EReal.coe_mul]; norm_num

theorem nsmul_one_ereal (n : ℕ) : n • (1 : EReal) = ((n : ℝ) : EReal) := by
  induction n with
  | zero => simp
  | succ k ih => rw [succ_nsmul, ih, Nat.cast_succ, EReal.coe_add, EReal.coe_one]

/-- An accumulating scatter of ones into zeros counts: every element is a natural number. -/
theorem scatterAdd_ones_nat {s si su : Shape} (d : ScatterDims s si su) {w : Nat} (x : s.Idx → EReal) (idx : IVec si w)
    (upd : su.Idx → EReal) (hx : ∀ i, x i = 0) (hu : ∀ j, upd j = 1) (i : s.Idx) :
    ∃ m : ℕ, Ideal.hostScatterAdd d x idx upd i = ((m : ℝ) : EReal) := by
  unfold Ideal.hostScatterAdd
  refine ⟨(Finset.univ.filter (fun j => d.resultIdx? j idx = some i)).card, ?_⟩
  rw [hx, zero_add, Finset.sum_congr rfl (fun j _ => hu j), Finset.sum_const, nsmul_one_ereal]

/-- The reciprocal square root of a natural number plus one is a nonnegative real. -/
theorem rsqrt_nat_add_one (m : ℕ) : ∃ r : ℝ, 0 ≤ r ∧ Ideal.rsqrt (((m : ℝ) : EReal) + 1) = (r : EReal) := by
  have h : ((m : ℝ) : EReal) + 1 = (((m : ℝ) + 1 : ℝ) : EReal) := by norm_cast
  have hpos : (0 : ℝ) < (m : ℝ) + 1 := by positivity
  refine ⟨(Real.sqrt ((m : ℝ) + 1))⁻¹, inv_nonneg.2 (Real.sqrt_nonneg _), ?_⟩
  rw [h, Ideal.rsqrt_coe, if_neg (not_lt.2 hpos.le), if_neg hpos.ne']

theorem v5_at (i : S50000.Idx) : val_main_v5 (F := Ideal) i = 0 := by
  rw [val_main_v5_apply, val_main_cst_0_apply]; exact Ideal.ofBits_zero_f32

theorem v4_at (j : S800000.Idx) : val_main_v4 (F := Ideal) j = 1 := by
  rw [val_main_v4_apply, val_main_cst_apply]; exact one_f32

/-- The same count, through the host operation's name. -/
theorem hostScatterAdd_ones_nat {s si su : Shape} (d : ScatterDims s si su) {w : Nat} (x : s.Idx → EReal) (idx : IVec si w)
    (upd : su.Idx → EReal) (hx : ∀ i, x i = 0) (hu : ∀ j, upd j = 1) (i : s.Idx) :
    ∃ m : ℕ, Host.scatterAdd (F := Ideal) (φ := .f32) d x idx upd i = ((m : ℝ) : EReal) :=
  scatterAdd_ones_nat d x idx upd hx hu i

/-- The in-degree count is a natural number. -/
theorem v7_nat (x1 : Edges) (n : Fin 50000) : ∃ m : ℕ, val_main_v7 (F := Ideal) x1 (ix1 n) = ((m : ℝ) : EReal) :=
  hostScatterAdd_ones_nat scatter_S50000_S800000x1_S800000_n_0_0_1 (val_main_v5 (F := Ideal)) (val_main_v6 (F := Ideal) x1)
    (val_main_v4 (F := Ideal)) v5_at v4_at (ix1 n)

/-- dinv is a nonnegative real at every node. -/
theorem dinv_real (x1 : Edges) (n : Fin 50000) :
    ∃ r : ℝ, 0 ≤ r ∧ val_main_v10 (F := Ideal) x1 (ix1 n) = (r : EReal) := by
  obtain ⟨m, hm⟩ := v7_nat x1 n
  obtain ⟨r, hr, h⟩ := rsqrt_nat_add_one m
  refine ⟨r, hr, ?_⟩
  rw [val_main_v10_apply, val_main_v9_apply, hm, val_main_v8_apply, val_main_cst_1_apply]
  show Ideal.rsqrt (((m : ℝ) : EReal) + Ideal.ofBits .f32 0x3F800000#32) = _
  rw [one_f32]; exact h

/-- dinv is nonnegative and finite at every node. -/
theorem dinv_nonneg_ne_top (x1 : Edges) (n : Fin 50000) :
    0 ≤ val_main_v10 (F := Ideal) x1 (ix1 n) ∧ val_main_v10 (F := Ideal) x1 (ix1 n) ≠ ⊤
      ∧ val_main_v10 (F := Ideal) x1 (ix1 n) ≠ ⊥ := by
  obtain ⟨r, hr, h⟩ := dinv_real x1 n
  rw [h]
  exact ⟨EReal.coe_nonneg.2 hr, EReal.coe_ne_top r, EReal.coe_ne_bot r⟩

/-! ## The edge weights, read at an index -/

theorem v17_at (x1 : Edges) (e : Fin 800000) :
    val_main_v17 (F := Ideal) x1 (ix1 e) = val_main_v10 (F := Ideal) x1 (ix1 (rowg x1 e)) := by
  unfold val_main_v17
  rw [vecGather_read, v16_at]; rfl

theorem v24_at (x1 : Edges) (e : Fin 800000) :
    val_main_v24 (F := Ideal) x1 (ix1 e) = val_main_v10 (F := Ideal) x1 (ix1 (colg x1 e)) := by
  unfold val_main_v24
  rw [vecGather_read, v23_at]; rfl

/-! ## One layer's operation pattern in closed form -/

/-- Gather the rows of `Hm` at the edges' sources, scale by the edge weight, scatter-add to the edges' targets, add
    the self term and the bias, take the maximum with zero: element `(n, f)`. The operations enter through what each
    reads at an index. -/
theorem layer_pattern (x1 : Edges) (Hm Z Sc Bb Zr S44 : S50000x128.Idx → EReal) (ridx cidx : IVec S800000x1 32)
    (U E : S800000x128.Idx → EReal) (b : Fin 128 → EReal)
    (h44 : ∀ (n : Fin 50000) (f : Fin 128), S44 (ix2 n f) = Z (ix2 n f)
      + ∑ e ∈ Finset.univ.filter (fun e : Fin 800000 => (cidx (ix2 e (0 : Fin 1))).toInt = (n.val : Int)), U (ix2 e f))
    (hU : ∀ (e : Fin 800000) (f : Fin 128), U (ix2 e f) = Hm (ix2 (clamp (ridx (ix2 e (0 : Fin 1)))) f) * E (ix2 e f))
    (hr : ∀ e : Fin 800000, ridx (ix2 e (0 : Fin 1)) = norm (rowId x1 e))
    (hc : ∀ e : Fin 800000, cidx (ix2 e (0 : Fin 1)) = colId x1 e)
    (hE : ∀ (e : Fin 800000) (f : Fin 128), E (ix2 e f)
      = val_main_v10 (F := Ideal) x1 (ix1 (rowg x1 e)) * val_main_v10 (F := Ideal) x1 (ix1 (colg x1 e)))
    (hZ : ∀ i, Z i = 0)
    (hS : ∀ (n : Fin 50000) (f : Fin 128), Sc (ix2 n f)
      = val_main_v10 (F := Ideal) x1 (ix1 n) * val_main_v10 (F := Ideal) x1 (ix1 n))
    (hB : ∀ (n : Fin 50000) (f : Fin 128), Bb (ix2 n f) = b f) (hZr : ∀ i, Zr i = 0)
    (n : Fin 50000) (f : Fin 128) :
    max (S44 (ix2 n f) + Sc (ix2 n f) * Hm (ix2 n f) + Bb (ix2 n f)) (Zr (ix2 n f))
      = max ((0 + ∑ e ∈ Finset.univ.filter (fun e : Fin 800000 => (colId x1 e).toInt = (n.val : Int)),
              Hm (ix2 (rowg x1 e) f)
                * (val_main_v10 (F := Ideal) x1 (ix1 (rowg x1 e)) * val_main_v10 (F := Ideal) x1 (ix1 (colg x1 e))))
          + val_main_v10 (F := Ideal) x1 (ix1 n) * val_main_v10 (F := Ideal) x1 (ix1 n) * Hm (ix2 n f) + b f) 0 := by
  rw [h44, hZ, hS, hB, hZr]
  have hfilt : Finset.univ.filter (fun e : Fin 800000 => (cidx (ix2 e (0 : Fin 1))).toInt = (n.val : Int))
      = Finset.univ.filter (fun e : Fin 800000 => (colId x1 e).toInt = (n.val : Int)) :=
    Finset.filter_congr fun e _ => by rw [hc]
  rw [hfilt]
  refine congrArg (fun t => max (0 + t + val_main_v10 (F := Ideal) x1 (ix1 n) * val_main_v10 (F := Ideal) x1 (ix1 n)
    * Hm (ix2 n f) + b f) 0) (Finset.sum_congr rfl fun e _ => ?_)
  rw [hU, hr, hE]; rfl

/-! ### Layer 1: its operations read at an index -/

theorem v38_at (x1 : Edges) (e : Fin 800000) : val_main_v38 (F := Ideal) x1 (ix2 e (0 : Fin 1)) = norm (rowId x1 e) := by
  rw [val_main_v38_apply, val_main_v37_apply, val_main_v34_apply, val_main_v36_apply, val_main_v33_apply,
    val_main_v35_apply, val_main_c_5_apply, val_main_c_6_apply]
  have h : idx_main_v38 (ix2 e (0 : Fin 1)) = ix1 e := by
    funext a; match a with | ⟨0, _⟩ => rfl
  rw [h, v1_at]; rfl

theorem v43_at (x1 : Edges) (e : Fin 800000) : val_main_v43 (F := Ideal) x1 (ix2 e (0 : Fin 1)) = colId x1 e := by
  rw [val_main_v43_apply]
  have h : idx_main_v43 (ix2 e (0 : Fin 1)) = ix1 e := by
    funext a; match a with | ⟨0, _⟩ => rfl
  rw [h, v3_at]

theorem v40_at (x1 : Edges) (e : Fin 800000) (f : Fin 128) :
    val_main_v40 (F := Ideal) x1 (ix2 e f)
      = val_main_v10 (F := Ideal) x1 (ix1 (rowg x1 e)) * val_main_v10 (F := Ideal) x1 (ix1 (colg x1 e)) := by
  rw [val_main_v40_apply, val_main_v26_apply, val_main_v25_apply]
  have h : idx_main_v26 (idx_main_v40 (ix2 e f)) = ix1 e := by
    funext a; match a with | ⟨0, _⟩ => rfl
  rw [h, v17_at, v24_at]; rfl

theorem v45_at (x1 : Edges) (n : Fin 50000) (f : Fin 128) :
    val_main_v45 (F := Ideal) x1 (ix2 n f)
      = val_main_v10 (F := Ideal) x1 (ix1 n) * val_main_v10 (F := Ideal) x1 (ix1 n) := by
  rw [val_main_v45_apply, val_main_v28_apply, val_main_v27_apply]
  have h : idx_main_v28 (idx_main_v45 (ix2 n f)) = ix1 n := by
    funext a; match a with | ⟨0, _⟩ => rfl
  rw [h]; rfl

theorem v42_at (i : S50000x128.Idx) : val_main_v42 (F := Ideal) i = 0 := by
  rw [val_main_v42_apply, val_main_cst_7_apply]; exact Ideal.ofBits_zero_f32

theorem call0_at (i : S50000x128.Idx) : val_main_call0_v0 (F := Ideal) i = 0 := by
  rw [val_main_call0_v0_apply, val_main_call0_cst_apply]; exact Ideal.ofBits_zero_f32

theorem v51_at (x5 : (⟨S3x128, .f32⟩ : BufTy).Contents (Elt Ideal)) (n : Fin 50000) (f : Fin 128) :
    val_main_v51 (F := Ideal) x5 (ix2 n f) = x5 (ix2 (0 : Fin 3) f) := by
  rw [val_main_v51_apply, val_main_v50_apply, val_main_v49_apply, val_main_v48_apply]
  refine congrArg x5 (funext fun a => Fin.ext ?_)
  match a with
  | ⟨0, _⟩ => rfl
  | ⟨1, _⟩ => exact Nat.mod_eq_of_lt f.isLt

/-- The gathered rows of the dense product. -/
theorem v39_at (x0 : (⟨S50000x128, .f32⟩ : BufTy).Contents (Elt Ideal)) (x1 : Edges) (x4 : (⟨S3x128x128, .f32⟩ : BufTy).Contents (Elt Ideal)) (e : Fin 800000) (f : Fin 128) :
    val_main_v39 (F := Ideal) x0 x1 x4 (ix2 e f) = val_main_v32 (F := Ideal) x0 x4 (ix2 (clamp (val_main_v38 (F := Ideal) x1 (ix2 e (0 : Fin 1)))) f) :=
  rowGather_read (val_main_v32 (F := Ideal) x0 x4) (val_main_v38 (F := Ideal) x1) e f

/-- The scaled gathered rows. -/
theorem v41_at (x0 : (⟨S50000x128, .f32⟩ : BufTy).Contents (Elt Ideal)) (x1 : Edges) (x4 : (⟨S3x128x128, .f32⟩ : BufTy).Contents (Elt Ideal)) (e : Fin 800000) (f : Fin 128) :
    val_main_v41 (F := Ideal) x0 x1 x4 (ix2 e f)
      = val_main_v32 (F := Ideal) x0 x4 (ix2 (clamp (val_main_v38 (F := Ideal) x1 (ix2 e (0 : Fin 1)))) f) * val_main_v40 (F := Ideal) x1 (ix2 e f) := by
  rw [val_main_v41_apply, Ideal.mulf_def, v39_at]

/-- The accumulated rows. -/
theorem v44_at (x0 : (⟨S50000x128, .f32⟩ : BufTy).Contents (Elt Ideal)) (x1 : Edges) (x4 : (⟨S3x128x128, .f32⟩ : BufTy).Contents (Elt Ideal)) (n : Fin 50000) (f : Fin 128) :
    val_main_v44 (F := Ideal) x0 x1 x4 (ix2 n f)
      = val_main_v42 (F := Ideal) (ix2 n f) + ∑ e ∈ Finset.univ.filter (fun e : Fin 800000 =>
          (val_main_v43 (F := Ideal) x1 (ix2 e (0 : Fin 1))).toInt = (n.val : Int)), val_main_v41 (F := Ideal) x0 x1 x4 (ix2 e f) :=
  rowScatter_read (val_main_v42 (F := Ideal)) (val_main_v43 (F := Ideal) x1) (val_main_v41 (F := Ideal) x0 x1 x4) n f

/-- LAYER 1 at `(n, f)`, over the dense product `%32` and dinv `%10`. -/
theorem layer1_apply (x0 : (⟨S50000x128, .f32⟩ : BufTy).Contents (Elt Ideal)) (x1 : Edges) (x4 : (⟨S3x128x128, .f32⟩ : BufTy).Contents (Elt Ideal)) (x5 : (⟨S3x128, .f32⟩ : BufTy).Contents (Elt Ideal)) (n : Fin 50000) (f : Fin 128) :
    val_main_v53 (F := Ideal) x0 x1 x4 x5 (ix2 n f)
      = max ((0 + ∑ e ∈ Finset.univ.filter (fun e : Fin 800000 => (colId x1 e).toInt = (n.val : Int)),
              val_main_v32 (F := Ideal) x0 x4 (ix2 (rowg x1 e) f)
                * (val_main_v10 (F := Ideal) x1 (ix1 (rowg x1 e)) * val_main_v10 (F := Ideal) x1 (ix1 (colg x1 e))))
          + val_main_v10 (F := Ideal) x1 (ix1 n) * val_main_v10 (F := Ideal) x1 (ix1 n)
            * val_main_v32 (F := Ideal) x0 x4 (ix2 n f) + x5 (ix2 (0 : Fin 3) f)) 0 := by
  rw [val_main_v53_apply, val_main_v52_apply, val_main_v47_apply, val_main_v46_apply,
    Ideal.maximumf_def, Ideal.addf_def, Ideal.addf_def, Ideal.mulf_def]
  exact layer_pattern x1 (val_main_v32 (F := Ideal) x0 x4) (val_main_v42 (F := Ideal)) (val_main_v45 (F := Ideal) x1) (val_main_v51 (F := Ideal) x5)
    (val_main_call0_v0 (F := Ideal)) (val_main_v44 (F := Ideal) x0 x1 x4) (val_main_v38 (F := Ideal) x1) (val_main_v43 (F := Ideal) x1)
    (val_main_v41 (F := Ideal) x0 x1 x4) (val_main_v40 (F := Ideal) x1) (fun f => x5 (ix2 (0 : Fin 3) f))
    (v44_at x0 x1 x4) (v41_at x0 x1 x4) (v38_at x1) (v43_at x1) (v40_at x1) v42_at (v45_at x1)
    (v51_at x5) call0_at n f

/-! ### Layer 2: its operations read at an index -/

theorem v63_at (x1 : Edges) (e : Fin 800000) : val_main_v63 (F := Ideal) x1 (ix2 e (0 : Fin 1)) = norm (rowId x1 e) := by
  rw [val_main_v63_apply, val_main_v62_apply, val_main_v59_apply, val_main_v61_apply, val_main_v58_apply,
    val_main_v60_apply, val_main_c_8_apply, val_main_c_9_apply]
  have h : idx_main_v63 (ix2 e (0 : Fin 1)) = ix1 e := by
    funext a; match a with | ⟨0, _⟩ => rfl
  rw [h, v1_at]; rfl

theorem v68_at (x1 : Edges) (e : Fin 800000) : val_main_v68 (F := Ideal) x1 (ix2 e (0 : Fin 1)) = colId x1 e := by
  rw [val_main_v68_apply]
  have h : idx_main_v68 (ix2 e (0 : Fin 1)) = ix1 e := by
    funext a; match a with | ⟨0, _⟩ => rfl
  rw [h, v3_at]

theorem v65_at (x1 : Edges) (e : Fin 800000) (f : Fin 128) :
    val_main_v65 (F := Ideal) x1 (ix2 e f)
      = val_main_v10 (F := Ideal) x1 (ix1 (rowg x1 e)) * val_main_v10 (F := Ideal) x1 (ix1 (colg x1 e)) := by
  rw [val_main_v65_apply, val_main_v26_apply, val_main_v25_apply]
  have h : idx_main_v26 (idx_main_v65 (ix2 e f)) = ix1 e := by
    funext a; match a with | ⟨0, _⟩ => rfl
  rw [h, v17_at, v24_at]; rfl

theorem v70_at (x1 : Edges) (n : Fin 50000) (f : Fin 128) :
    val_main_v70 (F := Ideal) x1 (ix2 n f)
      = val_main_v10 (F := Ideal) x1 (ix1 n) * val_main_v10 (F := Ideal) x1 (ix1 n) := by
  rw [val_main_v70_apply, val_main_v28_apply, val_main_v27_apply]
  have h : idx_main_v28 (idx_main_v70 (ix2 n f)) = ix1 n := by
    funext a; match a with | ⟨0, _⟩ => rfl
  rw [h]; rfl

theorem v67_at (i : S50000x128.Idx) : val_main_v67 (F := Ideal) i = 0 := by
  rw [val_main_v67_apply, val_main_cst_10_apply]; exact Ideal.ofBits_zero_f32

theorem call1_at (i : S50000x128.Idx) : val_main_call1_v0 (F := Ideal) i = 0 := by
  rw [val_main_call1_v0_apply, val_main_call1_cst_apply]; exact Ideal.ofBits_zero_f32

theorem v76_at (x5 : (⟨S3x128, .f32⟩ : BufTy).Contents (Elt Ideal)) (n : Fin 50000) (f : Fin 128) :
    val_main_v76 (F := Ideal) x5 (ix2 n f) = x5 (ix2 (1 : Fin 3) f) := by
  rw [val_main_v76_apply, val_main_v75_apply, val_main_v74_apply, val_main_v73_apply]
  refine congrArg x5 (funext fun a => Fin.ext ?_)
  match a with
  | ⟨0, _⟩ => rfl
  | ⟨1, _⟩ => exact Nat.mod_eq_of_lt f.isLt

/-- The gathered rows of the dense product. -/
theorem v64_at (x0 : (⟨S50000x128, .f32⟩ : BufTy).Contents (Elt Ideal)) (x1 : Edges) (x4 : (⟨S3x128x128, .f32⟩ : BufTy).Contents (Elt Ideal)) (x5 : (⟨S3x128, .f32⟩ : BufTy).Contents (Elt Ideal)) (e : Fin 800000) (f : Fin 128) :
    val_main_v64 (F := Ideal) x0 x1 x4 x5 (ix2 e f) = val_main_v57 (F := Ideal) x0 x1 x4 x5 (ix2 (clamp (val_main_v63 (F := Ideal) x1 (ix2 e (0 : Fin 1)))) f) :=
  rowGather_read (val_main_v57 (F := Ideal) x0 x1 x4 x5) (val_main_v63 (F := Ideal) x1) e f

/-- The scaled gathered rows. -/
theorem v66_at (x0 : (⟨S50000x128, .f32⟩ : BufTy).Contents (Elt Ideal)) (x1 : Edges) (x4 : (⟨S3x128x128, .f32⟩ : BufTy).Contents (Elt Ideal)) (x5 : (⟨S3x128, .f32⟩ : BufTy).Contents (Elt Ideal)) (e : Fin 800000) (f : Fin 128) :
    val_main_v66 (F := Ideal) x0 x1 x4 x5 (ix2 e f)
      = val_main_v57 (F := Ideal) x0 x1 x4 x5 (ix2 (clamp (val_main_v63 (F := Ideal) x1 (ix2 e (0 : Fin 1)))) f) * val_main_v65 (F := Ideal) x1 (ix2 e f) := by
  rw [val_main_v66_apply, Ideal.mulf_def, v64_at]

/-- The accumulated rows. -/
theorem v69_at (x0 : (⟨S50000x128, .f32⟩ : BufTy).Contents (Elt Ideal)) (x1 : Edges) (x4 : (⟨S3x128x128, .f32⟩ : BufTy).Contents (Elt Ideal)) (x5 : (⟨S3x128, .f32⟩ : BufTy).Contents (Elt Ideal)) (n : Fin 50000) (f : Fin 128) :
    val_main_v69 (F := Ideal) x0 x1 x4 x5 (ix2 n f)
      = val_main_v67 (F := Ideal) (ix2 n f) + ∑ e ∈ Finset.univ.filter (fun e : Fin 800000 =>
          (val_main_v68 (F := Ideal) x1 (ix2 e (0 : Fin 1))).toInt = (n.val : Int)), val_main_v66 (F := Ideal) x0 x1 x4 x5 (ix2 e f) :=
  rowScatter_read (val_main_v67 (F := Ideal)) (val_main_v68 (F := Ideal) x1) (val_main_v66 (F := Ideal) x0 x1 x4 x5) n f

/-- LAYER 2 at `(n, f)`, over the dense product `%57` and dinv `%10`. -/
theorem layer2_apply (x0 : (⟨S50000x128, .f32⟩ : BufTy).Contents (Elt Ideal)) (x1 : Edges) (x4 : (⟨S3x128x128, .f32⟩ : BufTy).Contents (Elt Ideal)) (x5 : (⟨S3x128, .f32⟩ : BufTy).Contents (Elt Ideal)) (n : Fin 50000) (f : Fin 128) :
    val_main_v78 (F := Ideal) x0 x1 x4 x5 (ix2 n f)
      = max ((0 + ∑ e ∈ Finset.univ.filter (fun e : Fin 800000 => (colId x1 e).toInt = (n.val : Int)),
              val_main_v57 (F := Ideal) x0 x1 x4 x5 (ix2 (rowg x1 e) f)
                * (val_main_v10 (F := Ideal) x1 (ix1 (rowg x1 e)) * val_main_v10 (F := Ideal) x1 (ix1 (colg x1 e))))
          + val_main_v10 (F := Ideal) x1 (ix1 n) * val_main_v10 (F := Ideal) x1 (ix1 n)
            * val_main_v57 (F := Ideal) x0 x1 x4 x5 (ix2 n f) + x5 (ix2 (1 : Fin 3) f)) 0 := by
  rw [val_main_v78_apply, val_main_v77_apply, val_main_v72_apply, val_main_v71_apply,
    Ideal.maximumf_def, Ideal.addf_def, Ideal.addf_def, Ideal.mulf_def]
  exact layer_pattern x1 (val_main_v57 (F := Ideal) x0 x1 x4 x5) (val_main_v67 (F := Ideal)) (val_main_v70 (F := Ideal) x1) (val_main_v76 (F := Ideal) x5)
    (val_main_call1_v0 (F := Ideal)) (val_main_v69 (F := Ideal) x0 x1 x4 x5) (val_main_v63 (F := Ideal) x1) (val_main_v68 (F := Ideal) x1)
    (val_main_v66 (F := Ideal) x0 x1 x4 x5) (val_main_v65 (F := Ideal) x1) (fun f => x5 (ix2 (1 : Fin 3) f))
    (v69_at x0 x1 x4 x5) (v66_at x0 x1 x4 x5) (v63_at x1) (v68_at x1) (v65_at x1) v67_at (v70_at x1)
    (v76_at x5) call1_at n f

/-! ### Layer 3: its operations read at an index -/

theorem v88_at (x1 : Edges) (e : Fin 800000) : val_main_v88 (F := Ideal) x1 (ix2 e (0 : Fin 1)) = norm (rowId x1 e) := by
  rw [val_main_v88_apply, val_main_v87_apply, val_main_v84_apply, val_main_v86_apply, val_main_v83_apply,
    val_main_v85_apply, val_main_c_11_apply, val_main_c_12_apply]
  have h : idx_main_v88 (ix2 e (0 : Fin 1)) = ix1 e := by
    funext a; match a with | ⟨0, _⟩ => rfl
  rw [h, v1_at]; rfl

theorem v93_at (x1 : Edges) (e : Fin 800000) : val_main_v93 (F := Ideal) x1 (ix2 e (0 : Fin 1)) = colId x1 e := by
  rw [val_main_v93_apply]
  have h : idx_main_v93 (ix2 e (0 : Fin 1)) = ix1 e := by
    funext a; match a with | ⟨0, _⟩ => rfl
  rw [h, v3_at]

theorem v90_at (x1 : Edges) (e : Fin 800000) (f : Fin 128) :
    val_main_v90 (F := Ideal) x1 (ix2 e f)
      = val_main_v10 (F := Ideal) x1 (ix1 (rowg x1 e)) * val_main_v10 (F := Ideal) x1 (ix1 (colg x1 e)) := by
  rw [val_main_v90_apply, val_main_v26_apply, val_main_v25_apply]
  have h : idx_main_v26 (idx_main_v90 (ix2 e f)) = ix1 e := by
    funext a; match a with | ⟨0, _⟩ => rfl
  rw [h, v17_at, v24_at]; rfl

theorem v95_at (x1 : Edges) (n : Fin 50000) (f : Fin 128) :
    val_main_v95 (F := Ideal) x1 (ix2 n f)
      = val_main_v10 (F := Ideal) x1 (ix1 n) * val_main_v10 (F := Ideal) x1 (ix1 n) := by
  rw [val_main_v95_apply, val_main_v28_apply, val_main_v27_apply]
  have h : idx_main_v28 (idx_main_v95 (ix2 n f)) = ix1 n := by
    funext a; match a with | ⟨0, _⟩ => rfl
  rw [h]; rfl

theorem v92_at (i : S50000x128.Idx) : val_main_v92 (F := Ideal) i = 0 := by
  rw [val_main_v92_apply, val_main_cst_13_apply]; exact Ideal.ofBits_zero_f32

theorem call2_at (i : S50000x128.Idx) : val_main_call2_v0 (F := Ideal) i = 0 := by
  rw [val_main_call2_v0_apply, val_main_call2_cst_apply]; exact Ideal.ofBits_zero_f32

theorem v101_at (x5 : (⟨S3x128, .f32⟩ : BufTy).Contents (Elt Ideal)) (n : Fin 50000) (f : Fin 128) :
    val_main_v101 (F := Ideal) x5 (ix2 n f) = x5 (ix2 (2 : Fin 3) f) := by
  rw [val_main_v101_apply, val_main_v100_apply, val_main_v99_apply, val_main_v98_apply]
  refine congrArg x5 (funext fun a => Fin.ext ?_)
  match a with
  | ⟨0, _⟩ => rfl
  | ⟨1, _⟩ => exact Nat.mod_eq_of_lt f.isLt

/-- The gathered rows of the dense product. -/
theorem v89_at (x0 : (⟨S50000x128, .f32⟩ : BufTy).Contents (Elt Ideal)) (x1 : Edges) (x4 : (⟨S3x128x128, .f32⟩ : BufTy).Contents (Elt Ideal)) (x5 : (⟨S3x128, .f32⟩ : BufTy).Contents (Elt Ideal)) (e : Fin 800000) (f : Fin 128) :
    val_main_v89 (F := Ideal) x0 x1 x4 x5 (ix2 e f) = val_main_v82 (F := Ideal) x0 x1 x4 x5 (ix2 (clamp (val_main_v88 (F := Ideal) x1 (ix2 e (0 : Fin 1)))) f) :=
  rowGather_read (val_main_v82 (F := Ideal) x0 x1 x4 x5) (val_main_v88 (F := Ideal) x1) e f

/-- The scaled gathered rows. -/
theorem v91_at (x0 : (⟨S50000x128, .f32⟩ : BufTy).Contents (Elt Ideal)) (x1 : Edges) (x4 : (⟨S3x128x128, .f32⟩ : BufTy).Contents (Elt Ideal)) (x5 : (⟨S3x128, .f32⟩ : BufTy).Contents (Elt Ideal)) (e : Fin 800000) (f : Fin 128) :
    val_main_v91 (F := Ideal) x0 x1 x4 x5 (ix2 e f)
      = val_main_v82 (F := Ideal) x0 x1 x4 x5 (ix2 (clamp (val_main_v88 (F := Ideal) x1 (ix2 e (0 : Fin 1)))) f) * val_main_v90 (F := Ideal) x1 (ix2 e f) := by
  rw [val_main_v91_apply, Ideal.mulf_def, v89_at]

/-- The accumulated rows. -/
theorem v94_at (x0 : (⟨S50000x128, .f32⟩ : BufTy).Contents (Elt Ideal)) (x1 : Edges) (x4 : (⟨S3x128x128, .f32⟩ : BufTy).Contents (Elt Ideal)) (x5 : (⟨S3x128, .f32⟩ : BufTy).Contents (Elt Ideal)) (n : Fin 50000) (f : Fin 128) :
    val_main_v94 (F := Ideal) x0 x1 x4 x5 (ix2 n f)
      = val_main_v92 (F := Ideal) (ix2 n f) + ∑ e ∈ Finset.univ.filter (fun e : Fin 800000 =>
          (val_main_v93 (F := Ideal) x1 (ix2 e (0 : Fin 1))).toInt = (n.val : Int)), val_main_v91 (F := Ideal) x0 x1 x4 x5 (ix2 e f) :=
  rowScatter_read (val_main_v92 (F := Ideal)) (val_main_v93 (F := Ideal) x1) (val_main_v91 (F := Ideal) x0 x1 x4 x5) n f

/-- LAYER 3 at `(n, f)`, over the dense product `%82` and dinv `%10`. -/
theorem layer3_apply (x0 : (⟨S50000x128, .f32⟩ : BufTy).Contents (Elt Ideal)) (x1 : Edges) (x4 : (⟨S3x128x128, .f32⟩ : BufTy).Contents (Elt Ideal)) (x5 : (⟨S3x128, .f32⟩ : BufTy).Contents (Elt Ideal)) (n : Fin 50000) (f : Fin 128) :
    val_main_v103 (F := Ideal) x0 x1 x4 x5 (ix2 n f)
      = max ((0 + ∑ e ∈ Finset.univ.filter (fun e : Fin 800000 => (colId x1 e).toInt = (n.val : Int)),
              val_main_v82 (F := Ideal) x0 x1 x4 x5 (ix2 (rowg x1 e) f)
                * (val_main_v10 (F := Ideal) x1 (ix1 (rowg x1 e)) * val_main_v10 (F := Ideal) x1 (ix1 (colg x1 e))))
          + val_main_v10 (F := Ideal) x1 (ix1 n) * val_main_v10 (F := Ideal) x1 (ix1 n)
            * val_main_v82 (F := Ideal) x0 x1 x4 x5 (ix2 n f) + x5 (ix2 (2 : Fin 3) f)) 0 := by
  rw [val_main_v103_apply, val_main_v102_apply, val_main_v97_apply, val_main_v96_apply,
    Ideal.maximumf_def, Ideal.addf_def, Ideal.addf_def, Ideal.mulf_def]
  exact layer_pattern x1 (val_main_v82 (F := Ideal) x0 x1 x4 x5) (val_main_v92 (F := Ideal)) (val_main_v95 (F := Ideal) x1) (val_main_v101 (F := Ideal) x5)
    (val_main_call2_v0 (F := Ideal)) (val_main_v94 (F := Ideal) x0 x1 x4 x5) (val_main_v88 (F := Ideal) x1) (val_main_v93 (F := Ideal) x1)
    (val_main_v91 (F := Ideal) x0 x1 x4 x5) (val_main_v90 (F := Ideal) x1) (fun f => x5 (ix2 (2 : Fin 3) f))
    (v94_at x0 x1 x4 x5) (v91_at x0 x1 x4 x5) (v88_at x1) (v93_at x1) (v90_at x1) v92_at (v95_at x1)
    (v101_at x5) call2_at n f

/-! ## The dense products and the output -/

theorem v31_at (x4 : (⟨S3x128x128, .f32⟩ : BufTy).Contents (Elt Ideal)) (k f : Fin 128) :
    val_main_v31 (F := Ideal) x4 (ix2 k f) = x4 (ix3 (0 : Fin 3) f k) := by
  rw [val_main_v31_apply, val_main_v30_apply, val_main_v29_apply]
  refine congrArg x4 (funext fun a => Fin.ext ?_)
  have hf := f.isLt
  have hk := k.isLt
  match a with
  | ⟨0, _⟩ => rfl
  | ⟨1, _⟩ => show (f.val * 128 + k.val) / 128 % 128 = f.val; omega
  | ⟨2, _⟩ => show (f.val * 128 + k.val) % 128 = k.val; omega

theorem v56_at (x4 : (⟨S3x128x128, .f32⟩ : BufTy).Contents (Elt Ideal)) (k f : Fin 128) :
    val_main_v56 (F := Ideal) x4 (ix2 k f) = x4 (ix3 (1 : Fin 3) f k) := by
  rw [val_main_v56_apply, val_main_v55_apply, val_main_v54_apply]
  refine congrArg x4 (funext fun a => Fin.ext ?_)
  have hf := f.isLt
  have hk := k.isLt
  match a with
  | ⟨0, _⟩ => rfl
  | ⟨1, _⟩ => show (f.val * 128 + k.val) / 128 % 128 = f.val; omega
  | ⟨2, _⟩ => show (f.val * 128 + k.val) % 128 = k.val; omega

theorem v81_at (x4 : (⟨S3x128x128, .f32⟩ : BufTy).Contents (Elt Ideal)) (k f : Fin 128) :
    val_main_v81 (F := Ideal) x4 (ix2 k f) = x4 (ix3 (2 : Fin 3) f k) := by
  rw [val_main_v81_apply, val_main_v80_apply, val_main_v79_apply]
  refine congrArg x4 (funext fun a => Fin.ext ?_)
  have hf := f.isLt
  have hk := k.isLt
  match a with
  | ⟨0, _⟩ => rfl
  | ⟨1, _⟩ => show (f.val * 128 + k.val) / 128 % 128 = f.val; omega
  | ⟨2, _⟩ => show (f.val * 128 + k.val) % 128 = k.val; omega

theorem v104_at (x6 : (⟨S128x128, .f32⟩ : BufTy).Contents (Elt Ideal)) (k f : Fin 128) :
    val_main_v104 (F := Ideal) x6 (ix2 k f) = x6 (ix2 f k) := by
  rw [val_main_v104_apply]
  refine congrArg x6 (funext fun a => Fin.ext ?_)
  match a with
  | ⟨0, _⟩ => rfl
  | ⟨1, _⟩ => rfl

theorem lidx32 (n : Fin 50000) (f k : Fin 128) : lidx_main_v32 (ix2 n f) k = ix2 n k := by
  funext a; match a with | ⟨0, _⟩ => rfl | ⟨1, _⟩ => rfl
theorem ridx32 (n : Fin 50000) (f k : Fin 128) : ridx_main_v32 (ix2 n f) k = ix2 k f := by
  funext a; match a with | ⟨0, _⟩ => rfl | ⟨1, _⟩ => rfl

/-- DENSE 1: `%32[n, f] = ∑ k, X[n, k] · W₀[f, k]`. -/
theorem dense1_apply (x0 : (⟨S50000x128, .f32⟩ : BufTy).Contents (Elt Ideal))
    (x4 : (⟨S3x128x128, .f32⟩ : BufTy).Contents (Elt Ideal)) (n : Fin 50000) (f : Fin 128) :
    val_main_v32 (F := Ideal) x0 x4 (ix2 n f) = ∑ k : Fin 128, x0 (ix2 n k) * x4 (ix3 (0 : Fin 3) f k) := by
  rw [val_main_v32_apply]
  refine Finset.sum_congr rfl fun k _ => ?_
  rw [lidx32, ridx32, v31_at]

/-- DENSE 2: `%57[n, f] = ∑ k, %53[n, k] · W₁[f, k]`. -/
theorem dense2_apply (x0 : (⟨S50000x128, .f32⟩ : BufTy).Contents (Elt Ideal)) (x1 : Edges)
    (x4 : (⟨S3x128x128, .f32⟩ : BufTy).Contents (Elt Ideal)) (x5 : (⟨S3x128, .f32⟩ : BufTy).Contents (Elt Ideal))
    (n : Fin 50000) (f : Fin 128) :
    val_main_v57 (F := Ideal) x0 x1 x4 x5 (ix2 n f)
      = ∑ k : Fin 128, val_main_v53 (F := Ideal) x0 x1 x4 x5 (ix2 n k) * x4 (ix3 (1 : Fin 3) f k) := by
  rw [val_main_v57_apply]
  refine Finset.sum_congr rfl fun k _ => ?_
  rw [show lidx_main_v57 (ix2 n f) k = ix2 n k from lidx32 n f k,
    show ridx_main_v57 (ix2 n f) k = ix2 k f from ridx32 n f k, v56_at]

/-- DENSE 3: `%82[n, f] = ∑ k, %78[n, k] · W₂[f, k]`. -/
theorem dense3_apply (x0 : (⟨S50000x128, .f32⟩ : BufTy).Contents (Elt Ideal)) (x1 : Edges)
    (x4 : (⟨S3x128x128, .f32⟩ : BufTy).Contents (Elt Ideal)) (x5 : (⟨S3x128, .f32⟩ : BufTy).Contents (Elt Ideal))
    (n : Fin 50000) (f : Fin 128) :
    val_main_v82 (F := Ideal) x0 x1 x4 x5 (ix2 n f)
      = ∑ k : Fin 128, val_main_v78 (F := Ideal) x0 x1 x4 x5 (ix2 n k) * x4 (ix3 (2 : Fin 3) f k) := by
  rw [val_main_v82_apply]
  refine Finset.sum_congr rfl fun k _ => ?_
  rw [show lidx_main_v82 (ix2 n f) k = ix2 n k from lidx32 n f k,
    show ridx_main_v82 (ix2 n f) k = ix2 k f from ridx32 n f k, v81_at]

/-- THE HEAD'S DENSE PRODUCT: `%105[n, f] = ∑ k, %103[n, k] · Wₒ[f, k]`. -/
theorem dense4_apply (x0 : (⟨S50000x128, .f32⟩ : BufTy).Contents (Elt Ideal)) (x1 : Edges)
    (x4 : (⟨S3x128x128, .f32⟩ : BufTy).Contents (Elt Ideal)) (x5 : (⟨S3x128, .f32⟩ : BufTy).Contents (Elt Ideal))
    (x6 : (⟨S128x128, .f32⟩ : BufTy).Contents (Elt Ideal)) (n : Fin 50000) (f : Fin 128) :
    val_main_v105 (F := Ideal) x0 x1 x4 x5 x6 (ix2 n f)
      = ∑ k : Fin 128, val_main_v103 (F := Ideal) x0 x1 x4 x5 (ix2 n k) * x6 (ix2 f k) := by
  rw [val_main_v105_apply]
  refine Finset.sum_congr rfl fun k _ => ?_
  rw [show lidx_main_v105 (ix2 n f) k = ix2 n k from lidx32 n f k,
    show ridx_main_v105 (ix2 n f) k = ix2 k f from ridx32 n f k, v104_at]

/-- THE OUTPUT: `%108[n, f] = %105[n, f] + bias[f]`. -/
theorem out_apply (x0 : (⟨S50000x128, .f32⟩ : BufTy).Contents (Elt Ideal)) (x1 : Edges)
    (x4 : (⟨S3x128x128, .f32⟩ : BufTy).Contents (Elt Ideal)) (x5 : (⟨S3x128, .f32⟩ : BufTy).Contents (Elt Ideal))
    (x6 : (⟨S128x128, .f32⟩ : BufTy).Contents (Elt Ideal)) (x7 : (⟨S128, .f32⟩ : BufTy).Contents (Elt Ideal))
    (n : Fin 50000) (f : Fin 128) :
    val_main_v108 (F := Ideal) x0 x1 x4 x5 x6 x7 (ix2 n f)
      = val_main_v105 (F := Ideal) x0 x1 x4 x5 x6 (ix2 n f) + x7 (ix1 f) := by
  rw [val_main_v108_apply, val_main_v107_apply, val_main_v106_apply]
  have h : idx_main_v106 (idx_main_v107 (ix2 n f)) = ix1 f := by
    funext a; match a with | ⟨0, _⟩ => rfl
  rw [h]; rfl

end Cert.RefLayers
end
-- ==== Proof.RefExtra.lean ====
/-
  More of the reference's operations read at an index: the dense products over the transposed weights as they stand,
  the bias rows as vectors, two layout reads, the neighbourhood sum of any node table, and the node an edge's target
  id names when the id is a node.
-/
import proofs.«118885_j83339545411634_2_alg».proof.Proof.RefLayers

noncomputable section

open scoped BigOperators

namespace Cert.RefExtra

open Cert.ReferenceIdeal Cert.ReferenceIdeal.Gen Cert.ReferenceIdeal.Read Idealize.ShloMosaic Idealize.ShloMosaic.ValueIdx
  Idealize.ShloMosaic.StableHlo Cert.LibScatterGather Cert.LibGatherVec Cert.RefLayers

/-! ## The dense products, over the transposed weight as it stands -/

theorem denseT1 (x0 : (⟨S50000x128, .f32⟩ : BufTy).Contents (Elt Ideal)) (x4 : (⟨S3x128x128, .f32⟩ : BufTy).Contents (Elt Ideal)) (n : Fin 50000) (f : Fin 128) :
    val_main_v32 (F := Ideal) x0 x4 (ix2 n f) = ∑ k : Fin 128, x0 (ix2 n k) * val_main_v31 (F := Ideal) x4 (ix2 k f) := by
  rw [val_main_v32_apply]
  refine Finset.sum_congr rfl fun k _ => ?_
  rw [lidx32, ridx32]

theorem denseT2 (x0 : (⟨S50000x128, .f32⟩ : BufTy).Contents (Elt Ideal)) (x1 : Edges) (x4 : (⟨S3x128x128, .f32⟩ : BufTy).Contents (Elt Ideal)) (x5 : (⟨S3x128, .f32⟩ : BufTy).Contents (Elt Ideal)) (n : Fin 50000) (f : Fin 128) :
    val_main_v57 (F := Ideal) x0 x1 x4 x5 (ix2 n f)
      = ∑ k : Fin 128, val_main_v53 (F := Ideal) x0 x1 x4 x5 (ix2 n k) * val_main_v56 (F := Ideal) x4 (ix2 k f) := by
  rw [val_main_v57_apply]
  refine Finset.sum_congr rfl fun k _ => ?_
  rw [show lidx_main_v57 (ix2 n f) k = ix2 n k from lidx32 n f k,
    show ridx_main_v57 (ix2 n f) k = ix2 k f from ridx32 n f k]

theorem denseT3 (x0 : (⟨S50000x128, .f32⟩ : BufTy).Contents (Elt Ideal)) (x1 : Edges) (x4 : (⟨S3x128x128, .f32⟩ : BufTy).Contents (Elt Ideal)) (x5 : (⟨S3x128, .f32⟩ : BufTy).Contents (Elt Ideal)) (n : Fin 50000) (f : Fin 128) :
    val_main_v82 (F := Ideal) x0 x1 x4 x5 (ix2 n f)
      = ∑ k : Fin 128, val_main_v78 (F := Ideal) x0 x1 x4 x5 (ix2 n k) * val_main_v81 (F := Ideal) x4 (ix2 k f) := by
  rw [val_main_v82_apply]
  refine Finset.sum_congr rfl fun k _ => ?_
  rw [show lidx_main_v82 (ix2 n f) k = ix2 n k from lidx32 n f k,
    show ridx_main_v82 (ix2 n f) k = ix2 k f from ridx32 n f k]

theorem denseT4 (x0 : (⟨S50000x128, .f32⟩ : BufTy).Contents (Elt Ideal)) (x1 : Edges) (x4 : (⟨S3x128x128, .f32⟩ : BufTy).Contents (Elt Ideal)) (x5 : (⟨S3x128, .f32⟩ : BufTy).Contents (Elt Ideal)) (x6 : (⟨S128x128, .f32⟩ : BufTy).Contents (Elt Ideal)) (n : Fin 50000) (f : Fin 128) :
    val_main_v105 (F := Ideal) x0 x1 x4 x5 x6 (ix2 n f)
      = ∑ k : Fin 128, val_main_v103 (F := Ideal) x0 x1 x4 x5 (ix2 n k) * val_main_v104 (F := Ideal) x6 (ix2 k f) := by
  rw [val_main_v105_apply]
  refine Finset.sum_congr rfl fun k _ => ?_
  rw [show lidx_main_v105 (ix2 n f) k = ix2 n k from lidx32 n f k,
    show ridx_main_v105 (ix2 n f) k = ix2 k f from ridx32 n f k]

/-! ## The bias rows as vectors -/

theorem v49_at (x5 : (⟨S3x128, .f32⟩ : BufTy).Contents (Elt Ideal)) (k : Fin 128) : val_main_v49 (F := Ideal) x5 (ix1 k) = x5 (ix2 (0 : Fin 3) k) := by
  rw [val_main_v49_apply, val_main_v48_apply]
  refine congrArg x5 (funext fun a => Fin.ext ?_)
  match a with
  | ⟨0, _⟩ => rfl
  | ⟨1, _⟩ => exact Nat.mod_eq_of_lt k.isLt

theorem v74_at (x5 : (⟨S3x128, .f32⟩ : BufTy).Contents (Elt Ideal)) (k : Fin 128) : val_main_v74 (F := Ideal) x5 (ix1 k) = x5 (ix2 (1 : Fin 3) k) := by
  rw [val_main_v74_apply, val_main_v73_apply]
  refine congrArg x5 (funext fun a => Fin.ext ?_)
  match a with
  | ⟨0, _⟩ => rfl
  | ⟨1, _⟩ => exact Nat.mod_eq_of_lt k.isLt

theorem v99_at (x5 : (⟨S3x128, .f32⟩ : BufTy).Contents (Elt Ideal)) (k : Fin 128) : val_main_v99 (F := Ideal) x5 (ix1 k) = x5 (ix2 (2 : Fin 3) k) := by
  rw [val_main_v99_apply, val_main_v98_apply]
  refine congrArg x5 (funext fun a => Fin.ext ?_)
  match a with
  | ⟨0, _⟩ => rfl
  | ⟨1, _⟩ => exact Nat.mod_eq_of_lt k.isLt

/-! ## Two layout reads -/

/-- A vector of 128 reshaped to one row of 128, read at `(0, k)`: the vector at `k`. -/
theorem row_of_vec_at {α : Type} (h : (⟨1, ![128]⟩ : Shape).ShapeCasts ⟨2, ![1, 128]⟩)
    (v : (⟨1, ![128]⟩ : Shape).Idx → α) (k : Fin 128) :
    shapeCast (⟨2, ![1, 128]⟩ : Shape) v h (ix2 (0 : Fin 1) k) = v (ix1 k) :=
  shapeCast_apply v h (ix2 (0 : Fin 1) k) (ix1 k)
    (by rw [Shape.rowMajor_val_two, Shape.rowMajor_val_one]; show k.val = 0 * 128 + k.val; omega)

/-- A vector over the nodes broadcast to one column, read at `(n, 0)`: the vector at `n`. -/
theorem col_of_vec_at {α : Type} (X : S50000.Idx → α) (n : Fin 50000) :
    broadcastInDim S50000x1 ![0] bcast_S50000_S50000x1_0 X (ix2 n (0 : Fin 1)) = X (ix1 n) :=
  broadcastInDim_apply _ bcast_S50000_S50000x1_0 X (ix2 n (0 : Fin 1)) (ix1 n) (fun a => match a with
    | ⟨0, _⟩ => by show n.val = if (50000 : Nat) = 1 then 0 else n.val; rw [if_neg (by decide)])

/-! ## The neighbourhood sum of any node table -/

/-- Gathering the rows of `hs` at the edges' sources and scatter-adding them to the edges' targets gives, at
    `(n, k)`, the sum of `hs` over the sources of the edges whose target is `n`. -/
theorem agg_at (x1 : Edges) (hs : S50000x128.Idx → EReal) (n : Fin 50000) (k : Fin 128) :
    Host.scatterAdd (F := Ideal) (φ := .f32) scatter_S50000x128_S800000x1_S800000x128_1_0_0_1 (val_main_v42 (F := Ideal))
        (val_main_v43 (F := Ideal) x1)
        (Host.gather gather_S50000x128_S800000x1_S800000x128_1_0_n_n_0_1_1128 hs (val_main_v38 (F := Ideal) x1)) (ix2 n k)
      = 0 + ∑ e ∈ Finset.univ.filter (fun e : Fin 800000 => (colId x1 e).toInt = (n.val : Int)),
          hs (ix2 (rowg x1 e) k) := by
  rw [rowScatter_read, v42_at]
  have hfilt : Finset.univ.filter (fun e : Fin 800000 => (val_main_v43 (F := Ideal) x1 (ix2 e (0 : Fin 1))).toInt = (n.val : Int))
      = Finset.univ.filter (fun e : Fin 800000 => (colId x1 e).toInt = (n.val : Int)) :=
    Finset.filter_congr fun e _ => by rw [v43_at]
  rw [hfilt]
  refine congrArg (fun t => (0 : EReal) + t) (Finset.sum_congr rfl fun e _ => ?_)
  rw [rowGather_read, v38_at]; rfl

/-! ## A target id that is a node names that node -/

theorem norm_of_nonneg (b : BitVec 32) (h : 0 ≤ b.toInt) : RefLayers.norm b = b := by
  unfold RefLayers.norm
  have hc : IntOp.cmpi .slt b 0#32 = 0#1 := by
    unfold IntOp.cmpi
    have : b.slt 0#32 = false := by
      simp [BitVec.slt]; omega
    simp [this]
  rw [hc]; exact select_zero _ _

theorem colg_of_lands (x1 : Edges) (e : Fin 800000) (n : Fin 50000) (h : (colId x1 e).toInt = (n.val : Int)) :
    colg x1 e = n := by
  unfold colg
  rw [norm_of_nonneg _ (by rw [h]; omega)]
  unfold clamp
  refine Fin.ext ?_
  show min (colId x1 e).toInt.toNat (50000 - 1) = n.val
  rw [h]; have := n.isLt; omega

end Cert.RefExtra
end
-- ==== Proof.Law.lean ====
/-
  The algebraic law behind the separable normalisation.

  With a nonnegative finite scale x, multiplication by x distributes over every sum of extended reals (for a negative or
  an infinite x it does not: the sum of an infinity and its opposite is the lower one). Hence, for the node n with scale
  dn, incoming edges e with source scale de e and source feature he e, and own feature hn,

      dn * ((0 + sum_e de e * he e) + dn * hn) = (0 + sum_e he e * (de e * dn)) + (dn * dn) * hn,

  the left side scaling once after the aggregation, the right side scaling every edge by both endpoint scales.
-/
import Idealize.ShloMosaic.PureOps.Ideal

open scoped BigOperators

namespace Cert.Law

/-- A nonnegative finite extended real multiplies through a finite sum. -/
theorem mul_sum_of_nonneg {ι : Type} (S : Finset ι) {x : EReal} (h0 : 0 ≤ x) (ht : x ≠ ⊤) (f : ι → EReal) :
    x * ∑ e ∈ S, f e = ∑ e ∈ S, x * f e := by
  classical
  induction S using Finset.induction_on with
  | empty => simp
  | insert a s ha ih =>
    rw [Finset.sum_insert ha, Finset.sum_insert ha, EReal.left_distrib_of_nonneg_of_ne_top h0 ht, ih]

/-- Scaling once after aggregating equals scaling each edge by both endpoint scales. -/
theorem rescale {ι : Type} (S : Finset ι) {dn : EReal} (h0 : 0 ≤ dn) (ht : dn ≠ ⊤) (de he : ι → EReal) (hn : EReal) :
    dn * ((0 + ∑ e ∈ S, de e * he e) + dn * hn) = (0 + ∑ e ∈ S, he e * (de e * dn)) + (dn * dn) * hn := by
  rw [EReal.left_distrib_of_nonneg_of_ne_top h0 ht, zero_add, zero_add, mul_sum_of_nonneg S h0 ht, ← mul_assoc]
  refine congrArg (· + dn * dn * hn) (Finset.sum_congr rfl fun e _ => ?_)
  rw [mul_comm (he e), mul_comm dn, mul_assoc (de e), mul_comm (he e), mul_assoc]

end Cert.Law
-- ==== Proof.Bridge.lean ====
/-
  The node features before pooling: the kernel program's and the reference's are the same array.

  Write D n for the per-node scale (the inverse square root of the node's degree counted with its self loop: a
  nonnegative real), H for a layer's transformed features and E n for the edges whose target is n. The kernel program
  carries HS = D * H from layer to layer, aggregates HS over E n and scales once:
      max (D n * ((0 + sum_{e in E n} HS (src e)) + HS n) + b) 0,
  while the reference weights every edge by both endpoint scales:
      max ((0 + sum_{e in E n} H (src e) * (D (src e) * D (tgt e))) + (D n * D n) * H n + b) 0.
  An edge in E n has target n, and a nonnegative real multiplies through a sum of extended reals, so the two agree;
  the next layer's product then sees the same input on both sides.
-/
import proofs.«118885_j83339545411634_2_alg».proof.Proof.HostK
import proofs.«118885_j83339545411634_2_alg».proof.Proof.RefLayers
import proofs.«118885_j83339545411634_2_alg».proof.Proof.RefExtra
import proofs.«118885_j83339545411634_2_alg».proof.Proof.Law

set_option maxRecDepth 65536

noncomputable section

open scoped BigOperators

namespace Cert.Bridge

open Idealize.ShloMosaic Idealize.ShloMosaic.ValueIdx
open Cert.ReferenceIdeal Cert.ReferenceIdeal.Read Cert.RefLayers Cert.RefExtra
open Cert.KernelIdeal.HostReads (DK agg brow HS0 HS1 HS2 OUT3)
open Cert.KernelIdeal.RegionArrays (R0 R1 R3 combA)

variable (x0 : (⟨S50000x128, .f32⟩ : BufTy).Contents (Elt Ideal)) (x1 : Edges)
  (x4 : (⟨S3x128x128, .f32⟩ : BufTy).Contents (Elt Ideal)) (x5 : (⟨S3x128, .f32⟩ : BufTy).Contents (Elt Ideal))
  (x6 : (⟨S128x128, .f32⟩ : BufTy).Contents (Elt Ideal)) (x7 : (⟨S128, .f32⟩ : BufTy).Contents (Elt Ideal))

/-- The scale column at node n is the scale of n. -/
theorem DK_at (n : Fin 50000) : DK x1 (ix2 n (0 : Fin 1)) = val_main_v10 (F := Ideal) x1 (ix1 n) := by
  unfold DK; exact col_of_vec_at _ n

/-- The aggregation of hs at (n, k): the sum over the edges with target n of hs at the edge's source. -/
theorem agg_at' (hs : S50000x128.Idx → EReal) (n : Fin 50000) (k : Fin 128) :
    agg x1 hs (ix2 n k) = 0 + ∑ e ∈ Finset.univ.filter (fun e : Fin 800000 => (colId x1 e).toInt = (n.val : Int)), hs (ix2 (rowg x1 e) k) := by
  unfold agg; exact agg_at x1 hs n k

/-- ONE LAYER'S COMBINATION: from HS = D * H, the kernel program's combined value is the reference's. -/
theorem comb_eq (H HS : S50000x128.Idx → EReal)
    (hHS : ∀ (n : Fin 50000) (f : Fin 128), HS (ix2 n f) = val_main_v10 (F := Ideal) x1 (ix1 n) * H (ix2 n f))
    (b : S128.Idx → EReal) (bias : Fin 128 → EReal) (hb : ∀ k : Fin 128, b (ix1 k) = bias k) (n : Fin 50000) (k : Fin 128) :
    combA (DK x1) (agg x1 HS) HS (brow b) n k
      = max ((0 + ∑ e ∈ Finset.univ.filter (fun e : Fin 800000 => (colId x1 e).toInt = (n.val : Int)),
              H (ix2 (rowg x1 e) k) * (val_main_v10 (F := Ideal) x1 (ix1 (rowg x1 e)) * val_main_v10 (F := Ideal) x1 (ix1 (colg x1 e))))
          + val_main_v10 (F := Ideal) x1 (ix1 n) * val_main_v10 (F := Ideal) x1 (ix1 n) * H (ix2 n k) + bias k) 0 := by
  unfold combA
  rw [DK_at, agg_at', hHS n k]
  have hbr : brow b (ix2 (0 : Fin 1) k) = bias k := by
    unfold brow; exact (row_of_vec_at _ b k).trans (hb k)
  rw [hbr]
  obtain ⟨h0, ht, _⟩ := dinv_nonneg_ne_top x1 n
  have hsum : ∑ e ∈ Finset.univ.filter (fun e : Fin 800000 => (colId x1 e).toInt = (n.val : Int)), HS (ix2 (rowg x1 e) k)
      = ∑ e ∈ Finset.univ.filter (fun e : Fin 800000 => (colId x1 e).toInt = (n.val : Int)),
          val_main_v10 (F := Ideal) x1 (ix1 (rowg x1 e)) * H (ix2 (rowg x1 e) k) :=
    Finset.sum_congr rfl fun e _ => hHS _ _
  rw [hsum, Cert.Law.rescale _ h0 ht (fun e => val_main_v10 (F := Ideal) x1 (ix1 (rowg x1 e))) (fun e => H (ix2 (rowg x1 e) k)) (H (ix2 n k))]
  have hterms : ∀ e ∈ Finset.univ.filter (fun e : Fin 800000 => (colId x1 e).toInt = (n.val : Int)),
      H (ix2 (rowg x1 e) k) * (val_main_v10 (F := Ideal) x1 (ix1 (rowg x1 e)) * val_main_v10 (F := Ideal) x1 (ix1 n))
        = H (ix2 (rowg x1 e) k) * (val_main_v10 (F := Ideal) x1 (ix1 (rowg x1 e)) * val_main_v10 (F := Ideal) x1 (ix1 (colg x1 e))) := by
    intro e he
    rw [colg_of_lands x1 e n (Finset.mem_filter.mp he).2]
  rw [Finset.sum_congr rfl hterms]

/-! ## The layers -/

theorem hs0_at (n : Fin 50000) (f : Fin 128) :
    HS0 x0 x1 x4 (ix2 n f) = val_main_v10 (F := Ideal) x1 (ix1 n) * val_main_v32 (F := Ideal) x0 x4 (ix2 n f) := by
  rw [denseT1]
  show DK x1 (ix2 n (0 : Fin 1)) * ∑ k : Fin 128, x0 (ix2 n k) * val_main_v31 (F := Ideal) x4 (ix2 k f) = _
  rw [DK_at]

theorem x1_at (n : Fin 50000) (k : Fin 128) :
    combA (DK x1) (agg x1 (HS0 x0 x1 x4)) (HS0 x0 x1 x4) (brow (val_main_v49 (F := Ideal) x5)) n k
      = val_main_v53 (F := Ideal) x0 x1 x4 x5 (ix2 n k) :=
  (comb_eq x1 (val_main_v32 (F := Ideal) x0 x4) (HS0 x0 x1 x4) (hs0_at x0 x1 x4) (val_main_v49 (F := Ideal) x5)
    (fun k => x5 (ix2 (0 : Fin 3) k)) (v49_at x5) n k).trans (layer1_apply x0 x1 x4 x5 n k).symm

theorem hs1_at (n : Fin 50000) (f : Fin 128) :
    HS1 x0 x1 x4 x5 (ix2 n f) = val_main_v10 (F := Ideal) x1 (ix1 n) * val_main_v57 (F := Ideal) x0 x1 x4 x5 (ix2 n f) := by
  rw [denseT2]
  show DK x1 (ix2 n (0 : Fin 1)) * ∑ k : Fin 128,
      combA (DK x1) (agg x1 (HS0 x0 x1 x4)) (HS0 x0 x1 x4) (brow (val_main_v49 (F := Ideal) x5)) n k * val_main_v56 (F := Ideal) x4 (ix2 k f) = _
  simp only [DK_at x1, x1_at x0 x1 x4 x5]

theorem x2_at (n : Fin 50000) (k : Fin 128) :
    combA (DK x1) (agg x1 (HS1 x0 x1 x4 x5)) (HS1 x0 x1 x4 x5) (brow (val_main_v74 (F := Ideal) x5)) n k
      = val_main_v78 (F := Ideal) x0 x1 x4 x5 (ix2 n k) :=
  (comb_eq x1 (val_main_v57 (F := Ideal) x0 x1 x4 x5) (HS1 x0 x1 x4 x5) (hs1_at x0 x1 x4 x5) (val_main_v74 (F := Ideal) x5)
    (fun k => x5 (ix2 (1 : Fin 3) k)) (v74_at x5) n k).trans (layer2_apply x0 x1 x4 x5 n k).symm

theorem hs2_at (n : Fin 50000) (f : Fin 128) :
    HS2 x0 x1 x4 x5 (ix2 n f) = val_main_v10 (F := Ideal) x1 (ix1 n) * val_main_v82 (F := Ideal) x0 x1 x4 x5 (ix2 n f) := by
  rw [denseT3]
  show DK x1 (ix2 n (0 : Fin 1)) * ∑ k : Fin 128,
      combA (DK x1) (agg x1 (HS1 x0 x1 x4 x5)) (HS1 x0 x1 x4 x5) (brow (val_main_v74 (F := Ideal) x5)) n k * val_main_v81 (F := Ideal) x4 (ix2 k f) = _
  simp only [DK_at x1, x2_at x0 x1 x4 x5]

theorem x3_at (n : Fin 50000) (k : Fin 128) :
    combA (DK x1) (agg x1 (HS2 x0 x1 x4 x5)) (HS2 x0 x1 x4 x5) (brow (val_main_v99 (F := Ideal) x5)) n k
      = val_main_v103 (F := Ideal) x0 x1 x4 x5 (ix2 n k) :=
  (comb_eq x1 (val_main_v82 (F := Ideal) x0 x1 x4 x5) (HS2 x0 x1 x4 x5) (hs2_at x0 x1 x4 x5) (val_main_v99 (F := Ideal) x5)
    (fun k => x5 (ix2 (2 : Fin 3) k)) (v99_at x5) n k).trans (layer3_apply x0 x1 x4 x5 n k).symm

theorem out3_at (n : Fin 50000) (f : Fin 128) :
    OUT3 x0 x1 x4 x5 x6 x7 (ix2 n f) = val_main_v108 (F := Ideal) x0 x1 x4 x5 x6 x7 (ix2 n f) := by
  rw [out_apply, denseT4]
  show (∑ k : Fin 128,
      combA (DK x1) (agg x1 (HS2 x0 x1 x4 x5)) (HS2 x0 x1 x4 x5) (brow (val_main_v99 (F := Ideal) x5)) n k * val_main_v104 (F := Ideal) x6 (ix2 k f))
      + brow x7 (ix2 (0 : Fin 1) f) = _
  have hb : brow x7 (ix2 (0 : Fin 1) f) = x7 (ix1 f) := by unfold brow; exact row_of_vec_at _ x7 f
  rw [hb]
  simp only [x3_at x0 x1 x4 x5]

/-- THE NODE FEATURES BEFORE POOLING are the same array in the two programs. -/
theorem out3_eq : OUT3 x0 x1 x4 x5 x6 x7 = val_main_v108 (F := Ideal) x0 x1 x4 x5 x6 x7 := by
  funext i
  obtain ⟨n, f, rfl⟩ : ∃ (n : Fin 50000) (f : Fin 128), i = ix2 n f := ⟨i 0, i 1, eq_ix2 i⟩
  exact out3_at x0 x1 x4 x5 x6 x7 n f

end Cert.Bridge

end
-- ==== Proof.KernelValue.lean ====
/-
  The idealized kernel program's result as the reference's function of the arguments.

  After the fourth kernel the node features are the reference's (the layers agree one by one); the last host stretch
  pools them with the same operations as the reference and lays out the weights for the head kernel; the head kernel's
  value of those arrays is the reference's remaining operations of the pooled sums, the counts and the weights.
-/
import proofs.«118885_j83339545411634_2_alg».proof.Proof.HostK
import proofs.«118885_j83339545411634_2_alg».proof.Proof.HeadArray
import proofs.«118885_j83339545411634_2_alg».proof.Proof.Head
import proofs.«118885_j83339545411634_2_alg».proof.Proof.Bridge

set_option maxRecDepth 16384

noncomputable section

namespace Cert.KernelIdeal.ResultValue

open Cert.KernelIdeal Cert.KernelIdeal.Gen Cert.KernelIdeal.HostReads Cert.KernelIdeal.HeadArray
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## After the last host stretch -/

set_option maxHeartbeats 4000000 in
/-- The pooled sums: the node features added up per graph. -/
theorem W9_v68 : (W9 m ρ c (Proc.devRef .tc main_v68) : S256x128.Idx → EReal)
    = Cert.ReferenceIdeal.Read.val_main_v111 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) := by
  dsimp only [W9, hostOps4]; after_results
  rw [W8_arg2, W8_v65, Cert.Bridge.out3_eq]
  rfl
set_option maxHeartbeats 4000000 in
theorem W9_v73 : (W9 m ρ c (Proc.devRef .tc main_v73) : S256x1.Idx → EReal)
    = Cert.Head.k73 (F := Ideal) (Cert.ReferenceIdeal.Read.val_main_v115 (F := Ideal) (m ((c : Thread nD τ).loc main_arg2))) := by
  dsimp only [W9, hostOps4]; after_results
  rw [W8_arg2]
  rfl
set_option maxHeartbeats 4000000 in
theorem W9_v76 : (W9 m ρ c (Proc.devRef .tc main_v76) : S256x256.Idx → EReal)
    = Cert.Head.k76 (F := Ideal) (m ((c : Thread nD τ).loc main_arg8)) := by
  dsimp only [W9, hostOps4]; after_results
  rw [W8_arg8]
  rfl
set_option maxHeartbeats 4000000 in
theorem W9_v79 : (W9 m ρ c (Proc.devRef .tc main_v79) : S256x256.Idx → EReal)
    = Cert.Head.k79 (F := Ideal) (m ((c : Thread nD τ).loc main_arg8)) := by
  dsimp only [W9, hostOps4]; after_results
  rw [W8_arg8]
  rfl
set_option maxHeartbeats 4000000 in
theorem W9_v86 : (W9 m ρ c (Proc.devRef .tc main_v86) : S1x256.Idx → EReal)
    = Cert.Head.k86 (F := Ideal) (m ((c : Thread nD τ).loc main_arg9)) := by
  dsimp only [W9, hostOps4]; after_results
  rw [W8_arg9]
  rfl
set_option maxHeartbeats 4000000 in
theorem W9_v89 : (W9 m ρ c (Proc.devRef .tc main_v89) : S1x256.Idx → EReal)
    = Cert.Head.k89 (F := Ideal) (m ((c : Thread nD τ).loc main_arg9)) := by
  dsimp only [W9, hostOps4]; after_results
  rw [W8_arg9]
  rfl
set_option maxHeartbeats 4000000 in
theorem W9_v80 : (W9 m ρ c (Proc.devRef .tc main_v80) : S256x64.Idx → EReal)
    = Cert.Head.k80 (F := Ideal) (m ((c : Thread nD τ).loc main_arg10)) := by
  dsimp only [W9, hostOps4]; after_results
  rw [W8_arg10]
  rfl
set_option maxHeartbeats 4000000 in
theorem W9_v90 : (W9 m ρ c (Proc.devRef .tc main_v90) : S1x64.Idx → EReal)
    = Cert.Head.k90 (F := Ideal) (m ((c : Thread nD τ).loc main_arg11)) := by
  dsimp only [W9, hostOps4]; after_results
  rw [W8_arg11]
  rfl
set_option maxHeartbeats 4000000 in
theorem W9_v81 : (W9 m ρ c (Proc.devRef .tc main_v81) : S192x256.Idx → EReal)
    = Cert.Head.k81 (F := Ideal) (m ((c : Thread nD τ).loc main_arg12)) := by
  dsimp only [W9, hostOps4]; after_results
  rw [W8_arg12]
  rfl
set_option maxHeartbeats 4000000 in
theorem W9_v91 : (W9 m ρ c (Proc.devRef .tc main_v91) : S1x256.Idx → EReal)
    = Cert.Head.k91 (F := Ideal) (m ((c : Thread nD τ).loc main_arg13)) := by
  dsimp only [W9, hostOps4]; after_results
  rw [W8_arg13]
  rfl
set_option maxHeartbeats 4000000 in
theorem W9_v82 : (W9 m ρ c (Proc.devRef .tc main_v82) : S256x256.Idx → EReal)
    = Cert.Head.k82 (F := Ideal) (m ((c : Thread nD τ).loc main_arg14)) := by
  dsimp only [W9, hostOps4]; after_results
  rw [W8_arg14]
  rfl
set_option maxHeartbeats 4000000 in
theorem W9_v92 : (W9 m ρ c (Proc.devRef .tc main_v92) : S1x256.Idx → EReal)
    = Cert.Head.k92 (F := Ideal) (m ((c : Thread nD τ).loc main_arg15)) := by
  dsimp only [W9, hostOps4]; after_results
  rw [W8_arg15]
  rfl
set_option maxHeartbeats 4000000 in
theorem W9_v83 : (W9 m ρ c (Proc.devRef .tc main_v83) : S256x1.Idx → EReal)
    = Cert.Head.k83 (F := Ideal) (m ((c : Thread nD τ).loc main_arg16)) := by
  dsimp only [W9, hostOps4]; after_results
  rw [W8_arg16]
  rfl
set_option maxHeartbeats 4000000 in
theorem W9_v93 : (W9 m ρ c (Proc.devRef .tc main_v93) : S1x1.Idx → EReal)
    = Cert.Head.k93 (F := Ideal) (m ((c : Thread nD τ).loc main_arg17)) := by
  dsimp only [W9, hostOps4]; after_results
  rw [W8_arg17]
  rfl

/-! ## The result -/

set_option maxHeartbeats 4000000 in
/-- THE RESULT ARRAY of the idealized kernel program is the reference's function of the argument arrays. -/
theorem result_eq : (W10 m ρ c (Proc.devRef .tc main_v94) : S256x1.Idx → EReal)
    = Cert.ReferenceIdeal.Read.val_main_v164 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := by
  refine (W10_arr m ρ c 15).trans ?_
  rw [arr4 (V9 m ρ) c]
  show out4_15 (F := Ideal) (W9 m ρ c (Proc.devRef .tc main_v68)) (W9 m ρ c (Proc.devRef .tc main_v73)) (W9 m ρ c (Proc.devRef .tc main_arg3))
      (W9 m ρ c (Proc.devRef .tc main_v76)) (W9 m ρ c (Proc.devRef .tc main_v79)) (W9 m ρ c (Proc.devRef .tc main_v86)) (W9 m ρ c (Proc.devRef .tc main_v89))
      (W9 m ρ c (Proc.devRef .tc main_v80)) (W9 m ρ c (Proc.devRef .tc main_v90)) (W9 m ρ c (Proc.devRef .tc main_v81)) (W9 m ρ c (Proc.devRef .tc main_v91))
      (W9 m ρ c (Proc.devRef .tc main_v82)) (W9 m ρ c (Proc.devRef .tc main_v92)) (W9 m ρ c (Proc.devRef .tc main_v83)) (W9 m ρ c (Proc.devRef .tc main_v93)) = _
  rw [W9_v68, W9_v73, W9_arg3, W9_v76, W9_v79, W9_v86, W9_v89, W9_v80, W9_v90, W9_v81, W9_v91, W9_v82, W9_v92, W9_v83, W9_v93]
  rw [Cert.Head.tailR_eq]
  exact Cert.Head.head_bridge _ _ _ _ _ _ _ _ _ _ _ _ _

end Cert.KernelIdeal.ResultValue

end
-- ==== Proof.lean ====
/- The proof of `Cert.Claim`: a three-layer graph convolution with mean pooling and a prediction head, as five kernels
   among host operations, against its plain reference.

   The three frames: the two kernel programs' are the generated frame certificates; the reference has no kernel, and
   its frame is its run with the result dropped. `preserves` has no entry to state. `algebraic`: the idealized kernel
   program's run ends with its result array at the last boundary's contents of that buffer (Proof/KernelRun.lean),
   which is the reference's function of the argument arrays (Proof/KernelValue.lean), and the reference's run ends at
   the same function of arguments that agree.

   The mathematics of the value claim. Each tiled kernel's output array is one function of its input arrays, row by
   row (Proof/Payloads.lean, Proof/RegionArrays.lean); the head kernel's is its body's value of whole arrays
   (Proof/HeadArray.lean), equal to the reference's remaining operations (Proof/Head.lean). The kernel program scales
   the transformed features by the per-node scale before aggregating over the edges and once more after, where the
   reference weights every edge by both endpoint scales; the per-node scale is a nonnegative real, which multiplies
   through sums of extended reals (Proof/Law.lean), and an edge that lands on a node has that node as its clamped
   target, so the layers agree one by one (Proof/RefLayers.lean, Proof/RefExtra.lean, Proof/Bridge.lean). The
   precondition is never opened: no step needs a finite input. -/
import proofs.«118885_j83339545411634_2_alg».proof.Defs
import proofs.«118885_j83339545411634_2_alg».proof.Proof.Gen.Kernel
import proofs.«118885_j83339545411634_2_alg».proof.Proof.Gen.Kernel.Skeleton
import proofs.«118885_j83339545411634_2_alg».proof.Proof.Gen.Kernel.Launch
import proofs.«118885_j83339545411634_2_alg».proof.Proof.Gen.Kernel.Points
import proofs.«118885_j83339545411634_2_alg».proof.Proof.Gen.Kernel.Frame
import proofs.«118885_j83339545411634_2_alg».proof.Proof.Gen.KernelIdeal
import proofs.«118885_j83339545411634_2_alg».proof.Proof.Gen.KernelIdeal.Skeleton
import proofs.«118885_j83339545411634_2_alg».proof.Proof.Gen.KernelIdeal.Launch
import proofs.«118885_j83339545411634_2_alg».proof.Proof.Gen.KernelIdeal.Points
import proofs.«118885_j83339545411634_2_alg».proof.Proof.Gen.KernelIdeal.Frame
import proofs.«118885_j83339545411634_2_alg».proof.Proof.Gen.ReferenceIdeal
import proofs.«118885_j83339545411634_2_alg».proof.Proof.Gen.ReferenceIdeal.Run
import proofs.«118885_j83339545411634_2_alg».proof.Proof.Gen.ReferenceIdeal.Read
import proofs.«118885_j83339545411634_2_alg».proof.Proof.Gen.Pre_finite_inputs
import proofs.«118885_j83339545411634_2_alg».proof.Proof.KernelRun
import proofs.«118885_j83339545411634_2_alg».proof.Proof.KernelValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with their result at the reference's function of the argument arrays. -/
theorem algebraic : Cert.algebraic_KernelIdeal_ReferenceIdeal := by
  intro m ρ m' ρ' _ hagree
  refine ⟨fun c => Cert.ReferenceIdeal.Read.val_main_v164 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)), ?_, ?_⟩
  · exact (θ_run Cert.KernelIdeal.defs _ _).mono
      (fun r h c => ⟨(h c).1.trans (Cert.KernelIdeal.ResultValue.result_eq m ρ c), (h c).2⟩)
      (Cert.KernelIdeal.RunValue.run_value m ρ)
  · refine (θ_run Cert.ReferenceIdeal.defs _ _).mono (fun r h c => ⟨?_, (h c).2⟩)
      (Cert.ReferenceIdeal.Value.run (F := Ideal) m' ρ')
    obtain ⟨e0, e1, e2, e3, e4, e5, e6, e7, e8, e9, e10, e11, e12, e13, e14, e15, e16, e17⟩ := hagree c
    rw [(h c).1, Cert.ReferenceIdeal.Read.val_main_v164_eq, e0, e1, e2, e3, e4, e5, e6, e7, e8, e9, e10, e11, e12, e13, e14, e15, e16, e17]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
